-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x4096 : Shape := ⟨2, ![8192, 4096]⟩
abbrev S512x512 : Shape := ⟨2, ![512, 512]⟩
abbrev S512x1 : Shape := ⟨2, ![512, 1]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8192x512 .f32) (main_arg1 : FVec F S8192x4096 .f32) (main_arg2 : FVec F S512x512 .f32) (main_arg3 : FVec F S512x1 .f32) (main_arg4 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg4 main_v13 main_v16
-- ==== Kernel.lean ====
abbrev S8192x512 : Shape := ⟨2, ![8192, 512]⟩
abbrev S8192x4096 : Shape := ⟨2, ![8192, 4096]⟩
abbrev S512x512 : Shape := ⟨2, ![512, 512]⟩
abbrev S512x1 : Shape := ⟨2, ![512, 1]⟩
abbrev S512 : Shape := ⟨1, ![512]⟩
abbrev S4096x512 : Shape := ⟨2, ![4096, 512]⟩
abbrev S1x4096 : Shape := ⟨2, ![1, 4096]⟩
abbrev S2048x1024 : Shape := ⟨2, ![2048, 1024]⟩
abbrev S2048x512 : Shape := ⟨2, ![2048, 512]⟩
abbrev S1024x512 : Shape := ⟨2, ![1024, 512]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩
abbrev S_ : Shape := ⟨0, ![]⟩
abbrev S8192x1 : Shape := ⟨2, ![8192, 1]⟩
abbrev S2048x4096 : Shape := ⟨2, ![2048, 4096]⟩
abbrev S2048x1 : Shape := ⟨2, ![2048, 1]⟩
abbrev S2048 : Shape := ⟨1, ![2048]⟩
abbrev S2048x2048 : Shape := ⟨2, ![2048, 2048]⟩
abbrev S1x512 : Shape := ⟨2, ![1, 512]⟩

abbrev nBuf : Space → Nat
  | .hbm => 27
  | .vmem => 39
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512x512, .f32⟩
  | .hbm, ⟨3, _⟩ => ⟨S512x1, .f32⟩
  | .hbm, ⟨4, _⟩ => ⟨S512, .f32⟩
  | .hbm, ⟨5, _⟩ => ⟨S4096x512, .f32⟩
  | .hbm, ⟨6, _⟩ => ⟨S1x4096, .f32⟩
  | .hbm, ⟨7, _⟩ => ⟨S8192x4096, .bf16⟩
  | .hbm, ⟨8, _⟩ => ⟨S4096, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096, .f32⟩
  | .hbm, ⟨19, _⟩ => ⟨S1x4096, .f32⟩
  | .hbm, ⟨20, _⟩ => ⟨S8192x1, .f32⟩
  | .hbm, ⟨21, _⟩ => ⟨S8192x512, .f32⟩
  | .hbm, ⟨22, _⟩ => ⟨S4096, .f32⟩
  | .hbm, ⟨23, _⟩ => ⟨S4096x1, .f32⟩
  | .hbm, ⟨24, _⟩ => ⟨S4096x512, .f32⟩
  | .hbm, ⟨25, _⟩ => ⟨S1x512, .f32⟩
  | .hbm, ⟨26, _⟩ => ⟨S8192x512, .f32⟩
  | .local _ .vmem, ⟨0, _⟩ => ⟨S2048x1024, .f32⟩
  | .local _ .vmem, ⟨1, _⟩ => ⟨S2048x1024, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1x1024, .f32⟩
  | .local _ .vmem, ⟨8, _⟩ => ⟨S2048x1024, .bf16⟩
  | .local _ .vmem, ⟨9, _⟩ => ⟨S2048x1024, .bf16⟩
  | .local _ .vmem, ⟨10, _⟩ => ⟨S2048x4096, .bf16⟩
  | .local _ .vmem, ⟨11, _⟩ => ⟨S2048x4096, .bf16⟩
  | .local _ .vmem, ⟨12, _⟩ => ⟨S1x4096, .f32⟩
  | .local _ .vmem, ⟨13, _⟩ => ⟨S2048x1, .f32⟩
  | .local _ .vmem, ⟨14, _⟩ => ⟨S2048x1, .f32⟩
  | .local _ .vmem, ⟨15, _⟩ => ⟨S2048x512, .f32⟩
  | .local _ .vmem, ⟨16, _⟩ => ⟨S2048x512, .f32⟩
  | .local _ .vmem, ⟨17, _⟩ => ⟨S512x512, .f32⟩
  | .local _ .vmem, ⟨18, _⟩ => ⟨S2048x1, .f32⟩
  | .local _ .vmem, ⟨19, _⟩ => ⟨S2048x1, .f32⟩
  | .local _ .vmem, ⟨20, _⟩ => ⟨S2048x512, .f32⟩
  | .local _ .vmem, ⟨21, _⟩ => ⟨S2048x512, .f32⟩
  | .local _ .vmem, ⟨22, _⟩ => ⟨S2048x2048, .bf16⟩
  | .local _ .vmem, ⟨23, _⟩ => ⟨S2048x2048, .bf16⟩
  | .local _ .vmem, ⟨24, _⟩ => ⟨S2048x512, .f32⟩
  | .local _ .vmem, ⟨25, _⟩ => ⟨S2048x512, .f32⟩
  | .local _ .vmem, ⟨26, _⟩ => ⟨S2048x1, .f32⟩
  | .local _ .vmem, ⟨27, _⟩ => ⟨S2048x1, .f32⟩
  | .local _ .vmem, ⟨28, _⟩ => ⟨S2048x512, .f32⟩
  | .local _ .vmem, ⟨29, _⟩ => ⟨S2048x512, .f32⟩
  | .local _ .vmem, ⟨30, _⟩ => ⟨S2048x2048, .bf16⟩
  | .local _ .vmem, ⟨31, _⟩ => ⟨S2048x2048, .bf16⟩
  | .local _ .vmem, ⟨32, _⟩ => ⟨S2048x512, .f32⟩
  | .local _ .vmem, ⟨33, _⟩ => ⟨S2048x512, .f32⟩
  | .local _ .vmem, ⟨34, _⟩ => ⟨S2048x1, .f32⟩
  | .local _ .vmem, ⟨35, _⟩ => ⟨S2048x1, .f32⟩
  | .local _ .vmem, ⟨36, _⟩ => ⟨S1x512, .f32⟩
  | .local _ .vmem, ⟨37, _⟩ => ⟨S2048x512, .f32⟩
  | .local _ .vmem, ⟨38, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem4_1 : DmaSem sig := 38

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S2048x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S1024x512_S1024x512 : S1024x512.ShapeCasts S1024x512
  shapeCasts_S1x1024_S1x1024 : S1x1024.ShapeCasts S1x1024
  reduces_S2048x1024_S1024 : S2048x1024.Reduces [0] S1024
  shapeCasts_S1024_S1x1024 : S1024.ShapeCasts S1x1024
  packedbf16_S2048x1024_S2048x1024_0_0 : (Rect.unit (s := S2048x1024) ![0, 0] S2048x1024.size inb_S2048x1024_S2048x1024_0_0).PackedRows (EltTy.packing .bf16)
  shapeCasts_S1x4096_S4096 : S1x4096.ShapeCasts S4096
  bcast_S_S4096x1 : S_.BroadcastsInDim S4096x1 (![] : Fin 0 → Fin S4096x1.rank)
  shapeCasts_S4096x1_S4096 : S4096x1.ShapeCasts S4096
  transposes_S4096x1_S1x4096_1_0 : S4096x1.Transposes [1, 0] S1x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S2048x4096 : S1x4096.Broadcasts S2048x4096
  reduces_S2048x4096_S2048 : S2048x4096.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  inb_S512x512_S512x512_0_0 : ∀ a, (![0, 0] : Fin 2 → Nat) a + S512x512.size a ≤ S512x512.size a
  h_S512x512 : 0 < S512x512.numel
  shapeCasts_S2048x1_S2048x1 : S2048x1.ShapeCasts S2048x1
  broadcasts_S2048x1_S2048x512 : S2048x1.Broadcasts S2048x512
  bcast_S4096_S4096x1_0 : S4096.BroadcastsInDim S4096x1 (![0] : Fin 1 → Fin S4096x1.rank)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S2048x512_S2048x512 : S2048x512.ShapeCasts S2048x512
  bcast_S512_S1x512_1 : S512.BroadcastsInDim S1x512 (![1] : Fin 1 → Fin S1x512.rank)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x1024_S2048x512_S1024x512_0_0_1_1_n_n_wf : DotDims.WF S2048x1024 S2048x512 S1024x512 [0] [0] [1] [1] [] []
  dot_S4096x512_S512x1_S4096x1_1_0_0_1_n_n_wf : DotDims.WF S4096x512 S512x1 S4096x1 [1] [0] [0] [1] [] []
  dot_S2048x512_S512x512_S2048x512_1_0_0_1_n_n_wf : DotDims.WF S2048x512 S512x512 S2048x512 [1] [0] [0] [1] [] []
  dot_S2048x2048_S2048x512_S2048x512_0_0_1_1_n_n_wf : DotDims.WF S2048x2048 S2048x512 S2048x512 [0] [0] [1] [1] [] []
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .f32 = 32 ∨ (Rect.block (s := S8192x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .bf16 = 32 ∨ (Rect.block (s := S8192x4096) S2048x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S8192x4096.size a
  hwx1_0 : ∀ i : grid1.Coords, EltTy.bits .bf16 = 32 ∨ (Rect.block (s := S8192x4096) S2048x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x512.size a
  hwx2_0 : ∀ i : grid2.Coords, EltTy.bits .f32 = 32 ∨ (Rect.block (s := S8192x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S8192x512.size a
  hwx2_3 : ∀ i : grid2.Coords, EltTy.bits .f32 = 32 ∨ (Rect.block (s := S8192x512) S2048x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S8192x4096.size a
  hwx3_0 : ∀ i : grid3.Coords, EltTy.bits .bf16 = 32 ∨ (Rect.block (s := S8192x4096) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S8192x512.size a
  hwx3_1 : ∀ i : grid3.Coords, EltTy.bits .f32 = 32 ∨ (Rect.block (s := S8192x512) S2048x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S4096x1.size a
  hwx3_2 : ∀ i : grid3.Coords, EltTy.bits .f32 = 32 ∨ (Rect.block (s := S4096x1) S2048x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x512.size a ≤ S4096x512.size a
  hwx3_3 : ∀ i : grid3.Coords, EltTy.bits .f32 = 32 ∨ (Rect.block (s := S4096x512) S2048x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S8192x4096.size a
  hwx4_0 : ∀ i : grid4.Coords, EltTy.bits .bf16 = 32 ∨ (Rect.block (s := S8192x4096) S2048x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S4096x512.size a
  hwx4_1 : ∀ i : grid4.Coords, EltTy.bits .f32 = 32 ∨ (Rect.block (s := S4096x512) S2048x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S8192x1.size a
  hwx4_2 : ∀ i : grid4.Coords, EltTy.bits .f32 = 32 ∨ (Rect.block (s := S8192x1) S2048x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x512.size a ≤ S8192x512.size a
  hwx4_4 : ∀ i : grid4.Coords, EltTy.bits .f32 = 32 ∨ (Rect.block (s := S8192x512) S2048x512.size (cc4_transform_4 i) (hinb4_4 i)).WholeWords (EltTy.packing .f32)

variable [Facts₀]

def dot_S2048x1024_S2048x512_S1024x512_0_0_1_1_n_n : DotDims S2048x1024 S2048x512 S1024x512 where
  lhsContracting := [0]
  rhsContracting := [0]
  lhsNonContracting := [1]
  rhsNonContracting := [1]
  lhsBatch := []
  rhsBatch := []
  wf := dot_S2048x1024_S2048x512_S1024x512_0_0_1_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x2048_S2048x512_S2048x512_0_0_1_1_n_n : DotDims S2048x2048 S2048x512 S2048x512 where
  lhsContracting := [0]
  rhsContracting := [0]
  lhsNonContracting := [1]
  rhsNonContracting := [1]
  lhsBatch := []
  rhsBatch := []
  wf := dot_S2048x2048_S2048x512_S2048x512_0_0_1_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_2) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v0_2) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S2048x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v0_2) S2048x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S2048x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v16) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v17) S2048x512.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S8192x512 : Shape := ⟨2, ![8192, 512]⟩
abbrev S8192x4096 : Shape := ⟨2, ![8192, 4096]⟩
abbrev S512x512 : Shape := ⟨2, ![512, 512]⟩
abbrev S512x1 : Shape := ⟨2, ![512, 1]⟩
abbrev S512 : Shape := ⟨1, ![512]⟩
abbrev S4096x8192 : Shape := ⟨2, ![4096, 8192]⟩
abbrev S4096x512 : Shape := ⟨2, ![4096, 512]⟩
abbrev S4096x1 : Shape := ⟨2, ![4096, 1]⟩
abbrev S_ : Shape := ⟨0, ![]⟩
abbrev S4096 : Shape := ⟨1, ![4096]⟩
abbrev S8192x1 : Shape := ⟨2, ![8192, 1]⟩
abbrev S8192 : Shape := ⟨1, ![8192]⟩
abbrev S1x512 : Shape := ⟨2, ![1, 512]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512x512, .f32⟩
  | .hbm, ⟨3, _⟩ => ⟨S512x1, .f32⟩
  | .hbm, ⟨4, _⟩ => ⟨S512, .f32⟩
  | .hbm, ⟨5, _⟩ => ⟨S4096x8192, .f32⟩
  | .hbm, ⟨6, _⟩ => ⟨S4096x512, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096, .f32⟩
  | .hbm, ⟨17, _⟩ => ⟨S8192x1, .f32⟩
  | .hbm, ⟨18, _⟩ => ⟨S8192, .f32⟩
  | .hbm, ⟨19, _⟩ => ⟨S_, .f32⟩
  | .hbm, ⟨20, _⟩ => ⟨S4096, .f32⟩
  | .hbm, ⟨21, _⟩ => ⟨S8192x512, .f32⟩
  | .hbm, ⟨22, _⟩ => ⟨S4096x8192, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S4096x512, .f32⟩
  | .hbm, ⟨27, _⟩ => ⟨S4096, .f32⟩
  | .hbm, ⟨28, _⟩ => ⟨S4096x1, .f32⟩
  | .hbm, ⟨29, _⟩ => ⟨S4096x512, .f32⟩
  | .hbm, ⟨30, _⟩ => ⟨S4096x512, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  transposes_S8192x4096_S4096x8192_1_0 : S8192x4096.Transposes [1, 0] S4096x8192
  bcast_S_S4096x1 : S_.BroadcastsInDim S4096x1 (![] : Fin 0 → Fin S4096x1.rank)
  shapeCasts_S4096x1_S4096 : S4096x1.ShapeCasts S4096
  shapeCasts_S8192x1_S8192 : S8192x1.ShapeCasts S8192
  reducesTo_S8192x4096_S4096_d0 : S8192x4096.ReducesTo [0] S4096
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S4096x8192_S8192x512_S4096x512_1_0_0_1_n_n_wf : DotDims.WF S4096x8192 S8192x512 S4096x512 [1] [0] [0] [1] [] []
  dot_S4096x512_S512x1_S4096x1_1_0_0_1_n_n_wf : DotDims.WF S4096x512 S512x1 S4096x1 [1] [0] [0] [1] [] []
  dot_S8192x4096_S4096x1_S8192x1_1_0_0_1_n_n_wf : DotDims.WF S8192x4096 S4096x1 S8192x1 [1] [0] [0] [1] [] []
  dot_S8192x512_S512x512_S8192x512_1_0_0_1_n_n_wf : DotDims.WF S8192x512 S512x512 S8192x512 [1] [0] [0] [1] [] []
  dot_S8192x4096_S4096x512_S8192x512_1_0_0_1_n_n_wf : DotDims.WF S8192x4096 S4096x512 S8192x512 [1] [0] [0] [1] [] []

variable [Facts₀]

def dot_S4096x8192_S8192x512_S4096x512_1_0_0_1_n_n : DotDims S4096x8192 S8192x512 S4096x512 where
  lhsContracting := [1]
  rhsContracting := [0]
  lhsNonContracting := [0]
  rhsNonContracting := [1]
  lhsBatch := []
  rhsBatch := []
  wf := dot_S4096x8192_S8192x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf
def dot_S8192x4096_S4096x1_S8192x1_1_0_0_1_n_n : DotDims S8192x4096 S4096x1 S8192x1 where
  lhsContracting := [1]
  rhsContracting := [0]
  lhsNonContracting := [0]
  rhsNonContracting := [1]
  lhsBatch := []
  rhsBatch := []
  wf := dot_S8192x4096_S4096x1_S8192x1_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x4096_S4096x512_S8192x512_1_0_0_1_n_n : DotDims S8192x4096 S4096x512 S8192x512 where
  lhsContracting := [1]
  rhsContracting := [0]
  lhsNonContracting := [0]
  rhsNonContracting := [1]
  lhsBatch := []
  rhsBatch := []
  wf := dot_S8192x4096_S4096x512_S8192x512_1_0_0_1_n_n_wf

class Facts : Prop extends Facts₀ where

variable [Facts]
-- ==== Proof.KernelRun.lean ====
/-
  The idealized program's run with its two results NAMED. Every weakly fair execution from a memory `m` terminates
  without a fault; at the end each unscoped buffer of core `c` holds what the fold of the program's segments leaves
  there (`Gen.W8 m ρ c`): in particular the two result arrays, and the five argument arrays, which nothing writes.
-/
import proofs.«113879_j86895778333083_2_alg».proof.Proof.Gen.KernelIdeal.Frame

set_option maxRecDepth 16384

noncomputable section

namespace Cert.Hgnn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the fold's final contents, the arguments as launched. -/
theorem run : θ_run defs (onTc (τ := τ) (main (F := F))) ⟨m, fun _ => 0, ρ⟩ (fun r => ∀ c : Dev nD,
      r.2.mem ((c.tc : Thread nD τ).loc main_v17) = W8 m ρ c (Proc.devRef .tc main_v17)
      ∧ r.2.mem ((c.tc : Thread nD τ).loc main_v9) = W8 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v17 (by decide)),
       h c _ (mem_uc main_v9 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.Hgnn.KernelRun

end
-- ==== Proof.Spec.lean ====
/-
  The mathematics of one hypergraph convolution layer, as functions of arrays of extended reals, stage by stage.

  With H the node-by-hyperedge incidence array (8192 nodes, 4096 hyperedges), x the node features (512 wide),
  W the 512 x 512 weight, and a learned hyperedge weight hw:

    emb  = H^T x                      hyperedge embeddings                [4096, 512]
    dege = column sums of H           hyperedge degrees                   [1, 4096]
    degv = H hw                       weighted node degrees               [8192, 1]
    y    = degv . (x W)               row-scaled projected features       [8192, 512]
    t    = (H^T y) . wd               row-scaled hyperedge aggregate      [4096, 512]
    out  = degv . (H t) + bias        row-scaled node aggregate plus bias [8192, 512]

  Each stage is written twice. The BLOCKED form sums the nodes (or hyperedges) block by block, 2048 at a time, the way a
  tiled accumulation visits them, and the embedding carries a second, compensating product with x - x. The FLAT form
  is one sum over the whole axis. Addition of extended reals is commutative and associative, so regrouping a finite
  sum never changes it; the compensating product vanishes exactly when x is finite (x - x = 0 fails at an infinity).
-/
import Idealize.ShloMosaic.PureOps.Ideal
import Idealize.ShloMosaic.Lib.ValueIdx

noncomputable section

open scoped BigOperators

namespace Cert.Hgnn

open Idealize.ShloMosaic Idealize.ShloMosaic.ValueIdx

/-- A rank-2 array of extended reals with `a` rows and `b` columns. -/
abbrev Arr (a b : Nat) : Type := (⟨2, ![a, b]⟩ : Shape).Idx → EReal

/-- Node `r` of node block `b`: the nodes are visited in four blocks of 2048. -/
def node (b : Fin 4) (r : Fin 2048) : Fin 8192 := ⟨b.val * 2048 + r.val, by omega⟩

/-- Hyperedge `r` of hyperedge block `b`: the hyperedges are visited in two blocks of 2048. -/
def edge (b : Fin 2) (r : Fin 2048) : Fin 4096 := ⟨b.val * 2048 + r.val, by omega⟩

/-! ## Blocked forms -/

/-- One node block's contribution to the embedding of hyperedge `e` at feature `k`: the block's incidence column
    against the features, plus the same column against the compensating term `x - x`. -/
def embBlock (H : Arr 8192 4096) (x : Arr 8192 512) (e : Fin 4096) (k : Fin 512) (b : Fin 4) : EReal :=
  (∑ r : Fin 2048, H (ix2 (node b r) e) * x (ix2 (node b r) k))
    + ∑ r : Fin 2048, H (ix2 (node b r) e) * (x (ix2 (node b r) k) - x (ix2 (node b r) k))

/-- Hyperedge embeddings, node block by node block. -/
def embB (H : Arr 8192 4096) (x : Arr 8192 512) : Arr 4096 512 :=
  fun i => ∑ b : Fin 4, embBlock H x (i 0) (i 1) b

/-- Hyperedge degrees as a row, node block by node block. -/
def degeB (H : Arr 8192 4096) : Arr 1 4096 :=
  fun i => ∑ b : Fin 4, ∑ r : Fin 2048, H (ix2 (node b r) (i 1))

/-- Weighted node degrees as a column: each incidence row against the hyperedge weights laid out as a row. -/
def degvB (H : Arr 8192 4096) (hwRow : Arr 1 4096) : Arr 8192 1 :=
  fun i => ∑ e : Fin 4096, H (ix2 (i 0) e) * hwRow (ix2 (0 : Fin 1) e)

/-- Projected features scaled row by row with the node degrees. -/
def yB (x : Arr 8192 512) (W : Arr 512 512) (degv : Arr 8192 1) : Arr 8192 512 :=
  fun i => degv (ix2 (i 0) (0 : Fin 1)) * ∑ k : Fin 512, x (ix2 (i 0) k) * W (ix2 k (i 1))

/-- Hyperedge aggregate of `y`, node block by node block, then scaled row by row with `wd` on the right. -/
def tB (H : Arr 8192 4096) (y : Arr 8192 512) (wd : Arr 4096 1) : Arr 4096 512 :=
  fun i => (∑ b : Fin 4, ∑ r : Fin 2048, H (ix2 (node b r) (i 0)) * y (ix2 (node b r) (i 1))) * wd (ix2 (i 0) (0 : Fin 1))

/-- Node aggregate of `t`, hyperedge block by hyperedge block, scaled row by row with the node degrees, plus the bias row. -/
def outB (H : Arr 8192 4096) (t : Arr 4096 512) (degv : Arr 8192 1) (biasRow : Arr 1 512) : Arr 8192 512 :=
  fun i => degv (ix2 (i 0) (0 : Fin 1)) * (∑ b : Fin 2, ∑ r : Fin 2048, H (ix2 (i 0) (edge b r)) * t (ix2 (edge b r) (i 1)))
    + biasRow (ix2 (0 : Fin 1) (i 1))

/-! ## Flat forms -/

/-- Hyperedge embeddings: one sum over all nodes. -/
def embF (H : Arr 8192 4096) (x : Arr 8192 512) : Arr 4096 512 :=
  fun i => ∑ n : Fin 8192, H (ix2 n (i 0)) * x (ix2 n (i 1))

/-- Hyperedge degrees as a row: one sum over all nodes. -/
def degeF (H : Arr 8192 4096) : Arr 1 4096 :=
  fun i => ∑ n : Fin 8192, H (ix2 n (i 1))

/-- Hyperedge aggregate, one sum over all nodes, scaled on the right. -/
def tF (H : Arr 8192 4096) (y : Arr 8192 512) (wd : Arr 4096 1) : Arr 4096 512 :=
  fun i => (∑ n : Fin 8192, H (ix2 n (i 0)) * y (ix2 n (i 1))) * wd (ix2 (i 0) (0 : Fin 1))

/-- Node aggregate, one sum over all hyperedges, scaled and shifted. -/
def outF (H : Arr 8192 4096) (t : Arr 4096 512) (degv : Arr 8192 1) (biasRow : Arr 1 512) : Arr 8192 512 :=
  fun i => degv (ix2 (i 0) (0 : Fin 1)) * (∑ e : Fin 4096, H (ix2 (i 0) e) * t (ix2 e (i 1))) + biasRow (ix2 (0 : Fin 1) (i 1))

end Cert.Hgnn

end
-- ==== Proof.Model.lean ====
/-
  The whole layer as ONE function of its five argument arrays, twice: composed from the blocked stage forms (the
  order a tiled accumulation visits the nodes and hyperedges in) and from the flat ones (one sum per axis).

  The learned hyperedge weight is hw = sigmoid (emb V), the sigmoid spelled 1 / (1 + exp (- z)) on the extended reals;
  the same scalar function appears on both sides and is never opened. The remaining glue only re-lays arrays out:
  a column read as a row, the product of two vectors laid out as a column, a vector laid out as a row.
-/
import proofs.«113879_j86895778333083_2_alg».proof.Proof.Spec

noncomputable section

open scoped BigOperators

namespace Cert.Hgnn

open Idealize.ShloMosaic Idealize.ShloMosaic.ValueIdx

/-- A rank-1 array of extended reals. -/
abbrev Arr1 (a : Nat) : Type := (⟨1, ![a]⟩ : Shape).Idx → EReal

/-- The float one, as an extended real. -/
def one : EReal := FloatOps.ofBits (F := Ideal) .f32 0x3F800000#32

/-- The logistic function as the programs spell it: 1 / (1 + exp (- z)), each operation the exact one on the extended reals. -/
def sigm (z : EReal) : EReal :=
  FloatOps.hostDivf (F := Ideal) (φ := .f32) one (FloatOps.addf (F := Ideal) (φ := .f32) one
    (FloatOps.hostUnary (F := Ideal) (φ := .f32) .exp (FloatOps.hostNegf (F := Ideal) (φ := .f32) z)))

/-- The learned hyperedge weights as a column: the logistic function of the embeddings against the vector `Vv`. -/
def hwOf (emb : Arr 4096 512) (Vv : Arr 512 1) : Arr 4096 1 :=
  fun i => sigm (∑ k : Fin 512, emb (ix2 (i 0) k) * Vv (ix2 k (0 : Fin 1)))

/-- A column read as a row. -/
def rowOf (hw : Arr 4096 1) : Arr 1 4096 := fun i => hw (ix2 (i 1) (0 : Fin 1))

/-- A column read as a vector. -/
def vecOf (hw : Arr 4096 1) : Arr1 4096 := fun i => hw (ix2 (i 0) (0 : Fin 1))

/-- The right scale of the hyperedge aggregate: hyperedge weight times hyperedge degree, as a column. -/
def wdOf (hw : Arr 4096 1) (dege : Arr 1 4096) : Arr 4096 1 :=
  fun i => hw (ix2 (i 0) (0 : Fin 1)) * dege (ix2 (0 : Fin 1) (i 0))

/-- The bias vector laid out as a row. -/
def biasRowOf (bias : Arr1 512) : Arr 1 512 := fun i => bias (ix1 (i 1))

/-- The layer's output, composed from the blocked stages. -/
def layerB (x : Arr 8192 512) (H : Arr 8192 4096) (W : Arr 512 512) (Vv : Arr 512 1) (bias : Arr1 512) : Arr 8192 512 :=
  outB H (tB H (yB x W (degvB H (rowOf (hwOf (embB H x) Vv)))) (wdOf (hwOf (embB H x) Vv) (degeB H)))
    (degvB H (rowOf (hwOf (embB H x) Vv))) (biasRowOf bias)

/-- The layer's second result, the hyperedge weights as a vector, from the blocked embeddings. -/
def weightsB (x : Arr 8192 512) (H : Arr 8192 4096) (Vv : Arr 512 1) : Arr1 4096 := vecOf (hwOf (embB H x) Vv)

/-- The layer's output, composed from the flat stages. -/
def layerF (x : Arr 8192 512) (H : Arr 8192 4096) (W : Arr 512 512) (Vv : Arr 512 1) (bias : Arr1 512) : Arr 8192 512 :=
  outF H (tF H (yB x W (degvB H (rowOf (hwOf (embF H x) Vv)))) (wdOf (hwOf (embF H x) Vv) (degeF H)))
    (degvB H (rowOf (hwOf (embF H x) Vv))) (biasRowOf bias)

/-- The layer's second result from the flat embeddings. -/
def weightsF (x : Arr 8192 512) (H : Arr 8192 4096) (Vv : Arr 512 1) : Arr1 4096 := vecOf (hwOf (embF H x) Vv)

end Cert.Hgnn

end
-- ==== Proof.KernelGlue.lean ====
/-
  The host operations between the five tiled stages only re-lay arrays out, apart from one small product and the
  logistic function. Read at an index: the embeddings against the vector V through the logistic function give the
  hyperedge weights as a column; its transpose is that column read as a row; its reshape that column read as a vector;
  the product of two reshaped vectors broadcast to a column is weight times degree; a vector broadcast along a leading
  unit axis is that vector as a row.
-/
import proofs.«113879_j86895778333083_2_alg».proof.Proof.Model
import proofs.«113879_j86895778333083_2_alg».proof.Proof.Gen.KernelIdeal
import Idealize.ShloMosaic.PureOps.Ideal.Laws
import Idealize.ShloMosaic.Lib.Pipeline.Value
import Idealize.ShloMosaic.Lib.ValueIdx

noncomputable section

open scoped BigOperators

namespace Cert.Hgnn.KernelGlue

open Cert.KernelIdeal Cert.KernelIdeal.Facts₀ Cert.KernelIdeal.Facts
open Idealize.ShloMosaic Idealize.ShloMosaic.ValueIdx

/-! ## The product of the embeddings with the vector V, at an index -/

theorem lhs_0 (i : S4096x1.Idx) (q : dot_S4096x512_S512x1_S4096x1_1_0_0_1_n_n.contr.Idx) :
    (dot_S4096x512_S512x1_S4096x1_1_0_0_1_n_n.lhsIdx i q 0).val = (i 0).val := by
  unfold DotDims.lhsIdx
  rw [dif_neg (show ¬(0 : Fin S4096x512.rank) ∈ dot_S4096x512_S512x1_S4096x1_1_0_0_1_n_n.lhsBatch by decide), dif_pos (show (0 : Fin S4096x512.rank) ∈ dot_S4096x512_S512x1_S4096x1_1_0_0_1_n_n.lhsNonContracting by decide)]
  rfl
theorem lhs_1 (i : S4096x1.Idx) (q : dot_S4096x512_S512x1_S4096x1_1_0_0_1_n_n.contr.Idx) :
    (dot_S4096x512_S512x1_S4096x1_1_0_0_1_n_n.lhsIdx i q 1).val = (q ⟨0, by decide⟩).val :=
  dot_S4096x512_S512x1_S4096x1_1_0_0_1_n_n.lhsIdx_val_of_single rfl i q
theorem rhs_0 (i : S4096x1.Idx) (q : dot_S4096x512_S512x1_S4096x1_1_0_0_1_n_n.contr.Idx) :
    (dot_S4096x512_S512x1_S4096x1_1_0_0_1_n_n.rhsIdx i q 0).val = (q ⟨0, by decide⟩).val :=
  dot_S4096x512_S512x1_S4096x1_1_0_0_1_n_n.rhsIdx_val_of_single rfl i q
theorem rhs_1 (i : S4096x1.Idx) (q : dot_S4096x512_S512x1_S4096x1_1_0_0_1_n_n.contr.Idx) :
    (dot_S4096x512_S512x1_S4096x1_1_0_0_1_n_n.rhsIdx i q 1).val = (i 1).val := by
  unfold DotDims.rhsIdx
  rw [dif_neg (show ¬(1 : Fin S512x1.rank) ∈ dot_S4096x512_S512x1_S4096x1_1_0_0_1_n_n.rhsBatch by decide), dif_pos (show (1 : Fin S512x1.rank) ∈ dot_S4096x512_S512x1_S4096x1_1_0_0_1_n_n.rhsNonContracting by decide)]
  rfl

/-- Row e of the embeddings against V: the sum over the 512 features. -/
theorem dot_apply (emb : FVec Ideal S4096x512 .f32) (Vv : FVec Ideal S512x1 .f32) (i : S4096x1.Idx) :
    Host.dotGeneral dot_S4096x512_S512x1_S4096x1_1_0_0_1_n_n none emb Vv i
      = ∑ k : Fin 512, emb (ix2 (i 0) k) * Vv (ix2 k (0 : Fin 1)) := by
  simp only [Host.dotGeneral]
  rw [Ideal.dotGeneral_apply, ← Equiv.sum_comp (ValueIdx.contrEquiv1 dot_S4096x512_S512x1_S4096x1_1_0_0_1_n_n 512 rfl rfl).symm]
  refine Finset.sum_congr rfl fun k _ => ?_
  have hk := ValueIdx.contrEquiv1_symm_val dot_S4096x512_S512x1_S4096x1_1_0_0_1_n_n 512 rfl rfl k
  have el : dot_S4096x512_S512x1_S4096x1_1_0_0_1_n_n.lhsIdx i ((ValueIdx.contrEquiv1 dot_S4096x512_S512x1_S4096x1_1_0_0_1_n_n 512 rfl rfl).symm k) = ix2 (i 0) k := funext fun a => Fin.ext (by
    match a with
    | ⟨0, _⟩ => exact lhs_0 _ _
    | ⟨1, _⟩ => exact (lhs_1 _ _).trans hk)
  have er : dot_S4096x512_S512x1_S4096x1_1_0_0_1_n_n.rhsIdx i ((ValueIdx.contrEquiv1 dot_S4096x512_S512x1_S4096x1_1_0_0_1_n_n 512 rfl rfl).symm k) = ix2 k (0 : Fin 1) := funext fun a => Fin.ext (by
    match a with
    | ⟨0, _⟩ => exact (rhs_0 _ _).trans hk
    | ⟨1, _⟩ => exact (rhs_1 _ _).trans (Nat.lt_one_iff.mp (i 1).isLt))
  rw [el, er]; rfl

/-- The logistic chain over that product is the model's hyperedge-weight column. -/
theorem hw_eq (emb : FVec Ideal S4096x512 .f32) (Vv : FVec Ideal S512x1 .f32) :
    Host.divf (broadcastInDim S4096x1 ![] bcast_S_S4096x1 (constant (F := Ideal) S_ .f32 0x3F800000#32))
      (addf (broadcastInDim S4096x1 ![] bcast_S_S4096x1 (constant (F := Ideal) S_ .f32 0x3F800000#32))
        (Host.exp (Host.negf (Host.dotGeneral dot_S4096x512_S512x1_S4096x1_1_0_0_1_n_n none emb Vv))))
      = hwOf emb Vv := by
  funext i
  have hb : broadcastInDim S4096x1 ![] bcast_S_S4096x1 (constant (F := Ideal) S_ .f32 0x3F800000#32) i = one :=
    broadcastInDim_apply _ bcast_S_S4096x1 (constant (F := Ideal) S_ .f32 0x3F800000#32) i (fun a => a.elim0) (fun a => a.elim0)
  show FloatOps.hostDivf (broadcastInDim S4096x1 ![] bcast_S_S4096x1 (constant (F := Ideal) S_ .f32 0x3F800000#32) i)
      (FloatOps.addf (broadcastInDim S4096x1 ![] bcast_S_S4096x1 (constant (F := Ideal) S_ .f32 0x3F800000#32) i)
        (FloatOps.hostUnary .exp (FloatOps.hostNegf (Host.dotGeneral dot_S4096x512_S512x1_S4096x1_1_0_0_1_n_n none emb Vv i)))) = _
  rw [hb, dot_apply]
  rfl

/-- A column transposed is that column read as a row. -/
theorem row_eq (hw : FVec Ideal S4096x1 .f32) : transpose S1x4096 [1, 0] hw transposes_S4096x1_S1x4096_1_0 = rowOf hw := by
  funext i
  exact transpose_apply [1, 0] hw transposes_S4096x1_S1x4096_1_0 i (ix2 (i 1) (0 : Fin 1)) (fun b => match b with
    | ⟨0, _⟩ => (Nat.lt_one_iff.mp (i 0).isLt).symm
    | ⟨1, _⟩ => rfl)

/-- A column reshaped to a vector is that column read as a vector. -/
theorem vec_eq (hw : FVec Ideal S4096x1 .f32) : shapeCast S4096 hw shapeCasts_S4096x1_S4096 = vecOf hw := by
  funext i
  exact shapeCast_apply hw shapeCasts_S4096x1_S4096 i (ix2 (i 0) (0 : Fin 1))
    (by rewrite [Shape.rowMajor_val_two, Shape.rowMajor_val_one]; show (i 0).val * 1 + 0 = (i 0).val; omega)

/-- Weight times degree, laid out as a column. -/
theorem wd_eq (hw : FVec Ideal S4096x1 .f32) (dege : FVec Ideal S1x4096 .f32) :
    broadcastInDim S4096x1 ![0] bcast_S4096_S4096x1_0
      (mulf (shapeCast S4096 hw shapeCasts_S4096x1_S4096) (shapeCast S4096 dege shapeCasts_S1x4096_S4096)) = wdOf hw dege := by
  funext i
  rw [broadcastInDim_apply _ bcast_S4096_S4096x1_0 _ i (ix1 (i 0)) (fun a => match a with
    | ⟨0, _⟩ => by show (i 0).val = if (4096 : Nat) = 1 then 0 else (i 0).val; rw [if_neg (by decide)])]
  show shapeCast S4096 hw shapeCasts_S4096x1_S4096 (ix1 (i 0)) * shapeCast S4096 dege shapeCasts_S1x4096_S4096 (ix1 (i 0)) = _
  rw [shapeCast_apply hw shapeCasts_S4096x1_S4096 (ix1 (i 0)) (ix2 (i 0) (0 : Fin 1))
      (by rewrite [Shape.rowMajor_val_two, Shape.rowMajor_val_one]; show (i 0).val * 1 + 0 = (i 0).val; omega),
    shapeCast_apply dege shapeCasts_S1x4096_S4096 (ix1 (i 0)) (ix2 (0 : Fin 1) (i 0))
      (by rewrite [Shape.rowMajor_val_two, Shape.rowMajor_val_one]; show 0 * 4096 + (i 0).val = (i 0).val; omega)]
  rfl

/-- The bias vector broadcast along a leading unit axis is that vector as a row. -/
theorem biasRow_eq (b : FVec Ideal S512 .f32) : broadcastInDim S1x512 ![1] bcast_S512_S1x512_1 b = biasRowOf b := by
  funext i
  exact broadcastInDim_apply _ bcast_S512_S1x512_1 b i (ix1 (i 1)) (fun a => match a with
    | ⟨0, _⟩ => by show (i 1).val = if (512 : Nat) = 1 then 0 else (i 1).val; rw [if_neg (by decide)])

end Cert.Hgnn.KernelGlue

end
-- ==== Proof.RegionEmb.lean ====
/-
  The hyperedge embeddings the first region leaves in its first output array.

  The region visits a 4 x 4 grid: point t works on hyperedge block t / 4 (1024 hyperedges) and node block t % 4
  (2048 nodes). At every point it adds to a [1024, 512] accumulator block the product, over the 2048 nodes of the
  node block, of the incidence block's column with the feature block's row, plus the same column against the
  compensating term x - x. The accumulator is reset to zero before the first node block (t % 4 = 0) and written back
  to rows 1024 (t / 4) .. 1024 (t / 4) + 1023 of the output after the last one (t % 4 = 3). So after the write-back
  the entry for hyperedge e and feature k is the sum over the four node blocks of that block's contribution, which
  is the blocked form of the embedding. Only commutativity-free facts are used: 0 + a = a and the order of the
  additions is the order of the node blocks.
-/
import proofs.«113879_j86895778333083_2_alg».proof.Proof.Spec
import proofs.«113879_j86895778333083_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic
noncomputable section
open Idealize.ShloMosaic Idealize.ShloMosaic.TcCoe Idealize.SL.Sem
open Idealize.ShloMosaic.Pipeline (Dat)
open scoped BigOperators
namespace Cert.Hgnn.RegionEmb
open Cert.KernelIdeal Cert.KernelIdeal.Gen
open Idealize.ShloMosaic.ValueIdx
variable (V : (c : Dev nD) → (b : Ref sig .tc) → Buf (Elt Ideal) ((c : Thread nD τ).loc b))

/-! ## What one grid point leaves in the accumulator block -/

theorem hz : (![0, 0] : Fin 2 → Nat) = fun _ => 0 := funext fun a => by fin_cases a <;> rfl

/-- At a point that is not the first of its hyperedge block the accumulator, holding `xo2`, is replaced by the
    accumulation step applied to the two input blocks and `xo2`. -/
theorem out_B (c : Dev nD) (i : grid0.Coords) (a2 : Memref sig .tc .vmem S2048x1024 .f32) (h2 : a2.IsWhole)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .bf16) (h6 : a6.IsWhole)
    (hc : ¬cond0_0 i) (x0 : Vec Ideal S2048x1024 .f32) (x1 : Vec Ideal S2048x512 .f32) (xo2 : Vec Ideal S1024x512 .f32) (xo3 : Vec Ideal S1x1024 .f32) :
    out0_B_2 (F := Ideal) c i a2 h2 a3 h3 a4 h4 a5 h5 a6 h6 hc x0 x1 xo2 xo3 = k0_pay4 x0 x1 xo2 := by
  unfold out0_B_2
  rw [View.read_writes_eq_canon _ _ _ (cover0_B_2 c i a2 h2 a3 h3 a4 h4 a5 h5 a6 h6 hc x0 x1 xo2 xo3)]
  unfold kernelRun0_B
  dsimp only
  rw [View.canon_unit_zero hz]
  simp only [View.readAt_eq_ld, h2.read_unread, h3.read_unread, h4.read_unread, View.ld_unit_zero (S := S2048x1024) hz, View.ld_unit_zero (S := S2048x512) hz, View.ld_unit_zero (S := S1024x512) hz]

/-- At the first point of a hyperedge block the accumulator is first set to the zero block, read back, and
    replaced by the accumulation step applied to the two input blocks and that zero block. -/
theorem out_A (c : Dev nD) (i : grid0.Coords) (a2 : Memref sig .tc .vmem S2048x1024 .f32) (h2 : a2.IsWhole)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .bf16) (h6 : a6.IsWhole)
    (hc : cond0_0 i) (x0 : Vec Ideal S2048x1024 .f32) (x1 : Vec Ideal S2048x512 .f32) :
    out0_A_2 (F := Ideal) c i a2 h2 a3 h3 a4 h4 a5 h5 a6 h6 hc x0 x1 = k0_pay4 x0 x1 (k0_pay1 (F := Ideal)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1024x512) hz, View.readCov_unit_zero (S := S1024x512) _ hz]
  simp only [View.readAt_eq_ld, h2.read_unread, h3.read_unread, View.ld_unit_zero (S := S2048x1024) hz, View.ld_unit_zero (S := S2048x512) hz]

/-! ## The accumulation step at an index

  Both products contract the node axis (axis 0) of the incidence block [2048, 1024] and of the feature block
  [2048, 512]; the contraction's own index set has one axis of extent 2048. -/

/-- The contraction index set of the product over the node axis is `Fin 2048`. -/
abbrev nodeContr : dot_S2048x1024_S2048x512_S1024x512_0_0_1_1_n_n.contr.Idx ≃ Fin 2048 :=
  contrEquiv1 dot_S2048x1024_S2048x512_S1024x512_0_0_1_1_n_n 2048 rfl rfl

/-- The incidence operand's hyperedge coordinate is the output's row. -/
theorem lhs_1 (i : S1024x512.Idx) (q : dot_S2048x1024_S2048x512_S1024x512_0_0_1_1_n_n.contr.Idx) :
    (dot_S2048x1024_S2048x512_S1024x512_0_0_1_1_n_n.lhsIdx i q 1).val = (i 0).val := by
  unfold DotDims.lhsIdx
  rw [dif_neg (show ¬(1 : Fin S2048x1024.rank) ∈ dot_S2048x1024_S2048x512_S1024x512_0_0_1_1_n_n.lhsBatch by decide), dif_pos (show (1 : Fin S2048x1024.rank) ∈ dot_S2048x1024_S2048x512_S1024x512_0_0_1_1_n_n.lhsNonContracting by decide)]
  rfl
/-- The feature operand's feature coordinate is the output's column. -/
theorem rhs_1 (i : S1024x512.Idx) (q : dot_S2048x1024_S2048x512_S1024x512_0_0_1_1_n_n.contr.Idx) :
    (dot_S2048x1024_S2048x512_S1024x512_0_0_1_1_n_n.rhsIdx i q 1).val = (i 1).val := by
  unfold DotDims.rhsIdx
  rw [dif_neg (show ¬(1 : Fin S2048x512.rank) ∈ dot_S2048x1024_S2048x512_S1024x512_0_0_1_1_n_n.rhsBatch by decide), dif_pos (show (1 : Fin S2048x512.rank) ∈ dot_S2048x1024_S2048x512_S1024x512_0_0_1_1_n_n.rhsNonContracting by decide)]
  rfl

/-- At output (p, q) and node k the incidence operand is read at (k, p). -/
theorem lhsIdx_eq (p : Fin 1024) (q : Fin 512) (k : Fin 2048) :
    dot_S2048x1024_S2048x512_S1024x512_0_0_1_1_n_n.lhsIdx (ix2 p q) (nodeContr.symm k) = ix2 k p := by
  have hk := contrEquiv1_symm_val dot_S2048x1024_S2048x512_S1024x512_0_0_1_1_n_n 2048 rfl rfl k
  funext a
  refine Fin.ext ?_
  match a with
  | ⟨0, _⟩ => exact (dot_S2048x1024_S2048x512_S1024x512_0_0_1_1_n_n.lhsIdx_val_of_single rfl (ix2 p q) _).trans hk
  | ⟨1, _⟩ => exact lhs_1 _ _

/-- At output (p, q) and node k the feature operand is read at (k, q). -/
theorem rhsIdx_eq (p : Fin 1024) (q : Fin 512) (k : Fin 2048) :
    dot_S2048x1024_S2048x512_S1024x512_0_0_1_1_n_n.rhsIdx (ix2 p q) (nodeContr.symm k) = ix2 k q := by
  have hk := contrEquiv1_symm_val dot_S2048x1024_S2048x512_S1024x512_0_0_1_1_n_n 2048 rfl rfl k
  funext a
  refine Fin.ext ?_
  match a with
  | ⟨0, _⟩ => exact (dot_S2048x1024_S2048x512_S1024x512_0_0_1_1_n_n.rhsIdx_val_of_single rfl (ix2 p q) _).trans hk
  | ⟨1, _⟩ => exact rhs_1 _ _

/-- The product into the zero accumulator, at (p, q): the sum over the 2048 nodes of l(k, p) r(k, q). -/
theorem mm_apply {φ₁ φ₂ : FTy} (l : FVec Ideal S2048x1024 φ₁) (r : FVec Ideal S2048x512 φ₂) (p : Fin 1024) (q : Fin 512) :
    matmul (F := Ideal) dot_S2048x1024_S2048x512_S1024x512_0_0_1_1_n_n none l r (constant S1024x512 .f32 0x00000000#32) (ix2 p q)
      = ∑ k : Fin 2048, l (ix2 k p) * r (ix2 k q) := by
  simp only [matmul]
  rw [Ideal.matmul_constant_zero_apply, ← Equiv.sum_comp nodeContr.symm]
  refine Finset.sum_congr rfl fun k _ => ?_
  rw [lhsIdx_eq, rhsIdx_eq]

/-- The accumulation step at (p, q): the accumulator's entry plus the incidence column p against the feature
    column q, plus the same incidence column against x - x (the change of float format is the identity here). -/
theorem pay4_apply (H0 : Vec Ideal S2048x1024 .f32) (x0 : Vec Ideal S2048x512 .f32) (acc : Vec Ideal S1024x512 .f32) (p : Fin 1024) (q : Fin 512) :
    k0_pay4 (F := Ideal) H0 x0 acc (ix2 p q) = acc (ix2 p q) + ((∑ r : Fin 2048, H0 (ix2 r p) * x0 (ix2 r q)) + ∑ r : Fin 2048, H0 (ix2 r p) * (x0 (ix2 r q) - x0 (ix2 r q))) := by
  unfold k0_pay4 k0_pay3
  dsimp only
  rw [shapeCast_self]
  refine (addf_apply _ _ _).trans ?_
  refine congrArg (acc (ix2 p q) + ·) ?_
  refine (addf_apply _ _ _).trans ?_
  rw [mm_apply, mm_apply]
  rfl

/-! ## The input blocks as parts of the two argument arrays -/

/-- The index maps over the grid: at point t the incidence block is (t % 4, t / 4), the feature block
    (t % 4, 0), the output block (t / 4, 0). -/
theorem idx_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Entry (r, p) of the incidence block at point t is entry (2048 (t % 4) + r, 1024 (t / 4) + p) of the incidence array. -/
theorem iblk0_0_apply (c : Dev nD) (t : Fin cfg0.N) (r : Fin 2048) (p : Fin 1024) (k : S8192x4096.Idx)
    (hk0 : (k 0).val = 2048 * (t.val % 4) + r.val) (hk1 : (k 1).val = 1024 * (t.val / 4) + p.val) :
    (iblk0 V c 0 t : Vec Ideal S2048x1024 .f32) (ix2 r p) = (V c main_arg1 : S8192x4096.Idx → EReal) k := by
  obtain ⟨e0, e1, -, -, -, -⟩ := idx_facts t
  unfold iblk0
  rw [View.read_apply]
  show V c main_arg1 _ = V c main_arg1 _
  congr 1
  funext a
  apply Fin.ext
  match a with
  | ⟨0, _⟩ => show win0_0.index t 0 * 2048 + 1 * r.val = (k 0).val; rw [e0, hk0]; omega
  | ⟨1, _⟩ => show win0_0.index t 1 * 1024 + 1 * p.val = (k 1).val; rw [e1, hk1]; omega

/-- Entry (r, q) of the feature block at point t is entry (2048 (t % 4) + r, q) of the feature array. -/
theorem iblk0_1_apply (c : Dev nD) (t : Fin cfg0.N) (r : Fin 2048) (q : Fin 512) (k : S8192x512.Idx)
    (hk0 : (k 0).val = 2048 * (t.val % 4) + r.val) (hk1 : (k 1).val = q.val) :
    (iblk0 V c 1 t : Vec Ideal S2048x512 .f32) (ix2 r q) = (V c main_arg0 : S8192x512.Idx → EReal) k := by
  obtain ⟨-, -, e0, e1, -, -⟩ := idx_facts t
  unfold iblk0
  rw [View.read_apply]
  show V c main_arg0 _ = V c main_arg0 _
  congr 1
  funext a
  apply Fin.ext
  match a with
  | ⟨0, _⟩ => show win0_1.index t 0 * 2048 + 1 * r.val = (k 0).val; rw [e0, hk0]; omega
  | ⟨1, _⟩ => show win0_1.index t 1 * 512 + 1 * q.val = (k 1).val; rw [e1, hk1]; omega

/-- The incidence block at point t, at its literal type. -/
abbrev Hblk (c : Dev nD) (t : Fin cfg0.N) : Vec Ideal S2048x1024 .f32 := iblk0 V c 0 t
/-- The feature block at point t, at its literal type. -/
abbrev xblk (c : Dev nD) (t : Fin cfg0.N) : Vec Ideal S2048x512 .f32 := iblk0 V c 1 t

/-- The two sums the step adds at point t and entry (p, q) are node block t % 4's contribution to the embedding of
    hyperedge 1024 (t / 4) + p at feature q. -/
theorem block_term (c : Dev nD) (t : Fin cfg0.N) (p : Fin 1024) (q : Fin 512) (e : Fin 4096)
    (he : e.val = 1024 * (t.val / 4) + p.val) (b : Fin 4) (hb : b.val = t.val % 4) :
    (∑ r : Fin 2048, Hblk V c t (ix2 r p) * xblk V c t (ix2 r q))
      + ∑ r : Fin 2048, Hblk V c t (ix2 r p) * (xblk V c t (ix2 r q) - xblk V c t (ix2 r q))
      = embBlock (V c main_arg1) (V c main_arg0) e q b := by
  have h0 : ∀ r : Fin 2048, Hblk V c t (ix2 r p) = (V c main_arg1 : S8192x4096.Idx → EReal) (ix2 (node b r) e) :=
    fun r => iblk0_0_apply V c t r p (ix2 (node b r) e) (by show b.val * 2048 + r.val = _; omega) he
  have h1 : ∀ r : Fin 2048, xblk V c t (ix2 r q) = (V c main_arg0 : S8192x512.Idx → EReal) (ix2 (node b r) q) :=
    fun r => iblk0_1_apply V c t r q (ix2 (node b r) q) (by show b.val * 2048 + r.val = _; omega) rfl
  unfold embBlock
  refine congrArg₂ (· + ·) (Finset.sum_congr rfl fun r _ => ?_) (Finset.sum_congr rfl fun r _ => ?_)
  · rw [h0 r, h1 r]
  · rw [h0 r, h1 r]

/-! ## The running value of the accumulator -/

/-- The contributions of node blocks 0, …, j added in that order. -/
def upto (f : Fin 4 → EReal) (j : ℕ) : EReal := ∑ i ∈ Finset.range (j + 1), f ⟨i % 4, Nat.mod_lt _ (by decide)⟩

theorem upto_zero (f : Fin 4 → EReal) : upto f 0 = f 0 := Finset.sum_range_one _

theorem upto_succ (f : Fin 4 → EReal) (j : ℕ) (b : Fin 4) (hb : b.val = (j + 1) % 4) : upto f (j + 1) = upto f j + f b := by
  obtain rfl : b = ⟨(j + 1) % 4, Nat.mod_lt _ (by decide)⟩ := Fin.ext hb
  exact Finset.sum_range_succ _ _

theorem upto_three (f : Fin 4 → EReal) : upto f 3 = ∑ b : Fin 4, f b := by
  show ∑ i ∈ Finset.range 4, _ = _
  rw [Finset.sum_range_succ, Finset.sum_range_succ, Finset.sum_range_succ, Finset.sum_range_one, Fin.sum_univ_four]
  rfl

/-- A point that starts a hyperedge block leaves the step applied to its blocks and the zero block. -/
theorem outs_A (c : Dev nD) (t : Fin cfg0.N) (h0 : t.val % 4 = 0) :
    (outsAt0 V c t.val t.isLt).1 = k0_pay4 (Hblk V c t) (xblk V c t) (k0_pay1 (F := Ideal)) := by
  rw [outsAt0_A V c t h0]
  dsimp only
  exact out_A c (grid0.coords t) (ms0_0 t) (hs0_0 t) (ms0_1 t) (hs0_1 t) (ms0_2 t) (hs0_2 t) (ms0_3 t) (hs0_3 t) (ms0_4 t) (hs0_4 t)
      ((hcond0_0 t).mpr h0) (iblk0 V c 0 t) (iblk0 V c 1 t)

/-- Any other point leaves the step applied to its blocks and what the point before left. -/
theorem outs_B (c : Dev nD) (t : Fin cfg0.N) (h0 : ¬t.val % 4 = 0) :
    (outsAt0 V c t.val t.isLt).1
      = k0_pay4 (Hblk V c t) (xblk V c t) (outsAt0 V c (t.val - 1) (Nat.lt_of_le_of_lt (Nat.sub_le _ _) t.isLt)).1 := by
  rw [outsAt0_B V c t h0]
  dsimp only
  exact out_B c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2.1

/-- A point that starts a hyperedge block leaves node block 0's contribution: the zero block plus it. -/
theorem point_A (c : Dev nD) (t : Fin cfg0.N) (h0 : t.val % 4 = 0) (p : Fin 1024) (q : Fin 512) (e : Fin 4096)
    (he : e.val = 1024 * (t.val / 4) + p.val) :
    (outsAt0 V c t.val t.isLt).1 (ix2 p q) = embBlock (V c main_arg1) (V c main_arg0) e q 0 := by
  refine (congrFun (outs_A V c t h0) (ix2 p q)).trans ?_
  refine (pay4_apply (Hblk V c t) (xblk V c t) (k0_pay1 (F := Ideal)) p q).trans ?_
  have hz0 : k0_pay1 (F := Ideal) (ix2 p q) = 0 := Ideal.ofBits_zero_f32
  rw [hz0, zero_add]
  exact block_term V c t p q e he 0 h0.symm

/-- Any other point adds its node block's contribution to what the point before left. -/
theorem point_B (c : Dev nD) (t : Fin cfg0.N) (h0 : ¬t.val % 4 = 0) (p : Fin 1024) (q : Fin 512) (e : Fin 4096)
    (he : e.val = 1024 * (t.val / 4) + p.val) (b : Fin 4) (hb : b.val = t.val % 4) :
    (outsAt0 V c t.val t.isLt).1 (ix2 p q)
      = (outsAt0 V c (t.val - 1) (Nat.lt_of_le_of_lt (Nat.sub_le _ _) t.isLt)).1 (ix2 p q)
        + embBlock (V c main_arg1) (V c main_arg0) e q b := by
  refine (congrFun (outs_B V c t h0) (ix2 p q)).trans ?_
  refine (pay4_apply (Hblk V c t) (xblk V c t) (outsAt0 V c (t.val - 1) (Nat.lt_of_le_of_lt (Nat.sub_le _ _) t.isLt)).1 p q).trans ?_
  exact congrArg (_ + ·) (block_term V c t p q e he b hb)

/-- After point n the accumulator's entry (p, q) is the contributions of node blocks 0, …, n % 4 to the embedding of
    hyperedge 1024 (n / 4) + p at feature q, added in that order. -/
theorem running (c : Dev nD) (p : Fin 1024) (q : Fin 512) : ∀ (n : ℕ) (h : n < cfg0.N) (e : Fin 4096) (he : e.val = 1024 * (n / 4) + p.val),
    (outsAt0 V c n h).1 (ix2 p q) = upto (embBlock (V c main_arg1) (V c main_arg0) e q) (n % 4) := by
  intro n
  induction n with
  | zero =>
    intro h e he
    refine (point_A V c ⟨0, h⟩ rfl p q e he).trans ?_
    exact (upto_zero _).symm
  | succ n ih =>
    intro h e he
    by_cases h0 : (n + 1) % 4 = 0
    · refine (point_A V c ⟨n + 1, h⟩ h0 p q e he).trans ?_
      rw [h0]
      exact (upto_zero _).symm
    · have hm : (n + 1) % 4 = n % 4 + 1 := by omega
      have hd : (n + 1) / 4 = n / 4 := by omega
      refine (point_B V c ⟨n + 1, h⟩ h0 p q e he ⟨(n + 1) % 4, Nat.mod_lt _ (by decide)⟩ rfl).trans ?_
      show (outsAt0 V c n _).1 (ix2 p q) + _ = _
      rw [ih (Nat.lt_of_succ_lt h) e (by rw [he, hd])]
      exact (upto_succ _ (n % 4) ⟨(n + 1) % 4, Nat.mod_lt _ (by decide)⟩ (by show (n + 1) % 4 = (n % 4 + 1) % 4; omega)).symm.trans
        (congrArg (upto _) hm.symm)

/-! ## The write-backs and the whole array -/

/-- What a write-back writes is its block of the blocked embedding. -/
theorem flushed_eq (c : Dev nD) (t : Fin cfg0.N) (hf : (cfg0.win 2).flush t = true) :
    (dat0 V c).flushed 2 t = ((cfg0.win 2).blk t).view.read (Elt Ideal) (embB (V c main_arg1) (V c main_arg0)) := by
  have h3 : t.val % 4 = 3 := (flush0_2 t).mp hf
  obtain ⟨-, -, -, -, e4, e5⟩ := idx_facts t
  show (cfg0.win 2).cut (grid0.coords t) ((dat0 V c).after 2 t) = _
  rw [after0_2]
  funext j
  have hj0 : (j 0).val < 1024 := (j 0).isLt
  have hj1 : (j 1).val < 512 := (j 1).isLt
  rw [View.read_apply]
  have hL : (cfg0.win 2).cut (grid0.coords t) (outsAt0 V c t.val t.isLt).1 j
      = (outsAt0 V c t.val t.isLt).1 (ix2 (⟨(j 0).val, hj0⟩ : Fin 1024) (⟨(j 1).val, hj1⟩ : Fin 512)) :=
    congrArg (outsAt0 V c t.val t.isLt).1 (funext fun a => match a with | ⟨0, _⟩ => rfl | ⟨1, _⟩ => rfl)
  have he : ((((cfg0.win 2).blk t).view.emb j) 0 : Fin 4096).val = 1024 * (t.val / 4) + (j 0).val := by
    show win0_2.index t 0 * 1024 + 1 * (j 0).val = _; rw [e4]; omega
  have e1 : ((((cfg0.win 2).blk t).view.emb j) 1 : Fin 512) = ⟨(j 1).val, hj1⟩ :=
    Fin.ext (by show win0_2.index t 1 * 512 + 1 * (j 1).val = (j 1).val; rw [e5]; omega)
  rw [hL, running V c ⟨(j 0).val, hj0⟩ ⟨(j 1).val, hj1⟩ t.val t.isLt _ he, h3, upto_three]
  show _ = ∑ b : Fin 4, embBlock (V c main_arg1) (V c main_arg0) ((((cfg0.win 2).blk t).view.emb j) 0) ((((cfg0.win 2).blk t).view.emb j) 1) b
  rw [e1]
  rfl

/-- The array the region leaves: the blocked embedding of the incidence and feature arrays as the region found them. -/
theorem final_emb (c : Dev nD) : ((dat0 V c).arrAt 2 cfg0.N : Arr 4096 512) = embB (V c main_arg1) (V c main_arg0) :=
  (dat0 V c).arrAt_eq_of_cover 2 (embB (V c main_arg1) (V c main_arg0)) (flushed_eq V c) fun i => by
    have hi0 : (i 0).val < 4096 := (i 0).isLt
    have hi1 : (i 1).val < 512 := (i 1).isLt
    have hN : cfg0.N = 16 := N_0
    have ht : 4 * ((i 0).val / 1024) + 3 < cfg0.N := by rw [hN]; omega
    obtain ⟨-, -, -, -, e4, e5⟩ := idx_facts ⟨4 * ((i 0).val / 1024) + 3, ht⟩
    have e4' : win0_2.index ⟨4 * ((i 0).val / 1024) + 3, ht⟩ 0 = (4 * ((i 0).val / 1024) + 3) / 4 := e4
    refine ⟨⟨4 * ((i 0).val / 1024) + 3, ht⟩, (flush0_2 _).mpr (by show (4 * ((i 0).val / 1024) + 3) % 4 = 3; omega), ?_⟩
    show i ∈ ((View.whole main_v0_0).slice (win0_2.rect ⟨4 * ((i 0).val / 1024) + 3, ht⟩)).set
    rw [View.set_slice_whole, Rect.mem_set_unit]
    intro a
    match a with
    | ⟨0, _⟩ =>
      show win0_2.index ⟨4 * ((i 0).val / 1024) + 3, ht⟩ 0 * 1024 ≤ (i 0).val ∧ (i 0).val < win0_2.index ⟨4 * ((i 0).val / 1024) + 3, ht⟩ 0 * 1024 + 1024
      rw [e4']; omega
    | ⟨1, _⟩ =>
      show win0_2.index ⟨4 * ((i 0).val / 1024) + 3, ht⟩ 1 * 512 ≤ (i 1).val ∧ (i 1).val < win0_2.index ⟨4 * ((i 0).val / 1024) + 3, ht⟩ 1 * 512 + 512
      rw [e5]; omega

end Cert.Hgnn.RegionEmb
end
-- ==== Proof.RegionDege.lean ====
import proofs.«113879_j86895778333083_2_alg».proof.Proof.Spec
import proofs.«113879_j86895778333083_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  The first region's second and third results, over the extended reals.

  The region walks a 4 x 4 grid: point t works on hyperedge block t / 4 (1024 hyperedges wide) and node block t % 4
  (2048 nodes tall), so the four node blocks of one hyperedge block are visited in a row. With H the 8192 x 4096
  incidence array:

  * the degree row [1, 4096]. Its block for hyperedge block q is zeroed at point 4q, receives at each of the points
    4q, 4q + 1, 4q + 2, 4q + 3 the column sums of that point's 2048 x 1024 block of H, and is written back after
    point 4q + 3. So entry e ends as the sum over the four node blocks b, in order, of the sum over the 2048 nodes r of
    block b of H (node b r, e): the blocked degree. The only laws of addition used are 0 + a = a and the unfolding
    of a sum over an initial segment (the sum over k < m + 1 is the sum over k < m plus the term at m); nothing needs
    finiteness.
  * the incidence array re-emitted in a narrower float format [8192, 4096]. Every point stores its block of H,
    narrowed, and writes it back; the blocks tile the array, and narrowing is the identity over the extended reals, so
    the array ends equal to H entry by entry.
-/

noncomputable section
open Idealize.ShloMosaic Idealize.ShloMosaic.TcCoe Idealize.SL.Sem
open Idealize.ShloMosaic.Pipeline (Dat)
namespace Cert.Hgnn.RegionDege
open Cert.KernelIdeal Cert.KernelIdeal.Gen
open Idealize.ShloMosaic.ValueIdx
open scoped BigOperators
variable (V : (c : Dev nD) → (b : Ref sig .tc) → Buf (Elt Ideal) ((c : Thread nD τ).loc b))

/-! ## What one grid point leaves in the two staging blocks

The body first, only at a point that opens a hyperedge block (node block 0), overwrites the degree row's block with
zeros; then at every point it adds to that block the column sums of the point's incidence block, and stores the
incidence block itself, in the narrower float format, into the re-emitted block. Each store covers its whole block,
so what a block holds after the point is the stored value: the row update applied to the zero row in the opening
case, to the previous contents otherwise; the narrowed incidence block in both cases. -/

section Pieces
variable {F : FTy → Type} [FloatOps F]

/-- Every store and load of the body starts at offset (0, 0). -/
theorem hz : (![0, 0] : Fin 2 → Nat) = fun _ => 0 := funext fun a => by fin_cases a <;> rfl

/-- Opening case, degree row: the zero row, read back and updated with the incidence block `x0`. -/
theorem out_A_3 (c : Dev nD) (i : grid0.Coords) (arg2 : Memref sig .tc .vmem S2048x1024 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .bf16) (harg6 : arg6.IsWhole) (hc0 : cond0_0 i)
    (x0 : Vec F S2048x1024 .f32) (x1 : Vec F S2048x512 .f32) :
    out0_A_3 c i arg2 harg2 arg3 harg3 arg4 harg4 arg5 harg5 arg6 harg6 hc0 x0 x1 = k0_pay5 x0 (k0_pay2 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x1024) hz, View.readCov_unit_zero (S := S1x1024) _ hz]
  simp only [View.readAt_eq_ld, harg2.read_unread, View.ld_unit_zero (S := S2048x1024) hz]

/-- Other points, degree row: the previous contents `xo3` updated with the incidence block `x0`. -/
theorem out_B_3 (c : Dev nD) (i : grid0.Coords) (arg2 : Memref sig .tc .vmem S2048x1024 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .bf16) (harg6 : arg6.IsWhole) (hc0 : ¬cond0_0 i)
    (x0 : Vec F S2048x1024 .f32) (x1 : Vec F S2048x512 .f32) (xo2 : Vec F S1024x512 .f32) (xo3 : Vec F S1x1024 .f32) :
    out0_B_3 c i arg2 harg2 arg3 harg3 arg4 harg4 arg5 harg5 arg6 harg6 hc0 x0 x1 xo2 xo3 = k0_pay5 x0 xo3 := by
  unfold out0_B_3
  rw [View.read_writes_eq_canon _ _ _ (cover0_B_3 c i arg2 harg2 arg3 harg3 arg4 harg4 arg5 harg5 arg6 harg6 hc0 x0 x1 xo2 xo3)]
  unfold kernelRun0_B
  dsimp only
  rw [View.canon_unit_zero hz]
  simp only [View.readAt_eq_ld, harg2.read_unread, harg5.read_unread, View.ld_unit_zero (S := S2048x1024) hz, View.ld_unit_zero (S := S1x1024) hz]

/-- Opening case, re-emitted block: the incidence block `x0` narrowed. -/
theorem out_A_4 (c : Dev nD) (i : grid0.Coords) (arg2 : Memref sig .tc .vmem S2048x1024 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .bf16) (harg6 : arg6.IsWhole) (hc0 : cond0_0 i)
    (x0 : Vec F S2048x1024 .f32) (x1 : Vec F S2048x512 .f32) :
    out0_A_4 c i arg2 harg2 arg3 harg3 arg4 harg4 arg5 harg5 arg6 harg6 hc0 x0 x1 = k0_pay3 x0 := by
  unfold out0_A_4
  rw [View.read_writes_eq_canon _ _ _ (cover0_A_4 c i arg2 harg2 arg3 harg3 arg4 harg4 arg5 harg5 arg6 harg6 hc0 x0 x1)]
  unfold kernelRun0_A
  dsimp only
  rw [View.canon_unit_zero hz]
  simp only [View.readAt_eq_ld, harg2.read_unread, View.ld_unit_zero (S := S2048x1024) hz]

/-- Other points, re-emitted block: the same. -/
theorem out_B_4 (c : Dev nD) (i : grid0.Coords) (arg2 : Memref sig .tc .vmem S2048x1024 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .bf16) (harg6 : arg6.IsWhole) (hc0 : ¬cond0_0 i)
    (x0 : Vec F S2048x1024 .f32) (x1 : Vec F S2048x512 .f32) (xo2 : Vec F S1024x512 .f32) (xo3 : Vec F S1x1024 .f32) :
    out0_B_4 c i arg2 harg2 arg3 harg3 arg4 harg4 arg5 harg5 arg6 harg6 hc0 x0 x1 xo2 xo3 = k0_pay3 x0 := by
  unfold out0_B_4
  rw [View.read_writes_eq_canon _ _ _ (cover0_B_4 c i arg2 harg2 arg3 harg3 arg4 harg4 arg5 harg5 arg6 harg6 hc0 x0 x1 xo2 xo3)]
  unfold kernelRun0_B
  dsimp only
  rw [View.canon_unit_zero hz]
  simp only [View.readAt_eq_ld, harg2.read_unread, View.ld_unit_zero (S := S2048x1024) hz]

end Pieces

/-! ## The payloads read at an index, over the extended reals -/

section Payload

/-- The row update at column p: the old entry plus the block's column sum over its 2048 rows. -/
theorem pay5_apply (H0 : Vec Ideal S2048x1024 .f32) (acc : Vec Ideal S1x1024 .f32) (p : Fin 1024) :
    k0_pay5 (F := Ideal) H0 acc (ix2 (0 : Fin 1) p) = acc (ix2 (0 : Fin 1) p) + ∑ r : Fin 2048, H0 (ix2 r p) := by
  unfold k0_pay5
  refine (addf_apply _ _ _).trans ?_
  refine congrArg₂ (· + ·) ?_ ?_
  · exact congrFun (shapeCast_self _ _) _
  · refine (shapeCast_a_1a_apply _ _ (0 : Fin 1) p).trans ?_
    refine (Ideal.multiReduction_add_single H0 _ _ _ _ (ix1 p)).trans ?_
    exact Finset.sum_congr rfl fun r _ => congrArg H0 (funext fun a => by
      match a with
      | ⟨0, _⟩ => rfl
      | ⟨1, _⟩ => rfl)

/-- The reset row is zero everywhere. -/
theorem pay2_apply (p : Fin 1024) : k0_pay2 (F := Ideal) (ix2 (0 : Fin 1) p) = 0 := by
  unfold k0_pay2
  exact Ideal.ofBits_zero_f32

/-- The re-emitted block is the loaded block, entry by entry (narrowing the format changes nothing over the extended reals). -/
theorem pay3_apply (H0 : Vec Ideal S2048x1024 .f32) (j : S2048x1024.Idx) : k0_pay3 (F := Ideal) H0 j = H0 j := by
  unfold k0_pay3
  rfl

end Payload

/-! ## Where the blocks sit -/

section Blocks

/-- The printed block index maps, decided once over the sixteen grid points: the incidence block and the re-emitted block
    sit at (node block, hyperedge block) = (t % 4, t / 4); the degree row's block sits at (0, t / 4). -/
theorem idx_facts : ∀ t : Fin cfg0.N,
    win0_0.index t (0 : Fin 2) = t.val % 4 ∧ win0_0.index t (1 : Fin 2) = t.val / 4
    ∧ win0_3.index t (0 : Fin 2) = 0 ∧ win0_3.index t (1 : Fin 2) = t.val / 4
    ∧ win0_4.index t (0 : Fin 2) = t.val % 4 ∧ win0_4.index t (1 : Fin 2) = t.val / 4 :=
  (by decide +kernel : ∀ t : Fin grid0.N, _)

/-- An entry of the incidence block at point t is the incidence array's entry at row 2048 (t % 4) + r, column 1024 (t / 4) + p. -/
theorem iblk_apply (c : Dev nD) (t : Fin cfg0.N) (x : S2048x1024.Idx) (k : S8192x4096.Idx)
    (hk0 : (k 0).val = 2048 * (t.val % 4) + (x 0).val) (hk1 : (k 1).val = 1024 * (t.val / 4) + (x 1).val) :
    (iblk0 V c 0 t : Vec Ideal S2048x1024 .f32) x = (V c main_arg1 : S8192x4096.Idx → EReal) k := by
  obtain ⟨e0, e1, -⟩ := idx_facts t
  unfold iblk0
  rw [View.read_apply]
  show V c main_arg1 _ = V c main_arg1 _
  refine congrArg (V c main_arg1) ?_
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 1024 + 1 * (x 1).val = (k 1).val; rw [e1, hk1]; omega

end Blocks

/-! ## The degree row's running sum -/

section Accumulation

/-- Node block k's share of the degree of hyperedge e: the sum of column e over the block's 2048 nodes (zero past the
    four node blocks). -/
def colBlock (H : Arr 8192 4096) (e : Fin 4096) (k : ℕ) : EReal :=
  if h : k < 4 then ∑ r : Fin 2048, H (ix2 (node ⟨k, h⟩ r) e) else 0

/-- The blocked degree of hyperedge e is the four shares added in order. -/
theorem degeB_apply (H : Arr 8192 4096) (i : (⟨2, ![1, 4096]⟩ : Shape).Idx) (e : Fin 4096) (he : (i 1).val = e.val) :
    degeB H i = ∑ k ∈ Finset.range 4, colBlock H e k := by
  obtain rfl : i 1 = e := Fin.ext he
  unfold degeB
  rw [← Fin.sum_univ_eq_sum_range (fun k => colBlock H (i 1) k) 4]
  refine Finset.sum_congr rfl fun b _ => ?_
  unfold colBlock
  rw [dif_pos b.isLt]

/-- Column p of the incidence block at point t, summed over the block's rows, is node block t % 4's share of the degree
    of hyperedge 1024 (t / 4) + p. -/
theorem blockSum_eq (c : Dev nD) (t : Fin cfg0.N) (X : Vec Ideal S2048x1024 .f32) (hX : X = iblk0 V c 0 t)
    (p : Fin 1024) (e : Fin 4096) (he : e.val = 1024 * (t.val / 4) + p.val) :
    ∑ r : Fin 2048, X (ix2 r p) = colBlock (V c main_arg1) e (t.val % 4) := by
  subst hX
  have hlt : t.val % 4 < 4 := Nat.mod_lt _ (by decide)
  unfold colBlock
  rw [dif_pos hlt]
  refine Finset.sum_congr rfl fun r _ => ?_
  refine iblk_apply V c t (ix2 r p) (ix2 (node ⟨t.val % 4, hlt⟩ r) e) ?_ ?_
  · show (t.val % 4) * 2048 + r.val = 2048 * (t.val % 4) + r.val
    omega
  · exact he

/-- At a point that opens a hyperedge block the degree row's block is the zero row updated with the point's incidence block. -/
theorem row_A (c : Dev nD) (t : Fin cfg0.N) (h0 : t.val % 4 = 0) :
    (outsAt0 V c t.val t.isLt).2.1 = k0_pay5 (F := Ideal) (iblk0 V c 0 t) (k0_pay2 (F := Ideal)) := by
  rw [outsAt0_A V c t h0]
  dsimp only
  exact out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)

/-- At any other point it is what the point before left, updated with the point's incidence block. -/
theorem row_B (c : Dev nD) (t : Fin cfg0.N) (h0 : ¬t.val % 4 = 0) :
    (outsAt0 V c t.val t.isLt).2.1
      = k0_pay5 (F := Ideal) (iblk0 V c 0 t) (outsAt0 V c (t.val - 1) (Nat.lt_of_le_of_lt (Nat.sub_le _ _) t.isLt)).2.1 := by
  rw [outsAt0_B V c t h0]
  dsimp only
  exact out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1

/-- At the first node block of a hyperedge block the row is reset and then updated: it holds that block's share alone. -/
theorem acc_A (c : Dev nD) (t : Fin cfg0.N) (h0 : t.val % 4 = 0) (p : Fin 1024) (e : Fin 4096)
    (he : e.val = 1024 * (t.val / 4) + p.val) :
    ((outsAt0 V c t.val t.isLt).2.1 : Vec Ideal S1x1024 .f32) (ix2 (0 : Fin 1) p) = colBlock (V c main_arg1) e 0 := by
  refine (congrFun (row_A V c t h0) (ix2 (0 : Fin 1) p)).trans ?_
  refine (pay5_apply (iblk0 V c 0 t) (k0_pay2 (F := Ideal)) p).trans ?_
  rw [pay2_apply, zero_add, blockSum_eq V c t (iblk0 V c 0 t) rfl p e he, h0]

/-- At a later node block the row holds what the point before left plus this block's share. -/
theorem acc_B (c : Dev nD) (t : Fin cfg0.N) (h0 : ¬t.val % 4 = 0) (p : Fin 1024) (e : Fin 4096)
    (he : e.val = 1024 * (t.val / 4) + p.val) :
    ((outsAt0 V c t.val t.isLt).2.1 : Vec Ideal S1x1024 .f32) (ix2 (0 : Fin 1) p)
      = ((outsAt0 V c (t.val - 1) (Nat.lt_of_le_of_lt (Nat.sub_le _ _) t.isLt)).2.1 : Vec Ideal S1x1024 .f32) (ix2 (0 : Fin 1) p)
        + colBlock (V c main_arg1) e (t.val % 4) := by
  refine (congrFun (row_B V c t h0) (ix2 (0 : Fin 1) p)).trans ?_
  refine (pay5_apply (iblk0 V c 0 t) _ p).trans ?_
  rw [blockSum_eq V c t (iblk0 V c 0 t) rfl p e he]

/-- After point n the degree row's block holds, at column p, the shares of node blocks 0 … n % 4 of hyperedge
    1024 (n / 4) + p, added in order: by induction on the point. -/
theorem acc_eq (c : Dev nD) : ∀ (n : ℕ) (h : n < cfg0.N) (p : Fin 1024) (e : Fin 4096), e.val = 1024 * (n / 4) + p.val →
    ((outsAt0 V c n h).2.1 : Vec Ideal S1x1024 .f32) (ix2 (0 : Fin 1) p)
      = ∑ k ∈ Finset.range (n % 4 + 1), colBlock (V c main_arg1) e k
  | 0, h, p, e, he => by
    refine (acc_A V c ⟨0, h⟩ rfl p e he).trans ?_
    exact (Finset.sum_range_one _).symm
  | n + 1, h, p, e, he => by
    by_cases h0 : (n + 1) % 4 = 0
    · refine (acc_A V c ⟨n + 1, h⟩ h0 p e he).trans ?_
      rw [h0]
      exact (Finset.sum_range_one _).symm
    · have hm : (n + 1) % 4 = n % 4 + 1 := by omega
      have hd : (n + 1) / 4 = n / 4 := by omega
      have ih := acc_eq c n (Nat.lt_of_succ_lt h) p e (by rw [he, hd])
      refine (acc_B V c ⟨n + 1, h⟩ h0 p e he).trans ?_
      refine (congrArg (· + colBlock (V c main_arg1) e ((n + 1) % 4)) ih).trans ?_
      rw [hm, Finset.sum_range_succ _ (n % 4 + 1)]

end Accumulation

/-! ## The degree row: from blocks to the array -/

section DegreeRow

/-- What a write-back of the degree row's block writes is the matching block of the blocked degrees: the write-back
    happens after the fourth node block, when all four shares are in. -/
theorem flushed_dege (c : Dev nD) (t : Fin cfg0.N) (hf : (cfg0.win 3).flush t = true) :
    (dat0 V c).flushed 3 t = ((cfg0.win 3).blk t).view.read (Elt Ideal) (degeB (V c main_arg1)) := by
  have h3 : t.val % 4 = 3 := (flush0_3 t).mp hf
  have hN : t.val < 16 := lt_of_lt_of_eq t.isLt (show cfg0.N = 16 from N_0)
  obtain ⟨-, -, -, e3, -⟩ := idx_facts t
  show (cfg0.win 3).cut (grid0.coords t) ((dat0 V c).after 3 t) = _
  rw [after0_3]
  funext j
  obtain ⟨u, p, rfl⟩ : ∃ (u : Fin 1) (p : Fin 1024), j = ix2 u p := ⟨j 0, j 1, eq_ix2 j⟩
  obtain rfl : u = 0 := Subsingleton.elim _ _
  have hlt : 1024 * (t.val / 4) + p.val < 4096 := by have := p.isLt; omega
  have he : ((((cfg0.win 3).blk t).view.emb (ix2 (0 : Fin 1) p)) 1).val = 1024 * (t.val / 4) + p.val := by
    show win0_3.index t (1 : Fin 2) * 1024 + 1 * p.val = _
    rw [e3]; omega
  show ((outsAt0 V c t.val t.isLt).2.1 : Vec Ideal S1x1024 .f32) (ix2 (0 : Fin 1) p)
    = degeB (V c main_arg1) (((cfg0.win 3).blk t).view.emb (ix2 (0 : Fin 1) p))
  refine (acc_eq V c t.val t.isLt p ⟨1024 * (t.val / 4) + p.val, hlt⟩ rfl).trans ?_
  rw [h3]
  exact (degeB_apply (V c main_arg1) _ ⟨1024 * (t.val / 4) + p.val, hlt⟩ he).symm

/-- An index of the degree row is in point t's block iff each coordinate is in the block's range on its axis. -/
theorem mem_blk_dege (t : Fin cfg0.N) (i : S1x4096.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v0_1).slice (win0_3.rect t)).set ↔ _
  rw [View.set_slice_whole, Rect.mem_set_unit]
  exact Iff.rfl

/-- Hyperedge e lies in hyperedge block e / 1024, whose row block is written back at point 4 (e / 1024) + 3. -/
theorem cover_dege (i : S1x4096.Idx) : ∃ t : Fin cfg0.N, (cfg0.win 3).flush t = true ∧ i ∈ ((cfg0.win 3).blk t).view.set := by
  have hi0 : (i 0).val < 1 := (i 0).isLt
  have hi1 : (i 1).val < 4096 := (i 1).isLt
  have hN : cfg0.N = 16 := N_0
  obtain ⟨t, htv⟩ : ∃ t : Fin cfg0.N, t.val = 4 * ((i 1).val / 1024) + 3 := ⟨⟨4 * ((i 1).val / 1024) + 3, by rw [hN]; omega⟩, rfl⟩
  obtain ⟨-, -, e2, e3, -⟩ := idx_facts t
  refine ⟨t, (flush0_3 t).mpr (by rw [htv]; omega), ?_⟩
  rw [mem_blk_dege]
  intro a
  match a with
  | ⟨0, _⟩ =>
    show win0_3.index t (0 : Fin 2) * 1 ≤ (i 0).val ∧ (i 0).val < win0_3.index t (0 : Fin 2) * 1 + 1
    rw [e2]; omega
  | ⟨1, _⟩ =>
    show win0_3.index t (1 : Fin 2) * 1024 ≤ (i 1).val ∧ (i 1).val < win0_3.index t (1 : Fin 2) * 1024 + 1024
    rw [e3, htv]; omega

/-- The degree row after the region: the blocked hyperedge degrees of the incidence array. -/
theorem final_dege (c : Dev nD) : ((dat0 V c).arrAt 3 cfg0.N : Arr 1 4096) = degeB (V c main_arg1) :=
  (dat0 V c).arrAt_eq_of_cover 3 (degeB (V c main_arg1)) (flushed_dege V c) (fun i => cover_dege i)

end DegreeRow

/-! ## The re-emitted incidence array -/

section Reemitted

/-- At every point the re-emitted block is the point's incidence block in the narrower format. -/
theorem hb_after (c : Dev nD) (t : Fin cfg0.N) :
    (outsAt0 V c t.val t.isLt).2.2 = k0_pay3 (F := Ideal) (iblk0 V c 0 t) := by
  by_cases h0 : t.val % 4 = 0
  · rw [outsAt0_A V c t h0]
    dsimp only
    exact out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)
  · rw [outsAt0_B V c t h0]
    dsimp only
    exact out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1

/-- What point t writes back is the matching block of the incidence array itself: the two windows have the same block
    index map, and narrowing the format is the identity over the extended reals. -/
theorem flushed_hb (c : Dev nD) (t : Fin cfg0.N) (hf : (cfg0.win 4).flush t = true) :
    (dat0 V c).flushed 4 t = ((cfg0.win 4).blk t).view.read (Elt Ideal) (V c main_arg1) := by
  obtain ⟨-, -, -, -, e4, e5⟩ := idx_facts t
  show (cfg0.win 4).cut (grid0.coords t) ((dat0 V c).after 4 t) = _
  rw [after0_4, hb_after]
  funext j
  obtain ⟨r, p, rfl⟩ : ∃ (r : Fin 2048) (p : Fin 1024), j = ix2 r p := ⟨j 0, j 1, eq_ix2 j⟩
  show k0_pay3 (F := Ideal) (iblk0 V c 0 t) (ix2 r p) = (V c main_arg1 : S8192x4096.Idx → EReal) (((cfg0.win 4).blk t).view.emb (ix2 r p))
  refine (pay3_apply (iblk0 V c 0 t) (ix2 r p)).trans ?_
  refine iblk_apply V c t (ix2 r p) _ ?_ ?_
  · show win0_4.index t (0 : Fin 2) * 2048 + 1 * r.val = 2048 * (t.val % 4) + r.val
    rw [e4]; omega
  · show win0_4.index t (1 : Fin 2) * 1024 + 1 * p.val = 1024 * (t.val / 4) + p.val
    rw [e5]; omega

/-- An index of the re-emitted array is in point t's block iff each coordinate is in the block's range on its axis. -/
theorem mem_blk_hb (t : Fin cfg0.N) (i : S8192x4096.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v0_2).slice (win0_4.rect t)).set ↔ _
  rw [View.set_slice_whole, Rect.mem_set_unit]
  exact Iff.rfl

/-- Entry (n, e) lies in the block of point 4 (e / 1024) + n / 2048, and every point writes its block back. -/
theorem cover_hb (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 16 := N_0
  obtain ⟨t, htv⟩ : ∃ t : Fin cfg0.N, t.val = 4 * ((i 1).val / 1024) + (i 0).val / 2048 :=
    ⟨⟨4 * ((i 1).val / 1024) + (i 0).val / 2048, by rw [hN]; omega⟩, rfl⟩
  obtain ⟨-, -, -, -, e4, e5⟩ := idx_facts t
  refine ⟨t, flush0_4 t, ?_⟩
  rw [mem_blk_hb]
  intro a
  match a with
  | ⟨0, _⟩ =>
    show win0_4.index t (0 : Fin 2) * 2048 ≤ (i 0).val ∧ (i 0).val < win0_4.index t (0 : Fin 2) * 2048 + 2048
    rw [e4, htv]; omega
  | ⟨1, _⟩ =>
    show win0_4.index t (1 : Fin 2) * 1024 ≤ (i 1).val ∧ (i 1).val < win0_4.index t (1 : Fin 2) * 1024 + 1024
    rw [e5, htv]; omega

/-- The re-emitted array after the region: the incidence array, entry by entry. -/
theorem final_hb (c : Dev nD) : ((dat0 V c).arrAt 4 cfg0.N : Arr 8192 4096) = V c main_arg1 :=
  (dat0 V c).arrAt_eq_of_cover 4 (V c main_arg1) (flushed_hb V c) (fun i => cover_hb i)

end Reemitted

end Cert.Hgnn.RegionDege
end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.RegionDegv.lean ====
/-
  The weighted node degrees, as the second region of the program leaves them.

  The region visits the 8192 nodes in four blocks of 2048. At a node block it holds that block's 2048 x 4096 rows of the
  incidence array and the whole 1 x 4096 row of hyperedge weights, multiplies every incidence row entry by entry with
  the weight row, sums each product row over its 4096 lanes, and stores the 2048 sums as a 2048 x 1 column: the node
  block's part of the degree column. Read at the extended reals, row `r` of that column is the sum over the hyperedges
  `e` of `H(n, e) * hw(0, e)`, where `n` is node `r` of the block. The four blocks tile the 8192 x 1 column, every
  point writes its own block back, so the column ends holding `degvB H hw` at every row.
-/
import proofs.«113879_j86895778333083_2_alg».proof.Proof.Spec
import proofs.«113879_j86895778333083_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«113879_j86895778333083_2_alg».proof.Proof.LibKeepdims
noncomputable section
open Idealize.ShloMosaic Idealize.ShloMosaic.TcCoe Idealize.SL.Sem
open Idealize.ShloMosaic.Pipeline (Dat)
namespace Cert.Hgnn.RegionDegv
open Cert.KernelIdeal Cert.KernelIdeal.Gen
variable (V : (c : Dev nD) → (b : Ref sig .tc) → Buf (Elt Ideal) ((c : Thread nD τ).loc b))
open scoped BigOperators
open Idealize.ShloMosaic.ValueIdx

/-! ## The stored column at an index -/

/-- Summing a 2048 x 4096 block over its lanes: the block index over row `r` with lane `k` put back on the summed axis
    is `(r, k)`. -/
theorem lift_row (h : S2048x4096.Reduces [(1 : Fin 2)] S2048) (r : Fin 2048) (k : Fin 4096) :
    h.lift (ix1 r) k = ix2 r k := by
  funext a
  refine Fin.ext ?_
  match a with
  | ⟨0, _⟩ => rfl
  | ⟨1, _⟩ => rfl

/-- Row `r` of the stored column is the sum over the lanes of the incidence block's row `r` times the weight row.
    The column is the vector of lane sums recast with a unit axis (entry `r` stays at `(r, 0)`); the lane sum starts
    from zero, so it is the plain sum over the 4096 lanes; widening a bf16 entry changes nothing at the extended reals;
    and the one weight row is copied along every row of the block. -/
theorem pay_apply (x0 : Vec Ideal S2048x4096 .bf16) (x1 : Vec Ideal S1x4096 .f32) (r : Fin 2048) (u : Fin 1) :
    k1_pay1 x0 x1 (ix2 r u) = ∑ e : Fin 4096, x0 (ix2 r e) * x1 (ix2 (0 : Fin 1) e) := by
  unfold k1_pay1
  refine (Keepdims.shapeCast_a_a1_apply _ _ r u).trans ?_
  refine (Ideal.multiReduction_add_single _ _ reduces_S2048x4096_S2048 _ _ (ix1 r)).trans ?_
  show ∑ e : Fin 4096, _ = _
  refine Finset.sum_congr rfl fun e _ => ?_
  rw [lift_row _ r e, mulf_apply, extf_apply, shapeCast_self, shapeCast_self]
  exact congrArg (x0 (ix2 r e) * ·) (broadcastTo_1b_ab_apply x1 _ r e)

/-! ## From the blocks to the column -/

theorem hz : (![0, 0] : Fin 2 → Nat) = fun _ => 0 := funext fun a => by fin_cases a <;> rfl

/-- The block index maps, decided over the four grid points: the incidence block and the output block sit at the
    same node block, which is the point's number; every other block index is zero. -/
theorem idx_facts : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- One term of the lane sum: both factors read at equal indices. -/
theorem term_eq (H : Arr 8192 4096) (hw : Arr 1 4096) {i i' : S8192x4096.Idx} {k k' : S1x4096.Idx}
    (h : i = i') (h' : k = k') : H i * hw k = H i' * hw k' := by rw [h, h']

/-- What grid point `t` writes back is block `t` of the degree column `degvB H hw`: an element of a block sits in
    its array, on each axis, at the block index times the block size plus its coordinate inside the block, so row `r` of
    the incidence block is the incidence row of the very node that row `r` of the output block is, and the weight
    row's block is the whole row. -/
theorem flushed_eq (c : Dev nD) (t : Fin cfg1.N) :
    (dat1 V c).flushed 2 t = ((cfg1.win 2).blk t).view.read (Elt Ideal) (degvB (V c main_v0_2) (V c main_v10)) := by
  show (cfg1.win 2).cut (grid1.coords t) ((dat1 V c).after 2 t) = _
  rw [after1_2]
  unfold out1_2
  rw [View.canon_unit_zero hz]
  simp only [View.ld_unit_zero (S := S2048x4096) hz, View.ld_unit_zero (S := S1x4096) hz]
  obtain ⟨e0, e1, e2, e3, e4, e5⟩ := idx_facts t
  funext j
  obtain ⟨r, u, rfl⟩ : ∃ (r : Fin 2048) (u : Fin 1), j = ix2 r u := ⟨j 0, j 1, eq_ix2 j⟩
  show k1_pay1 (iblk1 V c 0 t) (iblk1 V c 1 t) (ix2 r u)
    = degvB (V c main_v0_2) (V c main_v10) (((cfg1.win 2).blk t).view.emb (ix2 r u))
  refine (pay_apply (iblk1 V c 0 t) (iblk1 V c 1 t) r u).trans ?_
  unfold degvB
  refine Finset.sum_congr rfl fun e _ => ?_
  have h0 : ((cfg1.win 0).blk t).view.emb (ix2 r e) = ix2 ((((cfg1.win 2).blk t).view.emb (ix2 r u)) 0) e := by
    funext a; apply Fin.ext
    match a with
    | ⟨0, _⟩ => show win1_0.index t (0 : Fin 2) * 2048 + 1 * r.val = win1_2.index t (0 : Fin 2) * 2048 + 1 * r.val; omega
    | ⟨1, _⟩ => show win1_0.index t (1 : Fin 2) * 4096 + 1 * e.val = e.val; omega
  have h1 : ((cfg1.win 1).blk t).view.emb (ix2 (0 : Fin 1) e) = ix2 (0 : Fin 1) e := by
    funext a; apply Fin.ext
    match a with
    | ⟨0, _⟩ => show win1_1.index t (0 : Fin 2) * 1 + 1 * 0 = 0; omega
    | ⟨1, _⟩ => show win1_1.index t (1 : Fin 2) * 4096 + 1 * e.val = e.val; omega
  exact term_eq (V c main_v0_2) (V c main_v10) h0 h1

/-- An index of the column is in point `t`'s block iff each coordinate is in the block's range on its axis. -/
theorem mem_blk (t : Fin cfg1.N) (i : S8192x1.Idx) :
    i ∈ ((cfg1.win 2).blk t).view.set ↔ ∀ a : Fin 2, win1_2.index t a * S2048x1.size a ≤ (i a).val ∧ (i a).val < win1_2.index t a * S2048x1.size a + S2048x1.size a := by
  show i ∈ ((View.whole main_v11).slice (win1_2.rect t)).set ↔ _
  rw [View.set_slice_whole, Rect.mem_set_unit]
  exact Iff.rfl

/-- Every node block is some grid point's. -/
theorem idx_onto : ∀ q : Fin 4, ∃ t : Fin cfg1.N, win1_2.index t = ![q.val, 0] :=
  (by decide +kernel : ∀ q : Fin 4, ∃ t : Fin grid1.N, win1_2.index t = ![q.val, 0])

/-- Row `n` of the column lies in the block of node block `n / 2048`, and every point writes its block back. -/
theorem cover (i : S8192x1.Idx) : ∃ t : Fin cfg1.N, (cfg1.win 2).flush t = true ∧ i ∈ ((cfg1.win 2).blk t).view.set := by
  have hi0 : (i 0).val < 8192 := (i 0).isLt
  have hi1 : (i 1).val < 1 := (i 1).isLt
  obtain ⟨t, ht⟩ := idx_onto ⟨(i 0).val / 2048, by omega⟩
  have q0 : win1_2.index t (0 : Fin 2) = (i 0).val / 2048 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 1 ≤ (i 1).val ∧ (i 1).val < win1_2.index t (1 : Fin 2) * 1 + 1; omega

/-- The column of weighted node degrees after the region: every row is its incidence row against the hyperedge weights. -/
theorem final_degv (c : Dev nD) : ((dat1 V c).arrAt 2 cfg1.N : Arr 8192 1) = degvB (V c main_v0_2) (V c main_v10) :=
  (dat1 V c).arrAt_eq_of_cover 2 (degvB (V c main_v0_2) (V c main_v10)) (fun t _ => flushed_eq V c t) cover

end Cert.Hgnn.RegionDegv
end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.RegionY.lean ====
/-
  The projected features scaled with the node degrees, as the third region of the program leaves them.

  The region visits the 8192 nodes in four blocks of 2048. At a node block it holds that block's 2048 x 512 rows of the
  features, the whole 512 x 512 weight and the block's 2048 x 1 part of the degree column; it multiplies the feature
  block by the weight on the matrix unit into a zero accumulator, copies the degree column along the 512 lanes, and
  stores the entrywise product of the two. Read at the extended reals, where rounding an operand to bf16 changes
  nothing, entry `(r, q)` of the stored block is `degv(n, 0) * sum over k of x(n, k) * W(k, q)` with `n` node `r` of
  the block. The four blocks tile the 8192 x 512 array, every point writes its own block back, so the array ends
  holding `yB x W degv` at every index.
-/
import proofs.«113879_j86895778333083_2_alg».proof.Proof.Spec
import proofs.«113879_j86895778333083_2_alg».proof.Proof.Gen.KernelIdeal.Frame
import Idealize.ShloMosaic.Lib.Pipeline.Value
import Idealize.ShloMosaic.Lib.ValueIdx
import Idealize.ShloMosaic.PureOps.Ideal.Laws
import proofs.«113879_j86895778333083_2_alg».proof.Proof.LibKeepdims
import proofs.«113879_j86895778333083_2_alg».proof.Proof.LibMatmul
noncomputable section
open Idealize.ShloMosaic Idealize.ShloMosaic.TcCoe Idealize.SL.Sem
open Idealize.ShloMosaic.Pipeline (Dat)
namespace Cert.Hgnn.RegionY
open Cert.KernelIdeal Cert.KernelIdeal.Gen
variable (V : (c : Dev nD) → (b : Ref sig .tc) → Buf (Elt Ideal) ((c : Thread nD τ).loc b))
open scoped BigOperators
open Idealize.ShloMosaic.ValueIdx

/-! ## The stored block at an index -/

/-- The matrix unit's dimension numbers are those of the plain product of a 2048 x 512 by a 512 x 512 matrix: contract
    axis 1 of the left operand with axis 0 of the right one, no batch axis. -/
theorem dot_eq : dot_S2048x512_S512x512_S2048x512_1_0_0_1_n_n = DotDims.plain 2048 512 512 := rfl

/-- Entry `(r, q)` of the stored block: the degree of row `r` (the column copied along the lanes) times the plain
    product's entry, the sum over `k` of the feature block's `(r, k)` times the weight's `(k, q)`. The product
    goes into a zero accumulator, so it is the bare sum; rounding an operand to bf16 is the identity at the extended reals. -/
theorem pay_apply (x0 : Vec Ideal S2048x512 .f32) (x1 : Vec Ideal S512x512 .f32) (x2 : Vec Ideal S2048x1 .f32)
    (r : Fin 2048) (q : Fin 512) :
    k2_pay1 x0 x1 x2 (ix2 r q) = x2 (ix2 r (0 : Fin 1)) * ∑ k : Fin 512, x0 (ix2 r k) * x1 (ix2 k q) := by
  unfold k2_pay1
  rw [mulf_apply, shapeCast_self, dot_eq]
  refine congrArg₂ (· * ·) (Keepdims.broadcastTo_a1_ab_apply x2 _ r q (0 : Fin 1)) ?_
  refine (Cert.MatOps.matmul_plain_zero_apply none _ _ r q).trans ?_
  refine Finset.sum_congr rfl fun k _ => ?_
  rw [truncf_apply, truncf_apply]

/-! ## From the blocks to the array -/

theorem hz : (![0, 0] : Fin 2 → Nat) = fun _ => 0 := funext fun a => by fin_cases a <;> rfl

/-- The block index maps, decided over the four grid points: the feature block, the degree block and the output block
    sit at the same node block, which is the point's number; every other block index is zero. -/
theorem idx_facts : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (1 : Fin 2) = 0
    ∧ win2_3.index t (0 : Fin 2) = t.val :=
  (by decide +kernel : ∀ t : Fin grid2.N, _)

/-- The scaled product entry depends only on where its three arrays are read: the degree at equal indices, and for
    every `k` the feature and the weight at equal indices. -/
theorem term_eq (x : Arr 8192 512) (W : Arr 512 512) (degv : Arr 8192 1)
    {d d' : S8192x1.Idx} (hd : d = d') {f : Fin 512 → S8192x512.Idx} {f' : Fin 512 → S8192x512.Idx}
    {g : Fin 512 → S512x512.Idx} {g' : Fin 512 → S512x512.Idx} (hf : ∀ k, f k = f' k) (hg : ∀ k, g k = g' k) :
    degv d * ∑ k : Fin 512, x (f k) * W (g k) = degv d' * ∑ k : Fin 512, x (f' k) * W (g' k) := by
  rw [hd]
  refine congrArg (degv d' * ·) (Finset.sum_congr rfl fun k _ => ?_)
  rw [hf k, hg k]

/-- What grid point `t` writes back is block `t` of `yB x W degv`: an element of a block sits in its array, on each
    axis, at the block index times the block size plus its coordinate inside the block, so row `r` of the feature block
    and of the degree block belong to the very node that row `r` of the output block does, the output block spans all
    512 lanes, and the weight's block is the whole weight. -/
theorem flushed_eq (c : Dev nD) (t : Fin cfg2.N) :
    (dat2 V c).flushed 3 t = ((cfg2.win 3).blk t).view.read (Elt Ideal) (yB (V c main_arg0) (V c main_arg2) (V c main_v11)) := by
  show (cfg2.win 3).cut (grid2.coords t) ((dat2 V c).after 3 t) = _
  rw [after2_3]
  unfold out2_3
  rw [View.canon_unit_zero hz]
  simp only [View.ld_unit_zero (S := S2048x512) hz, View.ld_unit_zero (S := S512x512) hz, View.ld_unit_zero (S := S2048x1) hz]
  obtain ⟨e0, e1, e2, e3, e4, e5, e6, e7⟩ := idx_facts t
  funext j
  obtain ⟨r, q, rfl⟩ : ∃ (r : Fin 2048) (q : Fin 512), j = ix2 r q := ⟨j 0, j 1, eq_ix2 j⟩
  show k2_pay1 (iblk2 V c 0 t) (iblk2 V c 1 t) (iblk2 V c 2 t) (ix2 r q)
    = yB (V c main_arg0) (V c main_arg2) (V c main_v11) (((cfg2.win 3).blk t).view.emb (ix2 r q))
  refine (pay_apply (iblk2 V c 0 t) (iblk2 V c 1 t) (iblk2 V c 2 t) r q).trans ?_
  unfold yB
  have h0 : ∀ k : Fin 512, ((cfg2.win 0).blk t).view.emb (ix2 r k) = ix2 ((((cfg2.win 3).blk t).view.emb (ix2 r q)) 0) k := fun k => by
    funext a; apply Fin.ext
    match a with
    | ⟨0, _⟩ => show win2_0.index t (0 : Fin 2) * 2048 + 1 * r.val = win2_3.index t (0 : Fin 2) * 2048 + 1 * r.val; omega
    | ⟨1, _⟩ => show win2_0.index t (1 : Fin 2) * 512 + 1 * k.val = k.val; omega
  have h1 : ∀ k : Fin 512, ((cfg2.win 1).blk t).view.emb (ix2 k q) = ix2 k ((((cfg2.win 3).blk t).view.emb (ix2 r q)) 1) := fun k => by
    funext a; apply Fin.ext
    match a with
    | ⟨0, _⟩ => show win2_1.index t (0 : Fin 2) * 512 + 1 * k.val = k.val; omega
    | ⟨1, _⟩ => show win2_1.index t (1 : Fin 2) * 512 + 1 * q.val = win2_3.index t (1 : Fin 2) * 512 + 1 * q.val; omega
  have h2 : ((cfg2.win 2).blk t).view.emb (ix2 r (0 : Fin 1)) = ix2 ((((cfg2.win 3).blk t).view.emb (ix2 r q)) 0) (0 : Fin 1) := by
    funext a; apply Fin.ext
    match a with
    | ⟨0, _⟩ => show win2_2.index t (0 : Fin 2) * 2048 + 1 * r.val = win2_3.index t (0 : Fin 2) * 2048 + 1 * r.val; omega
    | ⟨1, _⟩ => show win2_2.index t (1 : Fin 2) * 1 + 1 * 0 = 0; omega
  exact term_eq (V c main_arg0) (V c main_arg2) (V c main_v11) h2 h0 h1

/-- An index of the array is in point `t`'s block iff each coordinate is in the block's range on its axis. -/
theorem mem_blk (t : Fin cfg2.N) (i : S8192x512.Idx) :
    i ∈ ((cfg2.win 3).blk t).view.set ↔ ∀ a : Fin 2, win2_3.index t a * S2048x512.size a ≤ (i a).val ∧ (i a).val < win2_3.index t a * S2048x512.size a + S2048x512.size a := by
  show i ∈ ((View.whole main_v12).slice (win2_3.rect t)).set ↔ _
  rw [View.set_slice_whole, Rect.mem_set_unit]
  exact Iff.rfl

/-- Every node block is some grid point's. -/
theorem idx_onto : ∀ b : Fin 4, ∃ t : Fin cfg2.N, win2_3.index t = ![b.val, 0] :=
  (by decide +kernel : ∀ b : Fin 4, ∃ t : Fin grid2.N, win2_3.index t = ![b.val, 0])

/-- Row `n` of the array lies, with all its 512 lanes, in the block of node block `n / 2048`, and every point writes
    its block back. -/
theorem cover (i : S8192x512.Idx) : ∃ t : Fin cfg2.N, (cfg2.win 3).flush t = true ∧ i ∈ ((cfg2.win 3).blk t).view.set := by
  have hi0 : (i 0).val < 8192 := (i 0).isLt
  have hi1 : (i 1).val < 512 := (i 1).isLt
  obtain ⟨t, ht⟩ := idx_onto ⟨(i 0).val / 2048, by omega⟩
  have q0 : win2_3.index t (0 : Fin 2) = (i 0).val / 2048 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 512 ≤ (i 1).val ∧ (i 1).val < win2_3.index t (1 : Fin 2) * 512 + 512; omega

/-- The scaled projected features after the region: every entry is its node's degree times the feature row against the
    weight column. -/
theorem final_y (c : Dev nD) : ((dat2 V c).arrAt 3 cfg2.N : Arr 8192 512) = yB (V c main_arg0) (V c main_arg2) (V c main_v11) :=
  (dat2 V c).arrAt_eq_of_cover 3 (yB (V c main_arg0) (V c main_arg2) (V c main_v11)) (fun t _ => flushed_eq V c t) cover

end Cert.Hgnn.RegionY
end
-- ==== Proof.RegionT.lean ====
/-
  The hyperedge aggregate scaled on the right: t = (H^T y) . wd, as the fourth tiled computation leaves it.

  The output has 4096 rows (hyperedges) in two blocks of 2048; the 8192 nodes are visited in four blocks of 2048.
  The eight grid points run through (hyperedge block e, node block b) with the node block moving fastest: point t has
  e = t / 4 and b = t % 4. At every point the body adds to the running [2048, 512] block the product of the incidence
  block at (node block b, hyperedge block e), contracted over its node axis, with the feature block of node block b:

      acc(p, q) + sum over r of H(2048 b + r, 2048 e + p) * y(2048 b + r, q).

  At b = 0 the running block is first reset to zero; at b = 3 the accumulated block is then multiplied entry by entry
  with the scale column wd(2048 e + p, 0) broadcast along the row, and only that point writes the block back. So row
  i0 = 2048 e + p of the result is

      (((0 + S_0) + S_1) + S_2) + S_3) * wd(i0, 0),     S_b = sum over r of H(2048 b + r, i0) * y(2048 b + r, q),

  which is the blocked specification: the sum over the four node blocks in block order is that left-nested chain once
  0 + S_0 = S_0. Neither distributivity nor cancellation is used, so nothing here needs the entries to be finite.

  The steps: what each of the three control cases leaves in the output block, as a term over the loaded blocks; those
  terms read at an index; each input block read as a restriction of its whole array; the running value after each point
  of a run; the block written back as a restriction of the specification; the two written blocks cover the array.
-/
import proofs.«113879_j86895778333083_2_alg».proof.Proof.Spec
import proofs.«113879_j86895778333083_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«113879_j86895778333083_2_alg».proof.Proof.LibKeepdims
noncomputable section
open Idealize.ShloMosaic Idealize.ShloMosaic.TcCoe Idealize.SL.Sem
open Idealize.ShloMosaic.Pipeline (Dat)
namespace Cert.Hgnn.RegionT
open Cert.KernelIdeal Cert.KernelIdeal.Gen
variable (V : (c : Dev nD) → (b : Ref sig .tc) → Buf (Elt Ideal) ((c : Thread nD τ).loc b))
open Idealize.ShloMosaic.ValueIdx
open scoped BigOperators

/-! ## What each control case leaves in the output block -/

section Pieces
variable {F : FTy → Type} [FloatOps F]

/-- Both offsets of a whole-block access are zero. -/
theorem hz : (![0, 0] : Fin 2 → Nat) = fun _ => 0 := funext fun a => by fin_cases a <;> rfl

/-- A middle point of a run (node blocks 1 and 2): the body reads the three input blocks and the running block whole,
    and its one store over the whole output block leaves the running block plus the block product. -/
theorem out_B (c : Dev nD) (i : grid3.Coords) (a2 : Memref sig .tc .vmem S2048x2048 .bf16) (h2 : a2.IsWhole)
    (a3 : Memref sig .tc .vmem S2048x512 .f32) (h3 : a3.IsWhole) (a4 : Memref sig .tc .vmem S2048x1 .f32) (h4 : a4.IsWhole)
    (a5 : Memref sig .tc .vmem S2048x512 .f32) (h5 : a5.IsWhole) (hc0 : ¬cond3_0 i) (hc1 : ¬cond3_1 i)
    (x0 : Vec F S2048x2048 .bf16) (x1 : Vec F S2048x512 .f32) (x2 : Vec F S2048x1 .f32) (xo : Vec F S2048x512 .f32) :
    out3_B_3 c i a2 h2 a3 h3 a4 h4 a5 h5 hc0 hc1 x0 x1 x2 xo = k3_pay2 x0 x1 xo := by
  unfold out3_B_3
  rw [View.read_writes_eq_canon _ _ _ (cover3_B_3 c i a2 h2 a3 h3 a4 h4 a5 h5 hc0 hc1 x0 x1 x2 xo)]
  unfold kernelRun3_B
  dsimp only
  rw [View.canon_unit_zero hz]
  simp only [View.readAt_eq_ld, h2.read_unread, h3.read_unread, h5.read_unread, View.ld_unit_zero (S := S2048x2048) hz,
    View.ld_unit_zero (S := S2048x512) hz]

/-- The first point of a run (node block 0): the body first stores the zero block, reads it back as the running block,
    and its second store leaves zero plus the block product. Of the two stores over the whole block the later one
    is what remains. -/
theorem out_A (c : Dev nD) (i : grid3.Coords) (a2 : Memref sig .tc .vmem S2048x2048 .bf16) (h2 : a2.IsWhole)
    (a3 : Memref sig .tc .vmem S2048x512 .f32) (h3 : a3.IsWhole) (a4 : Memref sig .tc .vmem S2048x1 .f32) (h4 : a4.IsWhole)
    (a5 : Memref sig .tc .vmem S2048x512 .f32) (h5 : a5.IsWhole) (hc0 : cond3_0 i) (hc1 : ¬cond3_1 i)
    (x0 : Vec F S2048x2048 .bf16) (x1 : Vec F S2048x512 .f32) (x2 : Vec F S2048x1 .f32) :
    out3_A_3 c i a2 h2 a3 h3 a4 h4 a5 h5 hc0 hc1 x0 x1 x2 = k3_pay2 x0 x1 (k3_pay1 (F := F)) := by
  unfold out3_A_3
  rw [View.read_writes_eq_canon _ _ _ (cover3_A_3 c i a2 h2 a3 h3 a4 h4 a5 h5 hc0 hc1 x0 x1 x2)]
  unfold kernelRun3_A
  dsimp only
  sl_unfold_words
  rw [View.canon_cons_unit_zero (S := S2048x512) hz, View.readCov_unit_zero (S := S2048x512) _ hz]
  simp only [View.readAt_eq_ld, h2.read_unread, h3.read_unread, View.ld_unit_zero (S := S2048x2048) hz,
    View.ld_unit_zero (S := S2048x512) hz]

/-- The last point of a run (node block 3): the body accumulates as before, reads its own accumulated block back,
    multiplies it by the scale column broadcast along the rows, and stores the product over it. -/
theorem out_C (c : Dev nD) (i : grid3.Coords) (a2 : Memref sig .tc .vmem S2048x2048 .bf16) (h2 : a2.IsWhole)
    (a3 : Memref sig .tc .vmem S2048x512 .f32) (h3 : a3.IsWhole) (a4 : Memref sig .tc .vmem S2048x1 .f32) (h4 : a4.IsWhole)
    (a5 : Memref sig .tc .vmem S2048x512 .f32) (h5 : a5.IsWhole) (hc0 : ¬cond3_0 i) (hc1 : cond3_1 i)
    (x0 : Vec F S2048x2048 .bf16) (x1 : Vec F S2048x512 .f32) (x2 : Vec F S2048x1 .f32) (xo : Vec F S2048x512 .f32) :
    out3_C_3 c i a2 h2 a3 h3 a4 h4 a5 h5 hc0 hc1 x0 x1 x2 xo = k3_pay3 (k3_pay2 x0 x1 xo) x2 := by
  unfold out3_C_3
  rw [View.read_writes_eq_canon _ _ _ (cover3_C_3 c i a2 h2 a3 h3 a4 h4 a5 h5 hc0 hc1 x0 x1 x2 xo)]
  unfold kernelRun3_C
  dsimp only
  sl_unfold_words
  rw [View.canon_cons_unit_zero (S := S2048x512) hz, View.readCov_unit_zero (S := S2048x512) _ hz]
  simp only [View.readAt_eq_ld, h2.read_unread, h3.read_unread, h4.read_unread, h5.read_unread,
    View.ld_unit_zero (S := S2048x2048) hz, View.ld_unit_zero (S := S2048x512) hz, View.ld_unit_zero (S := S2048x1) hz]
end Pieces

/-! ## The body's arithmetic at an index, over the extended reals -/

section Pure

/-! The block product contracts axis 0 of both operands: at result index (p, q) and contraction coordinate k the left
    operand is read at (k, p) and the right one at (k, q). -/

theorem lhsT_0 (i : S2048x512.Idx) (k : dot_S2048x2048_S2048x512_S2048x512_0_0_1_1_n_n.contr.Idx) :
    (dot_S2048x2048_S2048x512_S2048x512_0_0_1_1_n_n.lhsIdx i k 0).val = (k ⟨0, by decide⟩).val :=
  dot_S2048x2048_S2048x512_S2048x512_0_0_1_1_n_n.lhsIdx_val_of_single rfl i k
theorem lhsT_1 (i : S2048x512.Idx) (k : dot_S2048x2048_S2048x512_S2048x512_0_0_1_1_n_n.contr.Idx) :
    (dot_S2048x2048_S2048x512_S2048x512_0_0_1_1_n_n.lhsIdx i k 1).val = (i 0).val := by
  unfold DotDims.lhsIdx
  rw [dif_neg (show ¬(1 : Fin S2048x2048.rank) ∈ dot_S2048x2048_S2048x512_S2048x512_0_0_1_1_n_n.lhsBatch by decide),
    dif_pos (show (1 : Fin S2048x2048.rank) ∈ dot_S2048x2048_S2048x512_S2048x512_0_0_1_1_n_n.lhsNonContracting by decide)]
  rfl
theorem rhsT_0 (i : S2048x512.Idx) (k : dot_S2048x2048_S2048x512_S2048x512_0_0_1_1_n_n.contr.Idx) :
    (dot_S2048x2048_S2048x512_S2048x512_0_0_1_1_n_n.rhsIdx i k 0).val = (k ⟨0, by decide⟩).val :=
  dot_S2048x2048_S2048x512_S2048x512_0_0_1_1_n_n.rhsIdx_val_of_single rfl i k
theorem rhsT_1 (i : S2048x512.Idx) (k : dot_S2048x2048_S2048x512_S2048x512_0_0_1_1_n_n.contr.Idx) :
    (dot_S2048x2048_S2048x512_S2048x512_0_0_1_1_n_n.rhsIdx i k 1).val = (i 1).val := by
  unfold DotDims.rhsIdx
  rw [dif_neg (show ¬(1 : Fin S2048x512.rank) ∈ dot_S2048x2048_S2048x512_S2048x512_0_0_1_1_n_n.rhsBatch by decide),
    dif_pos (show (1 : Fin S2048x512.rank) ∈ dot_S2048x2048_S2048x512_S2048x512_0_0_1_1_n_n.rhsNonContracting by decide)]
  rfl

/-- The contraction of axis 0 of a [2048, 2048] block with axis 0 of a [2048, 512] block into the zero accumulator:
    at (p, q) the sum over the shared axis r of l(r, p) · r(r, q). -/
theorem matmulT_apply (l : FVec Ideal S2048x2048 .bf16) (r : FVec Ideal S2048x512 .bf16) (p : Fin 2048) (q : Fin 512) :
    matmul (F := Ideal) dot_S2048x2048_S2048x512_S2048x512_0_0_1_1_n_n none l r (constant S2048x512 .f32 0x00000000#32) (ix2 p q)
      = ∑ k : Fin 2048, l (ix2 k p) * r (ix2 k q) := by
  simp only [matmul]
  rw [Ideal.matmul_constant_zero_apply,
    ← Equiv.sum_comp (contrEquiv1 dot_S2048x2048_S2048x512_S2048x512_0_0_1_1_n_n 2048 rfl rfl).symm]
  refine Finset.sum_congr rfl fun k _ => ?_
  have hk := contrEquiv1_symm_val dot_S2048x2048_S2048x512_S2048x512_0_0_1_1_n_n 2048 rfl rfl k
  have el : dot_S2048x2048_S2048x512_S2048x512_0_0_1_1_n_n.lhsIdx (ix2 p q)
      ((contrEquiv1 dot_S2048x2048_S2048x512_S2048x512_0_0_1_1_n_n 2048 rfl rfl).symm k) = ix2 k p :=
    funext fun a => Fin.ext (by
      match a with
      | ⟨0, _⟩ => exact (lhsT_0 _ _).trans hk
      | ⟨1, _⟩ => exact lhsT_1 _ _)
  have er : dot_S2048x2048_S2048x512_S2048x512_0_0_1_1_n_n.rhsIdx (ix2 p q)
      ((contrEquiv1 dot_S2048x2048_S2048x512_S2048x512_0_0_1_1_n_n 2048 rfl rfl).symm k) = ix2 k q :=
    funext fun a => Fin.ext (by
      match a with
      | ⟨0, _⟩ => exact (rhsT_0 _ _).trans hk
      | ⟨1, _⟩ => exact rhsT_1 _ _)
  rw [el, er]

/-- The accumulating step at an index: the running block plus the block product of the incidence block (transposed)
    with the feature block. -/
theorem pay2_apply (Hb : Vec Ideal S2048x2048 .bf16) (y0 acc : Vec Ideal S2048x512 .f32) (p : Fin 2048) (q : Fin 512) :
    k3_pay2 (F := Ideal) Hb y0 acc (ix2 p q) = acc (ix2 p q) + ∑ r : Fin 2048, Hb (ix2 r p) * y0 (ix2 r q) := by
  unfold k3_pay2
  rw [shapeCast_self, shapeCast_self, shapeCast_self]
  refine (addf_apply _ _ (ix2 p q)).trans ?_
  refine congrArg (acc (ix2 p q) + ·) ?_
  exact matmulT_apply Hb (truncf .bf16 y0 bitsLt_bf16_f32) p q

/-- The zero block at an index. -/
theorem pay1_apply (p : Fin 2048) (q : Fin 512) : k3_pay1 (F := Ideal) (ix2 p q) = 0 := by
  unfold k3_pay1
  exact Ideal.ofBits_zero_f32

/-- The closing step at an index: the accumulated block times the scale column's entry of the same row. -/
theorem pay3_apply (acc : Vec Ideal S2048x512 .f32) (w : Vec Ideal S2048x1 .f32) (p : Fin 2048) (q : Fin 512) :
    k3_pay3 (F := Ideal) acc w (ix2 p q) = acc (ix2 p q) * w (ix2 p (0 : Fin 1)) := by
  unfold k3_pay3
  rw [shapeCast_self, shapeCast_self]
  refine (mulf_apply _ _ (ix2 p q)).trans ?_
  refine congrArg (acc (ix2 p q) * ·) ?_
  exact Keepdims.broadcastTo_a1_ab_apply w broadcasts_S2048x1_S2048x512 p q 0
end Pure

/-! ## The pieces of the specification -/

/-- One node block's contribution to row i0 (a hyperedge) of the aggregate at feature q. -/
def blockSum (H : Arr 8192 4096) (y : Arr 8192 512) (b : Fin 4) (i0 : Fin 4096) (q : Fin 512) : EReal :=
  ∑ r : Fin 2048, H (ix2 (node b r) i0) * y (ix2 (node b r) q)

/-- The scale of row i0. -/
def rowScale (wd : Arr 4096 1) (i0 : Fin 4096) : EReal := wd (ix2 i0 (0 : Fin 1))

/-! ## The input blocks as restrictions of their arrays

An element of a block sits in its array, on each axis, at the block index times the block size plus its own coordinate. -/

section Blocks

/-- The printed index maps, decided once over the eight grid points: point t works on node block t % 4 and hyperedge
    block t / 4. The incidence block sits at (node block, hyperedge block), the feature block at (node block, 0), the
    scale block and the output block at (hyperedge block, 0). -/
theorem idx_facts : ∀ t : Fin cfg3.N,
    win3_0.index t (0 : Fin 2) = t.val % 4 ∧ win3_0.index t (1 : Fin 2) = t.val / 4
    ∧ win3_1.index t (0 : Fin 2) = t.val % 4 ∧ win3_1.index t (1 : Fin 2) = 0
    ∧ win3_2.index t (0 : Fin 2) = t.val / 4 ∧ win3_2.index t (1 : Fin 2) = 0
    ∧ win3_3.index t (0 : Fin 2) = t.val / 4 ∧ win3_3.index t (1 : Fin 2) = 0 :=
  (by decide +kernel : ∀ t : Fin grid3.N, _)

/-- The incidence block of point t at (r, p) is the incidence array at node (t % 4) · 2048 + r and hyperedge
    (t / 4) · 2048 + p. -/
theorem blk_H (c : Dev nD) (t : Fin cfg3.N) (r p : Fin 2048) (n : Fin 8192) (i0 : Fin 4096)
    (hn : n.val = t.val % 4 * 2048 + r.val) (hi : i0.val = t.val / 4 * 2048 + p.val) :
    (iblk3 V c 0 t : Vec Ideal S2048x2048 .bf16) (ix2 r p) = (V c main_v0_2 : Arr 8192 4096) (ix2 n i0) := by
  obtain ⟨e0, e1, -⟩ := idx_facts t
  unfold iblk3
  rw [View.read_apply]
  show V c main_v0_2 (((cfg3.win 0).blk t).view.emb (ix2 r p)) = V c main_v0_2 (ix2 n i0)
  refine congrArg _ (funext fun a => Fin.ext ?_)
  match a with
  | ⟨0, _⟩ => show win3_0.index t (0 : Fin 2) * 2048 + 1 * r.val = n.val; rw [e0]; omega
  | ⟨1, _⟩ => show win3_0.index t (1 : Fin 2) * 2048 + 1 * p.val = i0.val; rw [e1]; omega

/-- The feature block of point t at (r, q) is the feature array at node (t % 4) · 2048 + r, column q. -/
theorem blk_Y (c : Dev nD) (t : Fin cfg3.N) (r : Fin 2048) (q : Fin 512) (n : Fin 8192)
    (hn : n.val = t.val % 4 * 2048 + r.val) :
    (iblk3 V c 1 t : Vec Ideal S2048x512 .f32) (ix2 r q) = (V c main_v12 : Arr 8192 512) (ix2 n q) := by
  obtain ⟨-, -, e0, e1, -⟩ := idx_facts t
  unfold iblk3
  rw [View.read_apply]
  show V c main_v12 (((cfg3.win 1).blk t).view.emb (ix2 r q)) = V c main_v12 (ix2 n q)
  refine congrArg _ (funext fun a => Fin.ext ?_)
  match a with
  | ⟨0, _⟩ => show win3_1.index t (0 : Fin 2) * 2048 + 1 * r.val = n.val; rw [e0]; omega
  | ⟨1, _⟩ => show win3_1.index t (1 : Fin 2) * 512 + 1 * q.val = q.val; rw [e1]; omega

/-- The scale block of point t at (p, 0) is the scale column at hyperedge (t / 4) · 2048 + p. -/
theorem blk_W (c : Dev nD) (t : Fin cfg3.N) (p : Fin 2048) (i0 : Fin 4096)
    (hi : i0.val = t.val / 4 * 2048 + p.val) :
    (iblk3 V c 2 t : Vec Ideal S2048x1 .f32) (ix2 p (0 : Fin 1)) = rowScale (V c main_v14) i0 := by
  obtain ⟨-, -, -, -, e0, e1, -⟩ := idx_facts t
  unfold iblk3
  rw [View.read_apply]
  show V c main_v14 (((cfg3.win 2).blk t).view.emb (ix2 p (0 : Fin 1))) = V c main_v14 (ix2 i0 (0 : Fin 1))
  refine congrArg _ (funext fun a => Fin.ext ?_)
  match a with
  | ⟨0, _⟩ => show win3_2.index t (0 : Fin 2) * 2048 + 1 * p.val = i0.val; rw [e0]; omega
  | ⟨1, _⟩ => show win3_2.index t (1 : Fin 2) * 1 + 1 * 0 = 0; rw [e1]
end Blocks

/-! ## The running value after each point of a run -/

section Running

/-- The accumulating step at point t, whose node block is b and whose hyperedge block holds row i0 at p: the running
    entry plus node block b's contribution. -/
theorem step_apply (c : Dev nD) (t : Fin cfg3.N) (b : Fin 4) (hb : t.val % 4 = b.val) (p : Fin 2048) (q : Fin 512)
    (i0 : Fin 4096) (hi : i0.val = t.val / 4 * 2048 + p.val) (acc : Vec Ideal S2048x512 .f32) :
    k3_pay2 (F := Ideal) (iblk3 V c 0 t) (iblk3 V c 1 t) acc (ix2 p q)
      = acc (ix2 p q) + blockSum (V c main_v0_2) (V c main_v12) b i0 q := by
  refine (pay2_apply (iblk3 V c 0 t) (iblk3 V c 1 t) acc p q).trans ?_
  refine congrArg (acc (ix2 p q) + ·) ?_
  unfold blockSum
  refine Finset.sum_congr rfl fun r _ => ?_
  have hn : (node b r).val = t.val % 4 * 2048 + r.val := by
    show b.val * 2048 + r.val = t.val % 4 * 2048 + r.val
    rw [hb]
  rw [blk_H V c t r p (node b r) i0 hn hi, blk_Y V c t r q (node b r) hn]

/-- After the first point of a hyperedge block's run (node block 0): the reset zero plus the first contribution. -/
theorem run0 (c : Dev nD) (t : Fin cfg3.N) (h : t.val % 4 = 0) (p : Fin 2048) (q : Fin 512)
    (i0 : Fin 4096) (hi : i0.val = t.val / 4 * 2048 + p.val) :
    outsAt3 V c t.val t.isLt (ix2 p q) = 0 + blockSum (V c main_v0_2) (V c main_v12) 0 i0 q := by
  rw [outsAt3_A V c t h (by omega), out_A]
  refine (step_apply V c t 0 h p q i0 hi _).trans ?_
  rw [pay1_apply]

/-- After the second point: two contributions. -/
theorem run1 (c : Dev nD) (t : Fin cfg3.N) (h : t.val % 4 = 1) (p : Fin 2048) (q : Fin 512)
    (i0 : Fin 4096) (hi : i0.val = t.val / 4 * 2048 + p.val) :
    outsAt3 V c t.val t.isLt (ix2 p q)
      = 0 + blockSum (V c main_v0_2) (V c main_v12) 0 i0 q + blockSum (V c main_v0_2) (V c main_v12) 1 i0 q := by
  rw [outsAt3_B V c t (by omega) (by omega), out_B]
  refine (step_apply V c t 1 h p q i0 hi _).trans ?_
  have hN : t.val < 8 := lt_of_lt_of_eq t.isLt (show cfg3.N = 8 from N_3)
  rw [run0 V c ⟨t.val - 1, Nat.lt_of_le_of_lt (Nat.sub_le _ _) t.isLt⟩ (by show (t.val - 1) % 4 = 0; omega) p q i0
    (by show i0.val = (t.val - 1) / 4 * 2048 + p.val; rw [hi]; congr 2; omega)]

/-- After the third point: three contributions. -/
theorem run2 (c : Dev nD) (t : Fin cfg3.N) (h : t.val % 4 = 2) (p : Fin 2048) (q : Fin 512)
    (i0 : Fin 4096) (hi : i0.val = t.val / 4 * 2048 + p.val) :
    outsAt3 V c t.val t.isLt (ix2 p q)
      = 0 + blockSum (V c main_v0_2) (V c main_v12) 0 i0 q + blockSum (V c main_v0_2) (V c main_v12) 1 i0 q
        + blockSum (V c main_v0_2) (V c main_v12) 2 i0 q := by
  rw [outsAt3_B V c t (by omega) (by omega), out_B]
  refine (step_apply V c t 2 h p q i0 hi _).trans ?_
  have hN : t.val < 8 := lt_of_lt_of_eq t.isLt (show cfg3.N = 8 from N_3)
  rw [run1 V c ⟨t.val - 1, Nat.lt_of_le_of_lt (Nat.sub_le _ _) t.isLt⟩ (by show (t.val - 1) % 4 = 1; omega) p q i0
    (by show i0.val = (t.val - 1) / 4 * 2048 + p.val; rw [hi]; congr 2; omega)]

/-- After the last point of the run: all four contributions, then the row's scale on the right. -/
theorem run3 (c : Dev nD) (t : Fin cfg3.N) (h : t.val % 4 = 3) (p : Fin 2048) (q : Fin 512)
    (i0 : Fin 4096) (hi : i0.val = t.val / 4 * 2048 + p.val) :
    outsAt3 V c t.val t.isLt (ix2 p q)
      = (0 + blockSum (V c main_v0_2) (V c main_v12) 0 i0 q + blockSum (V c main_v0_2) (V c main_v12) 1 i0 q
          + blockSum (V c main_v0_2) (V c main_v12) 2 i0 q + blockSum (V c main_v0_2) (V c main_v12) 3 i0 q)
        * rowScale (V c main_v14) i0 := by
  rw [outsAt3_C V c t (by omega) h, out_C]
  refine (pay3_apply _ (iblk3 V c 2 t) p q).trans ?_
  rw [blk_W V c t p i0 hi]
  refine congrArg (· * rowScale (V c main_v14) i0) ?_
  refine (step_apply V c t 3 h p q i0 hi _).trans ?_
  have hN : t.val < 8 := lt_of_lt_of_eq t.isLt (show cfg3.N = 8 from N_3)
  rw [run2 V c ⟨t.val - 1, Nat.lt_of_le_of_lt (Nat.sub_le _ _) t.isLt⟩ (by show (t.val - 1) % 4 = 2; omega) p q i0
    (by show i0.val = (t.val - 1) / 4 * 2048 + p.val; rw [hi]; congr 2; omega)]
end Running

/-! ## From the written blocks to the array -/

section Final

/-- The specified aggregate at row i0 and feature q is the four block sums, in block order, times the row's scale. -/
theorem tB_apply (H : Arr 8192 4096) (y : Arr 8192 512) (wd : Arr 4096 1) (i0 : Fin 4096) (q : Fin 512) :
    tB H y wd (ix2 i0 q)
      = (0 + blockSum H y 0 i0 q + blockSum H y 1 i0 q + blockSum H y 2 i0 q + blockSum H y 3 i0 q) * rowScale wd i0 := by
  show (∑ b : Fin 4, ∑ r : Fin 2048, H (ix2 (node b r) i0) * y (ix2 (node b r) q)) * wd (ix2 i0 (0 : Fin 1)) = _
  rw [Fin.sum_univ_four, zero_add]
  rfl

/-- What a point that writes back (t % 4 = 3) writes is its block of the specified aggregate: rows
    (t / 4) · 2048 … of it. -/
theorem flushed_eq (c : Dev nD) (t : Fin cfg3.N) (hf : (cfg3.win 3).flush t = true) :
    (dat3 V c).flushed 3 t
      = ((cfg3.win 3).blk t).view.read (Elt Ideal) (tB (V c main_v0_2) (V c main_v12) (V c main_v14)) := by
  have h3 : t.val % 4 = 3 := (flush3_3 t).mp hf
  have hN : t.val < 8 := lt_of_lt_of_eq t.isLt (show cfg3.N = 8 from N_3)
  obtain ⟨-, -, -, -, -, -, e0, e1⟩ := idx_facts t
  show (cfg3.win 3).cut (grid3.coords t) ((dat3 V c).after 3 t) = _
  rw [after3_3]
  funext j
  obtain ⟨p, q, rfl⟩ : ∃ (p : Fin 2048) (q : Fin 512), j = ix2 p q := ⟨j 0, j 1, eq_ix2 j⟩
  have hi : (⟨t.val / 4 * 2048 + p.val, by have := p.isLt; omega⟩ : Fin 4096).val = t.val / 4 * 2048 + p.val := rfl
  refine (run3 V c t h3 p q ⟨t.val / 4 * 2048 + p.val, by have := p.isLt; omega⟩ hi).trans ?_
  rw [← tB_apply]
  rw [View.read_apply]
  show tB (V c main_v0_2) (V c main_v12) (V c main_v14) _ = tB (V c main_v0_2) (V c main_v12) (V c main_v14) (((cfg3.win 3).blk t).view.emb (ix2 p q))
  refine congrArg _ (funext fun a => Fin.ext ?_)
  match a with
  | ⟨0, _⟩ => show t.val / 4 * 2048 + p.val = win3_3.index t (0 : Fin 2) * 2048 + 1 * p.val; rw [e0]; omega
  | ⟨1, _⟩ => show q.val = win3_3.index t (1 : Fin 2) * 512 + 1 * q.val; rw [e1]; omega

/-- An index of the output array is in point t's block iff each coordinate is in the block's range on its axis. -/
theorem mem_blk (t : Fin cfg3.N) (i : S4096x512.Idx) :
    i ∈ ((cfg3.win 3).blk t).view.set ↔ ∀ a : Fin 2, win3_3.index t a * S2048x512.size a ≤ (i a).val ∧ (i a).val < win3_3.index t a * S2048x512.size a + S2048x512.size a := by
  show i ∈ ((View.whole main_v15).slice (win3_3.rect t)).set ↔ _
  rw [View.set_slice_whole, Rect.mem_set_unit]
  exact Iff.rfl

/-- Every row of the output lies in the block of the last point of its hyperedge block's run. -/
theorem cover (i : S4096x512.Idx) : ∃ t : Fin cfg3.N, (cfg3.win 3).flush t = true ∧ i ∈ ((cfg3.win 3).blk t).view.set := by
  have hi0 : (i 0).val < 4096 := (i 0).isLt
  have hi1 : (i 1).val < 512 := (i 1).isLt
  have ht : 4 * ((i 0).val / 2048) + 3 < cfg3.N := lt_of_lt_of_eq (by omega) (show (8 : Nat) = cfg3.N from N_3.symm)
  refine ⟨⟨4 * ((i 0).val / 2048) + 3, ht⟩, (flush3_3 _).mpr (by show (4 * ((i 0).val / 2048) + 3) % 4 = 3; omega), ?_⟩
  obtain ⟨-, -, -, -, -, -, e0, e1⟩ := idx_facts ⟨4 * ((i 0).val / 2048) + 3, ht⟩
  have e0' : win3_3.index ⟨4 * ((i 0).val / 2048) + 3, ht⟩ (0 : Fin 2) = (4 * ((i 0).val / 2048) + 3) / 4 := e0
  rw [mem_blk]
  intro a
  match a with
  | ⟨0, _⟩ =>
    show win3_3.index _ (0 : Fin 2) * 2048 ≤ (i 0).val ∧ (i 0).val < win3_3.index _ (0 : Fin 2) * 2048 + 2048
    rw [e0']; omega
  | ⟨1, _⟩ =>
    show win3_3.index _ (1 : Fin 2) * 512 ≤ (i 1).val ∧ (i 1).val < win3_3.index _ (1 : Fin 2) * 512 + 512
    rw [e1]; omega

/-- The output array after the region is the specified hyperedge aggregate of the arrays the region found. -/
theorem final_t (c : Dev nD) : ((dat3 V c).arrAt 3 cfg3.N : Arr 4096 512) = tB (V c main_v0_2) (V c main_v12) (V c main_v14) :=
  (dat3 V c).arrAt_eq_of_cover 3 (tB (V c main_v0_2) (V c main_v12) (V c main_v14)) (flushed_eq V c) cover
end Final

end Cert.Hgnn.RegionT
end
-- ==== Proof.RegionOut.lean ====
/-
  The fifth region's output array: the node aggregate of `t`, scaled row by row, plus the bias row.

  The region visits the 8192 nodes in four blocks of 2048 and, inside each node block, the 4096 hyperedges in two
  blocks of 2048. For node block `nb` its output block of 2048 rows and 512 columns is

    at hyperedge block 0:   acc(p, q) = 0 + ∑_k H(node nb p, edge 0 k) · t(edge 0 k, q)
    at hyperedge block 1:   acc(p, q) = acc(p, q) + ∑_k H(node nb p, edge 1 k) · t(edge 1 k, q),
                            out(p, q) = degv(node nb p, 0) · acc(p, q) + bias(0, q),

  and the block is written to rows `2048·nb … 2048·nb + 2047` of the output array after hyperedge block 1. Every
  float is an extended real and every operation exact, so the change of float format before the product is the identity.
  Over the extended reals `0 + a = a` and a sum over two hyperedge blocks is the sum of its two terms; nothing else
  is used: no distributivity, no cancellation, hence no finiteness. The four blocks cover the array, so the array ends
  as `outB` of the incidence array, `t`, the node degrees and the bias row as the region finds them.
-/
import proofs.«113879_j86895778333083_2_alg».proof.Proof.Spec
import proofs.«113879_j86895778333083_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«113879_j86895778333083_2_alg».proof.Proof.LibKeepdims

noncomputable section
open Idealize.ShloMosaic Idealize.ShloMosaic.TcCoe Idealize.SL.Sem
open Idealize.ShloMosaic.Pipeline (Dat)

open Idealize.ShloMosaic.ValueIdx
open scoped BigOperators

namespace Cert.Hgnn.RegionOut
open Cert.KernelIdeal Cert.KernelIdeal.Gen
variable (V : (c : Dev nD) → (b : Ref sig .tc) → Buf (Elt Ideal) ((c : Thread nD τ).loc b))

/-! ## What each case of the body leaves in the output block

The body first resets the block to zero when the hyperedge coordinate is 0, then adds the product of the incidence
block with the block of `t`, and, when the hyperedge coordinate is 1, multiplies row by row with the degree column
and adds the bias row. Each case stores the whole block twice; the second store reads the first one back. -/

section Pieces
variable {F : FTy → Type} [FloatOps F]

theorem hz : (![0, 0] : Fin 2 → Nat) = fun _ => 0 := funext fun a => by fin_cases a <;> rfl

/-- Hyperedge coordinate 0: the zero block, then the product added to it. -/
theorem out_A (c : Dev nD) (i : grid4.Coords) (a2 : Memref sig .tc .vmem S2048x2048 .bf16) (h2 : a2.IsWhole)
    (a3 : Memref sig .tc .vmem S2048x512 .f32) (h3 : a3.IsWhole) (a4 : Memref sig .tc .vmem S2048x1 .f32) (h4 : a4.IsWhole)
    (a5 : Memref sig .tc .vmem S1x512 .f32) (h5 : a5.IsWhole) (a6 : Memref sig .tc .vmem S2048x512 .f32) (h6 : a6.IsWhole)
    (hc0 : cond4_0 i) (hc1 : ¬cond4_1 i)
    (x0 : Vec F S2048x2048 .bf16) (x1 : Vec F S2048x512 .f32) (x2 : Vec F S2048x1 .f32) (x3 : Vec F S1x512 .f32) :
    out4_A_4 c i a2 h2 a3 h3 a4 h4 a5 h5 a6 h6 hc0 hc1 x0 x1 x2 x3 = k4_pay2 x0 x1 (k4_pay1 (F := F)) := by
  unfold out4_A_4
  rw [View.read_writes_eq_canon _ _ _ (cover4_A_4 c i a2 h2 a3 h3 a4 h4 a5 h5 a6 h6 hc0 hc1 x0 x1 x2 x3)]
  unfold kernelRun4_A
  dsimp only
  sl_unfold_words
  rw [View.canon_cons_unit_zero (S := S2048x512) hz, View.readCov_unit_zero (S := S2048x512) _ hz]
  simp only [View.readAt_eq_ld, h2.read_unread, h3.read_unread, View.ld_unit_zero (S := S2048x2048) hz, View.ld_unit_zero (S := S2048x512) hz]

/-- Hyperedge coordinate 1: the product added to what the block held (`xo`), then the scaling and the bias. -/
theorem out_B (c : Dev nD) (i : grid4.Coords) (a2 : Memref sig .tc .vmem S2048x2048 .bf16) (h2 : a2.IsWhole)
    (a3 : Memref sig .tc .vmem S2048x512 .f32) (h3 : a3.IsWhole) (a4 : Memref sig .tc .vmem S2048x1 .f32) (h4 : a4.IsWhole)
    (a5 : Memref sig .tc .vmem S1x512 .f32) (h5 : a5.IsWhole) (a6 : Memref sig .tc .vmem S2048x512 .f32) (h6 : a6.IsWhole)
    (hc0 : ¬cond4_0 i) (hc1 : cond4_1 i)
    (x0 : Vec F S2048x2048 .bf16) (x1 : Vec F S2048x512 .f32) (x2 : Vec F S2048x1 .f32) (x3 : Vec F S1x512 .f32) (xo : Vec F S2048x512 .f32) :
    out4_B_4 c i a2 h2 a3 h3 a4 h4 a5 h5 a6 h6 hc0 hc1 x0 x1 x2 x3 xo = k4_pay3 x2 (k4_pay2 x0 x1 xo) x3 := by
  unfold out4_B_4
  rw [View.read_writes_eq_canon _ _ _ (cover4_B_4 c i a2 h2 a3 h3 a4 h4 a5 h5 a6 h6 hc0 hc1 x0 x1 x2 x3 xo)]
  unfold kernelRun4_B
  dsimp only
  sl_unfold_words
  rw [View.canon_cons_unit_zero (S := S2048x512) hz, View.readCov_unit_zero (S := S2048x512) _ hz]
  simp only [View.readAt_eq_ld, h2.read_unread, h3.read_unread, h4.read_unread, h5.read_unread, h6.read_unread,
    View.ld_unit_zero (S := S2048x2048) hz, View.ld_unit_zero (S := S2048x512) hz, View.ld_unit_zero (S := S2048x1) hz,
    View.ld_unit_zero (S := S1x512) hz]

end Pieces

/-! ## The three stored values at an entry, over the extended reals -/

/-- The reset block is zero everywhere. -/
theorem pay1_apply (p : Fin 2048) (q : Fin 512) : (k4_pay1 (F := Ideal)) (ix2 p q) = 0 := by
  unfold k4_pay1
  exact Ideal.ofBits_zero_f32

/-- The left operand of the product at output `i` keeps the output's row. -/
theorem lhs_0 (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl

/-- The right operand of the product at output `i` keeps the output's column. -/
theorem rhs_1 (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

/-- The product of a [2048, 2048] block with a [2048, 512] block into the zero accumulator: at `(p, q)` the sum over
    `k` of `l (p, k) * r (k, q)`; the contraction's own one-axis index set is re-indexed by `Fin 2048`. -/
theorem matmul_apply4 (l : FVec Ideal S2048x2048 .bf16) (r : FVec Ideal S2048x512 .bf16) (p : Fin 2048) (q : Fin 512) :
    matmul (F := Ideal) dot_S2048x2048_S2048x512_S2048x512_1_0_0_1_n_n none l r (constant S2048x512 .f32 0x00000000#32) (ix2 p q)
      = ∑ k : Fin 2048, l (ix2 p k) * r (ix2 k q) := by
  simp only [matmul]
  rw [Ideal.matmul_constant_zero_apply, ← Equiv.sum_comp (contrEquiv1 dot_S2048x2048_S2048x512_S2048x512_1_0_0_1_n_n 2048 rfl rfl).symm]
  refine Finset.sum_congr rfl fun k _ => ?_
  have hk := contrEquiv1_symm_val dot_S2048x2048_S2048x512_S2048x512_1_0_0_1_n_n 2048 rfl rfl k
  have el : dot_S2048x2048_S2048x512_S2048x512_1_0_0_1_n_n.lhsIdx (ix2 p q) ((contrEquiv1 dot_S2048x2048_S2048x512_S2048x512_1_0_0_1_n_n 2048 rfl rfl).symm k) = ix2 p k := funext fun a => Fin.ext (by
    match a with
    | ⟨0, _⟩ => exact lhs_0 _ _
    | ⟨1, _⟩ => exact (dot_S2048x2048_S2048x512_S2048x512_1_0_0_1_n_n.lhsIdx_val_of_single rfl _ _).trans hk)
  have er : dot_S2048x2048_S2048x512_S2048x512_1_0_0_1_n_n.rhsIdx (ix2 p q) ((contrEquiv1 dot_S2048x2048_S2048x512_S2048x512_1_0_0_1_n_n 2048 rfl rfl).symm k) = ix2 k q := funext fun a => Fin.ext (by
    match a with
    | ⟨0, _⟩ => exact (dot_S2048x2048_S2048x512_S2048x512_1_0_0_1_n_n.rhsIdx_val_of_single rfl _ _).trans hk
    | ⟨1, _⟩ => exact rhs_1 _ _)
  rw [el, er]

/-- The accumulation step at an entry: what the block held plus the row of the incidence block against the column of
    the `t` block (the change of float format before the product is the identity on extended reals). -/
theorem pay2_apply (x0 : Vec Ideal S2048x2048 .bf16) (x1 : Vec Ideal S2048x512 .f32) (x8 : Vec Ideal S2048x512 .f32) (p : Fin 2048) (q : Fin 512) :
    k4_pay2 x0 x1 x8 (ix2 p q) = x8 (ix2 p q) + ∑ k : Fin 2048, x0 (ix2 p k) * x1 (ix2 k q) := by
  unfold k4_pay2
  simp only [shapeCast_self]
  refine (addf_apply _ _ _).trans ?_
  refine congrArg (x8 (ix2 p q) + ·) ?_
  exact matmul_apply4 x0 (truncf .bf16 x1 bitsLt_bf16_f32) p q

/-- The closing step at an entry: the degree of the row times the accumulated entry, plus the bias of the column. -/
theorem pay3_apply (x2 : Vec Ideal S2048x1 .f32) (acc : Vec Ideal S2048x512 .f32) (x3 : Vec Ideal S1x512 .f32) (p : Fin 2048) (q : Fin 512) :
    k4_pay3 x2 acc x3 (ix2 p q) = x2 (ix2 p (0 : Fin 1)) * acc (ix2 p q) + x3 (ix2 (0 : Fin 1) q) := by
  unfold k4_pay3
  simp only [shapeCast_self]
  refine (addf_apply _ _ _).trans ?_
  refine congrArg₂ (· + ·) ((mulf_apply _ _ _).trans (congrArg (· * acc (ix2 p q)) ?_)) ?_
  · exact Keepdims.broadcastTo_a1_ab_apply x2 broadcasts_S2048x1_S2048x512 p q 0
  · exact broadcastTo_1b_ab_apply x3 broadcasts_S1x512_S2048x512 p q

/-- Case A at an entry. -/
theorem out_A_apply (c : Dev nD) (i : grid4.Coords) (a2 : Memref sig .tc .vmem S2048x2048 .bf16) (h2 : a2.IsWhole)
    (a3 : Memref sig .tc .vmem S2048x512 .f32) (h3 : a3.IsWhole) (a4 : Memref sig .tc .vmem S2048x1 .f32) (h4 : a4.IsWhole)
    (a5 : Memref sig .tc .vmem S1x512 .f32) (h5 : a5.IsWhole) (a6 : Memref sig .tc .vmem S2048x512 .f32) (h6 : a6.IsWhole)
    (hc0 : cond4_0 i) (hc1 : ¬cond4_1 i)
    (x0 : Vec Ideal S2048x2048 .bf16) (x1 : Vec Ideal S2048x512 .f32) (x2 : Vec Ideal S2048x1 .f32) (x3 : Vec Ideal S1x512 .f32)
    (p : Fin 2048) (q : Fin 512) :
    out4_A_4 c i a2 h2 a3 h3 a4 h4 a5 h5 a6 h6 hc0 hc1 x0 x1 x2 x3 (ix2 p q) = 0 + ∑ k : Fin 2048, x0 (ix2 p k) * x1 (ix2 k q) := by
  rw [out_A, pay2_apply, pay1_apply]

/-- Case B at an entry. -/
theorem out_B_apply (c : Dev nD) (i : grid4.Coords) (a2 : Memref sig .tc .vmem S2048x2048 .bf16) (h2 : a2.IsWhole)
    (a3 : Memref sig .tc .vmem S2048x512 .f32) (h3 : a3.IsWhole) (a4 : Memref sig .tc .vmem S2048x1 .f32) (h4 : a4.IsWhole)
    (a5 : Memref sig .tc .vmem S1x512 .f32) (h5 : a5.IsWhole) (a6 : Memref sig .tc .vmem S2048x512 .f32) (h6 : a6.IsWhole)
    (hc0 : ¬cond4_0 i) (hc1 : cond4_1 i)
    (x0 : Vec Ideal S2048x2048 .bf16) (x1 : Vec Ideal S2048x512 .f32) (x2 : Vec Ideal S2048x1 .f32) (x3 : Vec Ideal S1x512 .f32)
    (xo : Vec Ideal S2048x512 .f32) (p : Fin 2048) (q : Fin 512) :
    out4_B_4 c i a2 h2 a3 h3 a4 h4 a5 h5 a6 h6 hc0 hc1 x0 x1 x2 x3 xo (ix2 p q)
      = x2 (ix2 p (0 : Fin 1)) * (xo (ix2 p q) + ∑ k : Fin 2048, x0 (ix2 p k) * x1 (ix2 k q)) + x3 (ix2 (0 : Fin 1) q) := by
  rw [out_B, pay3_apply, pay2_apply]

/-! ## The blocks the body reads, as entries of the whole arrays

Grid point `t` is node block `t / 2`, hyperedge block `t % 2`. A block's entry sits in its array at
block index times block size plus the coordinate inside the block. -/

/-- The four arrays the region reads, as it finds them: the incidence array, `t`, the node degrees, the bias row. -/
abbrev incid (c : Dev nD) : Arr 8192 4096 := V c main_v0_2
abbrev tArr (c : Dev nD) : Arr 4096 512 := V c main_v15
abbrev degv (c : Dev nD) : Arr 8192 1 := V c main_v11
abbrev bias (c : Dev nD) : Arr 1 512 := V c main_v16

/-- Their blocks at grid point `t`. -/
abbrev b0 (c : Dev nD) (t : Fin cfg4.N) : Vec Ideal S2048x2048 .bf16 := iblk4 V c 0 t
abbrev b1 (c : Dev nD) (t : Fin cfg4.N) : Vec Ideal S2048x512 .f32 := iblk4 V c 1 t
abbrev b2 (c : Dev nD) (t : Fin cfg4.N) : Vec Ideal S2048x1 .f32 := iblk4 V c 2 t
abbrev b3 (c : Dev nD) (t : Fin cfg4.N) : Vec Ideal S1x512 .f32 := iblk4 V c 3 t

/-- The block indices of the five windows at each of the eight grid points. -/
theorem idx_facts : ∀ t : Fin cfg4.N,
    win4_0.index t (0 : Fin 2) = t.val / 2 ∧ win4_0.index t (1 : Fin 2) = t.val % 2
    ∧ win4_1.index t (0 : Fin 2) = t.val % 2 ∧ win4_1.index t (1 : Fin 2) = 0
    ∧ win4_2.index t (0 : Fin 2) = t.val / 2 ∧ win4_2.index t (1 : Fin 2) = 0
    ∧ win4_3.index t (0 : Fin 2) = 0 ∧ win4_3.index t (1 : Fin 2) = 0
    ∧ win4_4.index t (0 : Fin 2) = t.val / 2 ∧ win4_4.index t (1 : Fin 2) = 0 :=
  (by decide +kernel : ∀ t : Fin grid4.N, _)

/-- The incidence block: rows of node block `nb`, columns of hyperedge block `eb`. -/
theorem blk0 (c : Dev nD) (t : Fin cfg4.N) (nb : Fin 4) (eb : Fin 2) (hn : t.val / 2 = nb.val) (he : t.val % 2 = eb.val)
    (p : Fin 2048) (k : Fin 2048) :
    b0 V c t (ix2 p k) = incid V c (ix2 (node nb p) (edge eb k)) := by
  obtain ⟨e0, e1, -⟩ := idx_facts t
  show V c main_v0_2 (((cfg4.win 0).blk t).view.emb (ix2 p k)) = V c main_v0_2 (ix2 (node nb p) (edge eb k))
  refine congrArg (V c main_v0_2) (funext fun a => Fin.ext ?_)
  match a with
  | ⟨0, _⟩ => show win4_0.index t (0 : Fin 2) * 2048 + 1 * p.val = nb.val * 2048 + p.val; rw [e0, hn]; omega
  | ⟨1, _⟩ => show win4_0.index t (1 : Fin 2) * 2048 + 1 * k.val = eb.val * 2048 + k.val; rw [e1, he]; omega

/-- The block of `t`: rows of hyperedge block `eb`, all 512 columns. -/
theorem blk1 (c : Dev nD) (t : Fin cfg4.N) (eb : Fin 2) (he : t.val % 2 = eb.val) (k : Fin 2048) (q : Fin 512) :
    b1 V c t (ix2 k q) = tArr V c (ix2 (edge eb k) q) := by
  obtain ⟨-, -, e0, e1, -⟩ := idx_facts t
  show V c main_v15 (((cfg4.win 1).blk t).view.emb (ix2 k q)) = V c main_v15 (ix2 (edge eb k) q)
  refine congrArg (V c main_v15) (funext fun a => Fin.ext ?_)
  match a with
  | ⟨0, _⟩ => show win4_1.index t (0 : Fin 2) * 2048 + 1 * k.val = eb.val * 2048 + k.val; rw [e0, he]; omega
  | ⟨1, _⟩ => show win4_1.index t (1 : Fin 2) * 512 + 1 * q.val = q.val; rw [e1]; omega

/-- The block of the degree column: rows of node block `nb`. -/
theorem blk2 (c : Dev nD) (t : Fin cfg4.N) (nb : Fin 4) (hn : t.val / 2 = nb.val) (p : Fin 2048) :
    b2 V c t (ix2 p (0 : Fin 1)) = degv V c (ix2 (node nb p) (0 : Fin 1)) := by
  obtain ⟨-, -, -, -, e0, e1, -⟩ := idx_facts t
  show V c main_v11 (((cfg4.win 2).blk t).view.emb (ix2 p (0 : Fin 1))) = V c main_v11 (ix2 (node nb p) (0 : Fin 1))
  refine congrArg (V c main_v11) (funext fun a => Fin.ext ?_)
  match a with
  | ⟨0, _⟩ => show win4_2.index t (0 : Fin 2) * 2048 + 1 * p.val = nb.val * 2048 + p.val; rw [e0, hn]; omega
  | ⟨1, _⟩ => show win4_2.index t (1 : Fin 2) * 1 + 1 * 0 = 0; rw [e1]

/-- The bias row is read whole. -/
theorem blk3 (c : Dev nD) (t : Fin cfg4.N) (q : Fin 512) :
    b3 V c t (ix2 (0 : Fin 1) q) = bias V c (ix2 (0 : Fin 1) q) := by
  obtain ⟨-, -, -, -, -, -, e0, e1, -⟩ := idx_facts t
  show V c main_v16 (((cfg4.win 3).blk t).view.emb (ix2 (0 : Fin 1) q)) = V c main_v16 (ix2 (0 : Fin 1) q)
  refine congrArg (V c main_v16) (funext fun a => Fin.ext ?_)
  match a with
  | ⟨0, _⟩ => show win4_3.index t (0 : Fin 2) * 1 + 1 * 0 = 0; rw [e0]
  | ⟨1, _⟩ => show win4_3.index t (1 : Fin 2) * 512 + 1 * q.val = q.val; rw [e1]; omega

/-! ## The output block after each grid point -/

/-- After the even point of node block `nb`: zero plus the contribution of hyperedge block 0. -/
theorem outsAt_even (c : Dev nD) (n : ℕ) (hn : n < cfg4.N) (h0 : n % 2 = 0) (nb : Fin 4) (hnb : n / 2 = nb.val)
    (p : Fin 2048) (q : Fin 512) :
    outsAt4 V c n hn (ix2 p q)
      = 0 + ∑ k : Fin 2048, incid V c (ix2 (node nb p) (edge 0 k)) * tArr V c (ix2 (edge 0 k) q) := by
  have h1 : ¬n % 2 = 1 := by omega
  refine (congrFun (outsAt4_A V c ⟨n, hn⟩ h0 h1) (ix2 p q)).trans ?_
  refine (out_A_apply c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩)
    (ms4_3 ⟨n, hn⟩) (hs4_3 ⟨n, hn⟩) (ms4_4 ⟨n, hn⟩) (hs4_4 ⟨n, hn⟩) ((hcond4_0 ⟨n, hn⟩).mpr h0) (fun h => h1 ((hcond4_1 ⟨n, hn⟩).mp h))
    (b0 V c ⟨n, hn⟩) (b1 V c ⟨n, hn⟩) (b2 V c ⟨n, hn⟩) (b3 V c ⟨n, hn⟩) p q).trans ?_
  refine congrArg (0 + ·) (Finset.sum_congr rfl fun k _ => ?_)
  rw [blk0 V c ⟨n, hn⟩ nb 0 hnb h0 p k, blk1 V c ⟨n, hn⟩ 0 h0 k q]

/-- After the odd point of node block `nb`: the degree of the row times the two contributions, plus the bias. -/
theorem outsAt_odd (c : Dev nD) (n : ℕ) (hn : n < cfg4.N) (h1 : n % 2 = 1) (nb : Fin 4) (hnb : n / 2 = nb.val)
    (p : Fin 2048) (q : Fin 512) :
    outsAt4 V c n hn (ix2 p q)
      = degv V c (ix2 (node nb p) (0 : Fin 1))
          * ((0 + ∑ k : Fin 2048, incid V c (ix2 (node nb p) (edge 0 k)) * tArr V c (ix2 (edge 0 k) q))
              + ∑ k : Fin 2048, incid V c (ix2 (node nb p) (edge 1 k)) * tArr V c (ix2 (edge 1 k) q))
        + bias V c (ix2 (0 : Fin 1) q) := by
  have h0 : ¬n % 2 = 0 := by omega
  have hp : n - 1 < cfg4.N := Nat.lt_of_le_of_lt (Nat.sub_le _ _) hn
  have hs : ∑ k : Fin 2048, b0 V c ⟨n, hn⟩ (ix2 p k) * b1 V c ⟨n, hn⟩ (ix2 k q)
      = ∑ k : Fin 2048, incid V c (ix2 (node nb p) (edge 1 k)) * tArr V c (ix2 (edge 1 k) q) :=
    Finset.sum_congr rfl fun k _ => by rw [blk0 V c ⟨n, hn⟩ nb 1 hnb h1 p k, blk1 V c ⟨n, hn⟩ 1 h1 k q]
  refine (congrFun (outsAt4_B V c ⟨n, hn⟩ h0 h1) (ix2 p q)).trans ?_
  refine (out_B_apply c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩)
    (ms4_3 ⟨n, hn⟩) (hs4_3 ⟨n, hn⟩) (ms4_4 ⟨n, hn⟩) (hs4_4 ⟨n, hn⟩) (fun h => h0 ((hcond4_0 ⟨n, hn⟩).mp h)) ((hcond4_1 ⟨n, hn⟩).mpr h1)
    (b0 V c ⟨n, hn⟩) (b1 V c ⟨n, hn⟩) (b2 V c ⟨n, hn⟩) (b3 V c ⟨n, hn⟩) (outsAt4 V c (n - 1) hp) p q).trans ?_
  rw [hs, blk2 V c ⟨n, hn⟩ nb hnb p, blk3 V c ⟨n, hn⟩ q, outsAt_even V c (n - 1) hp (by omega) nb (by omega) p q]

/-! ## From the blocks to the array -/

/-- What an odd point writes back is its block of the specification. -/
theorem flushed_eq (c : Dev nD) (t : Fin cfg4.N) (hf : (cfg4.win 4).flush t = true) :
    (dat4 V c).flushed 4 t
      = ((cfg4.win 4).blk t).view.read (Elt Ideal) (outB (V c main_v0_2) (V c main_v15) (V c main_v11) (V c main_v16)) := by
  have h1 : t.val % 2 = 1 := (flush4_4 t).mp hf
  have hN : t.val < 8 := lt_of_lt_of_eq t.isLt (show cfg4.N = 8 from N_4)
  obtain ⟨-, -, -, -, -, -, -, -, e0, e1⟩ := idx_facts t
  show (cfg4.win 4).cut (grid4.coords t) ((dat4 V c).after 4 t) = _
  rw [after4_4]
  funext j
  obtain ⟨p, q, rfl⟩ : ∃ (p : Fin 2048) (q : Fin 512), j = ix2 p q := ⟨j 0, j 1, eq_ix2 (n0 := 2048) (n1 := 512) j⟩
  show outsAt4 V c t.val t.isLt (ix2 p q)
    = outB (incid V c) (tArr V c) (degv V c) (bias V c) (((cfg4.win 4).blk t).view.emb (ix2 p q))
  have hemb : ((cfg4.win 4).blk t).view.emb (ix2 p q) = (ix2 (node ⟨t.val / 2, by omega⟩ p) q : (⟨2, ![8192, 512]⟩ : Shape).Idx) := by
    funext a
    apply Fin.ext
    match a with
    | ⟨0, _⟩ => show win4_4.index t (0 : Fin 2) * 2048 + 1 * p.val = t.val / 2 * 2048 + p.val; rw [e0]; omega
    | ⟨1, _⟩ => show win4_4.index t (1 : Fin 2) * 512 + 1 * q.val = q.val; rw [e1]; omega
  rw [hemb, outsAt_odd V c t.val t.isLt h1 ⟨t.val / 2, by omega⟩ rfl p q]
  show _ = degv V c (ix2 (node ⟨t.val / 2, by omega⟩ p) (0 : Fin 1))
      * (∑ b : Fin 2, ∑ r : Fin 2048, incid V c (ix2 (node ⟨t.val / 2, by omega⟩ p) (edge b r)) * tArr V c (ix2 (edge b r) q))
      + bias V c (ix2 (0 : Fin 1) q)
  rw [Fin.sum_univ_two, zero_add]

/-- Every entry of the array lies in the block of the odd point of its node block. -/
theorem cover (c : Dev nD) (i : (⟨2, ![8192, 512]⟩ : Shape).Idx) :
    ∃ t : Fin cfg4.N, (cfg4.win 4).flush t = true ∧ i ∈ ((cfg4.win 4).blk t).view.set := by
  have hi0 : (i 0).val < 8192 := (i 0).isLt
  have hi1 : (i 1).val < 512 := (i 1).isLt
  have hN : cfg4.N = 8 := N_4
  let t : Fin cfg4.N := ⟨2 * ((i 0).val / 2048) + 1, by rw [hN]; omega⟩
  have ht : t.val = 2 * ((i 0).val / 2048) + 1 := rfl
  obtain ⟨-, -, -, -, -, -, -, -, e0, e1⟩ := idx_facts t
  refine ⟨t, (flush4_4 t).mpr (by rw [ht]; omega), ?_⟩
  show i ∈ ((View.whole main_v17).slice (win4_4.rect t)).set
  rw [View.set_slice_whole, Rect.mem_set_unit]
  intro a
  match a with
  | ⟨0, _⟩ => show win4_4.index t (0 : Fin 2) * 2048 ≤ (i 0).val ∧ (i 0).val < win4_4.index t (0 : Fin 2) * 2048 + 2048; rw [e0, ht]; omega
  | ⟨1, _⟩ => show win4_4.index t (1 : Fin 2) * 512 ≤ (i 1).val ∧ (i 1).val < win4_4.index t (1 : Fin 2) * 512 + 512; rw [e1]; omega

/-- The output array of the fifth region: the node aggregate of `t`, scaled row by row with the node degrees, plus the bias. -/
theorem final_out (c : Dev nD) : ((dat4 V c).arrAt 4 cfg4.N : Arr 8192 512) = outB (V c main_v0_2) (V c main_v15) (V c main_v11) (V c main_v16) :=
  (dat4 V c).arrAt_eq_of_cover 4 (outB (V c main_v0_2) (V c main_v15) (V c main_v11) (V c main_v16)) (fun t hf => flushed_eq V c t hf) (cover c)

end Cert.Hgnn.RegionOut
end
-- ==== Proof.KernelFold.lean ====
/-
  The idealized program's two result arrays, read back through its eight segments to the five argument arrays.

  The program alternates tiled stages and short stretches of host operations. At each boundary the buffers a later
  segment reads are named: a tiled stage leaves its output array at its stage function of its input arrays (the
  five regional theorems) and everything else untouched; a host stretch leaves each operation's result at that
  operation of its operands and everything else untouched. Walking the boundaries from the launch memory to the end,
  the first result is the blocked composition of the whole layer and the second the hyperedge weights as a vector.
-/
import proofs.«113879_j86895778333083_2_alg».proof.Proof.KernelGlue
import proofs.«113879_j86895778333083_2_alg».proof.Proof.RegionEmb
import proofs.«113879_j86895778333083_2_alg».proof.Proof.RegionDege
import proofs.«113879_j86895778333083_2_alg».proof.Proof.RegionDegv
import proofs.«113879_j86895778333083_2_alg».proof.Proof.RegionY
import proofs.«113879_j86895778333083_2_alg».proof.Proof.RegionT
import proofs.«113879_j86895778333083_2_alg».proof.Proof.RegionOut
import proofs.«113879_j86895778333083_2_alg».proof.Proof.Gen.KernelIdeal.Frame
import Idealize.ShloMosaic.Lib.Pipeline.Value
import Idealize.ShloMosaic.Lib.StableHlo.Run

set_option maxRecDepth 16384

noncomputable section

namespace Cert.Hgnn.KernelFold

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The five argument arrays of core `c`, as arrays of extended reals. -/
abbrev aX (c : Dev nD) : Arr 8192 512 := m ((c : Thread nD τ).loc main_arg0)
abbrev aH (c : Dev nD) : Arr 8192 4096 := m ((c : Thread nD τ).loc main_arg1)
abbrev aW (c : Dev nD) : Arr 512 512 := m ((c : Thread nD τ).loc main_arg2)
abbrev aV (c : Dev nD) : Arr 512 1 := m ((c : Thread nD τ).loc main_arg3)
abbrev aB (c : Dev nD) : Arr1 512 := m ((c : Thread nD τ).loc main_arg4)

/-- The intermediate arrays of the blocked composition. -/
abbrev hwK (c : Dev nD) : Arr 4096 1 := hwOf (embB (aH m c) (aX m c)) (aV m c)
abbrev degvK (c : Dev nD) : Arr 8192 1 := degvB (aH m c) (rowOf (hwK m c))
abbrev yK (c : Dev nD) : Arr 8192 512 := yB (aX m c) (aW m c) (degvK m c)
abbrev wdK (c : Dev nD) : Arr 4096 1 := wdOf (hwK m c) (degeB (aH m c))
abbrev tK (c : Dev nD) : Arr 4096 512 := tB (aH m c) (yK m c) (wdK m c)

/-! ## After the first tiled stage -/

theorem W1_arg0 (c : Dev nD) : W1 m ρ c (Proc.devRef .tc main_arg0) = aX m c :=
  (W1_arr m ρ c 1).trans (((dat0 (V0 m ρ) c).arrAt_in 1 rfl _).trans (A_eq0 (V0 m ρ) c 1))
theorem W1_arg1 (c : Dev nD) : W1 m ρ c (Proc.devRef .tc main_arg1) = aH m c :=
  (W1_arr m ρ c 0).trans (((dat0 (V0 m ρ) c).arrAt_in 0 rfl _).trans (A_eq0 (V0 m ρ) c 0))
theorem W1_arg2 (c : Dev nD) : W1 m ρ c (Proc.devRef .tc main_arg2) = aW m c := W1_of_ne m ρ c main_arg2 (by decide)
theorem W1_arg3 (c : Dev nD) : W1 m ρ c (Proc.devRef .tc main_arg3) = aV m c := W1_of_ne m ρ c main_arg3 (by decide)
theorem W1_arg4 (c : Dev nD) : W1 m ρ c (Proc.devRef .tc main_arg4) = aB m c := W1_of_ne m ρ c main_arg4 (by decide)
theorem W1_emb (c : Dev nD) : (W1 m ρ c (Proc.devRef .tc main_v0_0) : Arr 4096 512) = embB (aH m c) (aX m c) :=
  (W1_arr m ρ c 2).trans (RegionEmb.final_emb (V0 m ρ) c)
theorem W1_dege (c : Dev nD) : (W1 m ρ c (Proc.devRef .tc main_v0_1) : Arr 1 4096) = degeB (aH m c) :=
  (W1_arr m ρ c 3).trans (RegionDege.final_dege (V0 m ρ) c)
theorem W1_hb (c : Dev nD) : (W1 m ρ c (Proc.devRef .tc main_v0_2) : Arr 8192 4096) = aH m c :=
  (W1_arr m ρ c 4).trans (RegionDege.final_hb (V0 m ρ) c)

/-! ## After the first stretch of host operations -/

theorem W2_v10 (c : Dev nD) : (W2 m ρ c (Proc.devRef .tc main_v10) : Arr 1 4096) = rowOf (hwK m c) := by
  show StableHlo.after hostOps1 (W1 m ρ c) (Proc.devRef .tc main_v10) = _
  after_results
  rw [W1_emb, W1_arg3, KernelGlue.hw_eq, KernelGlue.row_eq]
theorem W2_v9 (c : Dev nD) : W2 m ρ c (Proc.devRef .tc main_v9) = shapeCast S4096 (hwK m c) shapeCasts_S4096x1_S4096 := by
  show StableHlo.after hostOps1 (W1 m ρ c) (Proc.devRef .tc main_v9) = _
  after_results
  rw [W1_emb, W1_arg3, KernelGlue.hw_eq]
  rfl
theorem W2_v1 (c : Dev nD) : W2 m ρ c (Proc.devRef .tc main_v1) = shapeCast S4096 (degeB (aH m c)) shapeCasts_S1x4096_S4096 := by
  show StableHlo.after hostOps1 (W1 m ρ c) (Proc.devRef .tc main_v1) = _
  after_results
  rw [W1_dege]
  rfl
theorem W2_hb (c : Dev nD) : (W2 m ρ c (Proc.devRef .tc main_v0_2) : Arr 8192 4096) = aH m c := by
  show StableHlo.after hostOps1 (W1 m ρ c) (Proc.devRef .tc main_v0_2) = _
  after_results
  exact W1_hb m ρ c
theorem W2_arg0 (c : Dev nD) : W2 m ρ c (Proc.devRef .tc main_arg0) = aX m c := by
  show StableHlo.after hostOps1 (W1 m ρ c) (Proc.devRef .tc main_arg0) = _
  after_results
  exact W1_arg0 m ρ c
theorem W2_arg2 (c : Dev nD) : W2 m ρ c (Proc.devRef .tc main_arg2) = aW m c := by
  show StableHlo.after hostOps1 (W1 m ρ c) (Proc.devRef .tc main_arg2) = _
  after_results
  exact W1_arg2 m ρ c
theorem W2_arg4 (c : Dev nD) : W2 m ρ c (Proc.devRef .tc main_arg4) = aB m c := by
  show StableHlo.after hostOps1 (W1 m ρ c) (Proc.devRef .tc main_arg4) = _
  after_results
  exact W1_arg4 m ρ c

/-! ## After the second tiled stage (the node degrees) -/

theorem W3_degv (c : Dev nD) : (W3 m ρ c (Proc.devRef .tc main_v11) : Arr 8192 1) = degvK m c := by
  refine (W3_arr m ρ c 2).trans ((RegionDegv.final_degv (V2 m ρ) c).trans ?_)
  show degvB (W2 m ρ c (Proc.devRef .tc main_v0_2)) (W2 m ρ c (Proc.devRef .tc main_v10)) = _
  rw [W2_hb, W2_v10]
theorem W3_hb (c : Dev nD) : (W3 m ρ c (Proc.devRef .tc main_v0_2) : Arr 8192 4096) = aH m c :=
  (W3_arr m ρ c 0).trans ((((dat1 (V2 m ρ) c).arrAt_in 0 rfl _).trans (A_eq1 (V2 m ρ) c 0)).trans (W2_hb m ρ c))
theorem W3_v9 (c : Dev nD) : W3 m ρ c (Proc.devRef .tc main_v9) = shapeCast S4096 (hwK m c) shapeCasts_S4096x1_S4096 :=
  (W3_of_ne m ρ c main_v9 (by decide)).trans (W2_v9 m ρ c)
theorem W3_v1 (c : Dev nD) : W3 m ρ c (Proc.devRef .tc main_v1) = shapeCast S4096 (degeB (aH m c)) shapeCasts_S1x4096_S4096 :=
  (W3_of_ne m ρ c main_v1 (by decide)).trans (W2_v1 m ρ c)
theorem W3_arg0 (c : Dev nD) : W3 m ρ c (Proc.devRef .tc main_arg0) = aX m c :=
  (W3_of_ne m ρ c main_arg0 (by decide)).trans (W2_arg0 m ρ c)
theorem W3_arg2 (c : Dev nD) : W3 m ρ c (Proc.devRef .tc main_arg2) = aW m c :=
  (W3_of_ne m ρ c main_arg2 (by decide)).trans (W2_arg2 m ρ c)
theorem W3_arg4 (c : Dev nD) : W3 m ρ c (Proc.devRef .tc main_arg4) = aB m c :=
  (W3_of_ne m ρ c main_arg4 (by decide)).trans (W2_arg4 m ρ c)

/-! ## After the third tiled stage (the scaled projection) -/

theorem W4_y (c : Dev nD) : (W4 m ρ c (Proc.devRef .tc main_v12) : Arr 8192 512) = yK m c := by
  refine (W4_arr m ρ c 3).trans ((RegionY.final_y (V3 m ρ) c).trans ?_)
  show yB (W3 m ρ c (Proc.devRef .tc main_arg0)) (W3 m ρ c (Proc.devRef .tc main_arg2)) (W3 m ρ c (Proc.devRef .tc main_v11)) = _
  rw [W3_arg0, W3_arg2, W3_degv]
theorem W4_degv (c : Dev nD) : (W4 m ρ c (Proc.devRef .tc main_v11) : Arr 8192 1) = degvK m c :=
  (W4_arr m ρ c 2).trans ((((dat2 (V3 m ρ) c).arrAt_in 2 rfl _).trans (A_eq2 (V3 m ρ) c 2)).trans (W3_degv m ρ c))
theorem W4_hb (c : Dev nD) : (W4 m ρ c (Proc.devRef .tc main_v0_2) : Arr 8192 4096) = aH m c :=
  (W4_of_ne m ρ c main_v0_2 (by decide)).trans (W3_hb m ρ c)
theorem W4_v9 (c : Dev nD) : W4 m ρ c (Proc.devRef .tc main_v9) = shapeCast S4096 (hwK m c) shapeCasts_S4096x1_S4096 :=
  (W4_of_ne m ρ c main_v9 (by decide)).trans (W3_v9 m ρ c)
theorem W4_v1 (c : Dev nD) : W4 m ρ c (Proc.devRef .tc main_v1) = shapeCast S4096 (degeB (aH m c)) shapeCasts_S1x4096_S4096 :=
  (W4_of_ne m ρ c main_v1 (by decide)).trans (W3_v1 m ρ c)
theorem W4_arg4 (c : Dev nD) : W4 m ρ c (Proc.devRef .tc main_arg4) = aB m c :=
  (W4_of_ne m ρ c main_arg4 (by decide)).trans (W3_arg4 m ρ c)

/-! ## After the second stretch of host operations (weight times degree) -/

theorem W5_wd (c : Dev nD) : (W5 m ρ c (Proc.devRef .tc main_v14) : Arr 4096 1) = wdK m c := by
  show StableHlo.after hostOps3 (W4 m ρ c) (Proc.devRef .tc main_v14) = _
  after_results
  rw [W4_v9, W4_v1, KernelGlue.wd_eq]
theorem W5_y (c : Dev nD) : (W5 m ρ c (Proc.devRef .tc main_v12) : Arr 8192 512) = yK m c := by
  show StableHlo.after hostOps3 (W4 m ρ c) (Proc.devRef .tc main_v12) = _
  after_results
  exact W4_y m ρ c
theorem W5_hb (c : Dev nD) : (W5 m ρ c (Proc.devRef .tc main_v0_2) : Arr 8192 4096) = aH m c := by
  show StableHlo.after hostOps3 (W4 m ρ c) (Proc.devRef .tc main_v0_2) = _
  after_results
  exact W4_hb m ρ c
theorem W5_degv (c : Dev nD) : (W5 m ρ c (Proc.devRef .tc main_v11) : Arr 8192 1) = degvK m c := by
  show StableHlo.after hostOps3 (W4 m ρ c) (Proc.devRef .tc main_v11) = _
  after_results
  exact W4_degv m ρ c
theorem W5_v9 (c : Dev nD) : W5 m ρ c (Proc.devRef .tc main_v9) = shapeCast S4096 (hwK m c) shapeCasts_S4096x1_S4096 := by
  show StableHlo.after hostOps3 (W4 m ρ c) (Proc.devRef .tc main_v9) = _
  after_results
  exact W4_v9 m ρ c
theorem W5_arg4 (c : Dev nD) : W5 m ρ c (Proc.devRef .tc main_arg4) = aB m c := by
  show StableHlo.after hostOps3 (W4 m ρ c) (Proc.devRef .tc main_arg4) = _
  after_results
  exact W4_arg4 m ρ c

/-! ## After the fourth tiled stage (the hyperedge aggregate) -/

theorem W6_t (c : Dev nD) : (W6 m ρ c (Proc.devRef .tc main_v15) : Arr 4096 512) = tK m c := by
  refine (W6_arr m ρ c 3).trans ((RegionT.final_t (V5 m ρ) c).trans ?_)
  show tB (W5 m ρ c (Proc.devRef .tc main_v0_2)) (W5 m ρ c (Proc.devRef .tc main_v12)) (W5 m ρ c (Proc.devRef .tc main_v14)) = _
  rw [W5_hb, W5_y, W5_wd]
theorem W6_hb (c : Dev nD) : (W6 m ρ c (Proc.devRef .tc main_v0_2) : Arr 8192 4096) = aH m c :=
  (W6_arr m ρ c 0).trans ((((dat3 (V5 m ρ) c).arrAt_in 0 rfl _).trans (A_eq3 (V5 m ρ) c 0)).trans (W5_hb m ρ c))
theorem W6_degv (c : Dev nD) : (W6 m ρ c (Proc.devRef .tc main_v11) : Arr 8192 1) = degvK m c :=
  (W6_of_ne m ρ c main_v11 (by decide)).trans (W5_degv m ρ c)
theorem W6_v9 (c : Dev nD) : W6 m ρ c (Proc.devRef .tc main_v9) = shapeCast S4096 (hwK m c) shapeCasts_S4096x1_S4096 :=
  (W6_of_ne m ρ c main_v9 (by decide)).trans (W5_v9 m ρ c)
theorem W6_arg4 (c : Dev nD) : W6 m ρ c (Proc.devRef .tc main_arg4) = aB m c :=
  (W6_of_ne m ρ c main_arg4 (by decide)).trans (W5_arg4 m ρ c)

/-! ## After the last host operation (the bias as a row) -/

theorem W7_bias (c : Dev nD) : (W7 m ρ c (Proc.devRef .tc main_v16) : Arr 1 512) = biasRowOf (aB m c) := by
  show StableHlo.after hostOps4 (W6 m ρ c) (Proc.devRef .tc main_v16) = _
  after_results
  rw [W6_arg4, KernelGlue.biasRow_eq]
theorem W7_t (c : Dev nD) : (W7 m ρ c (Proc.devRef .tc main_v15) : Arr 4096 512) = tK m c := by
  show StableHlo.after hostOps4 (W6 m ρ c) (Proc.devRef .tc main_v15) = _
  after_results
  exact W6_t m ρ c
theorem W7_hb (c : Dev nD) : (W7 m ρ c (Proc.devRef .tc main_v0_2) : Arr 8192 4096) = aH m c := by
  show StableHlo.after hostOps4 (W6 m ρ c) (Proc.devRef .tc main_v0_2) = _
  after_results
  exact W6_hb m ρ c
theorem W7_degv (c : Dev nD) : (W7 m ρ c (Proc.devRef .tc main_v11) : Arr 8192 1) = degvK m c := by
  show StableHlo.after hostOps4 (W6 m ρ c) (Proc.devRef .tc main_v11) = _
  after_results
  exact W6_degv m ρ c
theorem W7_v9 (c : Dev nD) : W7 m ρ c (Proc.devRef .tc main_v9) = shapeCast S4096 (hwK m c) shapeCasts_S4096x1_S4096 := by
  show StableHlo.after hostOps4 (W6 m ρ c) (Proc.devRef .tc main_v9) = _
  after_results
  exact W6_v9 m ρ c

/-! ## The two results -/

/-- The first result array ends holding the layer's output, composed from the blocked stages. -/
theorem result_out (c : Dev nD) : (W8 m ρ c (Proc.devRef .tc main_v17) : Arr 8192 512)
    = layerB (aX m c) (aH m c) (aW m c) (aV m c) (aB m c) := by
  refine (W8_arr m ρ c 4).trans ((RegionOut.final_out (V7 m ρ) c).trans ?_)
  show outB (W7 m ρ c (Proc.devRef .tc main_v0_2)) (W7 m ρ c (Proc.devRef .tc main_v15)) (W7 m ρ c (Proc.devRef .tc main_v11))
    (W7 m ρ c (Proc.devRef .tc main_v16)) = _
  rw [W7_hb, W7_t, W7_degv, W7_bias]
  rfl

/-- The second result array ends holding the hyperedge weights as a vector. -/
theorem result_w (c : Dev nD) : (W8 m ρ c (Proc.devRef .tc main_v9) : Arr1 4096) = weightsB (aX m c) (aH m c) (aV m c) := by
  refine (W8_of_ne m ρ c main_v9 (by decide)).trans ((W7_v9 m ρ c).trans ?_)
  exact KernelGlue.vec_eq _

end Cert.Hgnn.KernelFold

end
-- ==== Proof.RefValue.lean ====
/-
  The reference computes the layer with one sum per axis. Stage by stage its run's term, read at an index, is the
  flat form of that stage: the embeddings H^T x, the logistic hyperedge weights, the node degrees H hw, the hyperedge
  degrees (the host's sum starts from the zero word: 0 + s = s), the scaled projection, the hyperedge aggregate scaled
  by weight times degree (the reference multiplies on the left, the flat form on the right: multiplication of extended
  reals commutes), and the node aggregate plus bias.
-/
import proofs.«113879_j86895778333083_2_alg».proof.Proof.Model
import proofs.«113879_j86895778333083_2_alg».proof.Proof.Gen.ReferenceIdeal.Read

noncomputable section

open scoped BigOperators

namespace Cert.Hgnn.RefValue

open Cert.ReferenceIdeal Cert.ReferenceIdeal.Read
open Idealize.ShloMosaic Idealize.ShloMosaic.ValueIdx

variable (x0 : (⟨S8192x512, .f32⟩ : BufTy).Contents (Elt Ideal)) (x1 : (⟨S8192x4096, .f32⟩ : BufTy).Contents (Elt Ideal))
  (x2 : (⟨S512x512, .f32⟩ : BufTy).Contents (Elt Ideal)) (x3 : (⟨S512x1, .f32⟩ : BufTy).Contents (Elt Ideal))
  (x4 : (⟨S512, .f32⟩ : BufTy).Contents (Elt Ideal))

/-- The reference's first product, the transposed incidence array against the features, is the flat embedding. -/
theorem emb_eq : val_main_v1 (F := Ideal) x0 x1 = embF x1 x0 := by
  funext i
  rw [val_main_v1_apply]
  unfold embF
  refine Finset.sum_congr rfl fun k _ => ?_
  rw [val_main_v0_apply]
  have e1 : idx_main_v0 (lidx_main_v1 i k) = ix2 k (i 0) := funext fun a => Fin.ext (by match a with | ⟨0, _⟩ => rfl | ⟨1, _⟩ => rfl)
  have e2 : ridx_main_v1 i k = ix2 k (i 1) := funext fun a => Fin.ext (by match a with | ⟨0, _⟩ => rfl | ⟨1, _⟩ => rfl)
  rw [e1, e2]; rfl

/-- The reference's hyperedge weights are the logistic function of the flat embeddings against `x3`. -/
theorem hw_eq : val_main_v8 (F := Ideal) x0 x1 x3 = hwOf (embF x1 x0) x3 := by
  funext i
  rw [val_main_v8_apply, val_main_v7_apply, val_main_cst_0_apply, val_main_v6_apply, val_main_v5_apply, val_main_cst_apply,
    val_main_v4_apply, val_main_v3_apply, val_main_v2_apply, emb_eq]
  unfold hwOf sigm one
  have e : ∀ k : Fin 512, embF x1 x0 (lidx_main_v2 i k) * x3 (ridx_main_v2 i k) = embF x1 x0 (ix2 (i 0) k) * x3 (ix2 k (0 : Fin 1)) := fun k => by
    have e1 : lidx_main_v2 i k = ix2 (i 0) k := funext fun a => Fin.ext (by match a with | ⟨0, _⟩ => rfl | ⟨1, _⟩ => rfl)
    have e2 : ridx_main_v2 i k = ix2 k (0 : Fin 1) := funext fun a => Fin.ext (by
      match a with
      | ⟨0, _⟩ => rfl
      | ⟨1, _⟩ => exact Nat.lt_one_iff.mp (i 1).isLt)
    rw [e1, e2]; rfl
  rw [Finset.sum_congr rfl fun k _ => e k]

/-- The reference's second result: the hyperedge weights as a vector. -/
theorem weights_eq : val_main_v9 (F := Ideal) x0 x1 x3 = weightsF x0 x1 x3 := by
  funext i
  rw [val_main_v9_apply, hw_eq]
  unfold weightsF vecOf
  have e : idx_main_v9 i = ix2 (i 0) (0 : Fin 1) := funext fun a => Fin.ext (by
    match a with
    | ⟨0, _⟩ => exact Nat.div_one _
    | ⟨1, _⟩ => rfl)
  rw [e]; rfl

/-- The reference's node degrees, a column: each incidence row against the hyperedge weights. -/
theorem degv_eq : val_main_v10 (F := Ideal) x0 x1 x3 = degvB x1 (rowOf (hwOf (embF x1 x0) x3)) := by
  funext i
  rw [val_main_v10_apply, hw_eq]
  unfold degvB rowOf
  refine Finset.sum_congr rfl fun k _ => ?_
  have e1 : lidx_main_v10 i k = ix2 (i 0) k := funext fun a => Fin.ext (by match a with | ⟨0, _⟩ => rfl | ⟨1, _⟩ => rfl)
  have e2 : ridx_main_v10 i k = ix2 k (0 : Fin 1) := funext fun a => Fin.ext (by
    match a with
    | ⟨0, _⟩ => rfl
    | ⟨1, _⟩ => exact Nat.lt_one_iff.mp (i 1).isLt)
  rw [e1, e2]; rfl

/-- The node degrees broadcast along the feature axis: at (n, j) the degree of node n. -/
theorem degv_bcast (i : S8192x512.Idx) :
    val_main_v16 (F := Ideal) x0 x1 x3 i = degvB x1 (rowOf (hwOf (embF x1 x0) x3)) (ix2 (i 0) (0 : Fin 1)) := by
  rw [val_main_v16_apply, val_main_v15_apply, val_main_v11_apply, degv_eq]
  congr 1
  exact funext fun a => Fin.ext (by
    match a with
    | ⟨0, _⟩ => exact Nat.div_one _
    | ⟨1, _⟩ => rfl)

/-- The reference's hyperedge degrees: the host's sum starts from the zero word, which is the real zero. -/
theorem dege_eq (i : S4096.Idx) : val_main_v12 (F := Ideal) x1 i = degeF x1 (ix2 (0 : Fin 1) (i 0)) := by
  rw [val_main_v12_apply, val_main_cst_1_apply]
  unfold degeF
  rw [show (FloatOps.ofBits (F := Ideal) .f32 0x00000000#32 : EReal) = 0 from Ideal.ofBits_zero_f32, zero_add]
  refine Finset.sum_congr rfl fun k _ => ?_
  have e : idx_main_v12 i k = ix2 k (i 0) := funext fun a => Fin.ext (by match a with | ⟨0, _⟩ => rfl | ⟨1, _⟩ => rfl)
  rw [e]; rfl

/-- The reference's scaled projection: node degree times the features against the weight. -/
theorem y_eq : val_main_v17 (F := Ideal) x0 x1 x2 x3 = yB x0 x2 (degvB x1 (rowOf (hwOf (embF x1 x0) x3))) := by
  funext i
  rw [val_main_v17_apply, degv_bcast, val_main_v13_apply]
  unfold yB
  congr 1
  refine Finset.sum_congr rfl fun k _ => ?_
  have e1 : lidx_main_v13 i k = ix2 (i 0) k := funext fun a => Fin.ext (by match a with | ⟨0, _⟩ => rfl | ⟨1, _⟩ => rfl)
  have e2 : ridx_main_v13 i k = ix2 k (i 1) := funext fun a => Fin.ext (by match a with | ⟨0, _⟩ => rfl | ⟨1, _⟩ => rfl)
  rw [e1, e2]; rfl

/-- The reference's hyperedge aggregate, scaled on the left by weight times degree: the flat form scales on the right. -/
theorem t_eq : val_main_v22 (F := Ideal) x0 x1 x2 x3
    = tF x1 (yB x0 x2 (degvB x1 (rowOf (hwOf (embF x1 x0) x3)))) (wdOf (hwOf (embF x1 x0) x3) (degeF x1)) := by
  funext i
  rw [val_main_v22_apply, val_main_v21_apply, val_main_v20_apply, val_main_v19_apply, val_main_v9_apply, hw_eq, dege_eq,
    val_main_v18_apply, y_eq]
  unfold tF wdOf
  have e9 : idx_main_v9 (idx_main_v20 (idx_main_v21 i)) = ix2 (i 0) (0 : Fin 1) := funext fun a => Fin.ext (by
    match a with
    | ⟨0, _⟩ => exact Nat.div_one _
    | ⟨1, _⟩ => rfl)
  have e12 : (ix2 (0 : Fin 1) ((idx_main_v20 (idx_main_v21 i)) 0) : (⟨2, ![1, 4096]⟩ : Shape).Idx) = ix2 (0 : Fin 1) (i 0) :=
    funext fun a => Fin.ext (by match a with | ⟨0, _⟩ => rfl | ⟨1, _⟩ => rfl)
  have es : ∀ k : Fin 8192, (val_main_v14 (F := Ideal) x1) (lidx_main_v18 i k)
        * (yB x0 x2 (degvB x1 (rowOf (hwOf (embF x1 x0) x3)))) (ridx_main_v18 i k)
      = x1 (ix2 k (i 0)) * (yB x0 x2 (degvB x1 (rowOf (hwOf (embF x1 x0) x3)))) (ix2 k (i 1)) := fun k => by
    rw [val_main_v14_apply]
    have e1 : idx_main_v14 (lidx_main_v18 i k) = ix2 k (i 0) := funext fun a => Fin.ext (by match a with | ⟨0, _⟩ => rfl | ⟨1, _⟩ => rfl)
    have e2 : ridx_main_v18 i k = ix2 k (i 1) := funext fun a => Fin.ext (by match a with | ⟨0, _⟩ => rfl | ⟨1, _⟩ => rfl)
    rw [e1, e2]; rfl
  rw [e9, e12, Finset.sum_congr rfl fun k _ => es k]
  exact mul_comm _ _

/-- The reference's first result: the node aggregate scaled by the node degrees, plus the bias. -/
theorem out_eq : val_main_v29 (F := Ideal) x0 x1 x2 x3 x4 = layerF x0 x1 x2 x3 x4 := by
  funext i
  rw [val_main_v29_apply, val_main_v26_apply, val_main_v25_apply, val_main_v23_apply, val_main_v11_apply, degv_eq,
    val_main_v24_apply, t_eq, val_main_v28_apply, val_main_v27_apply]
  unfold layerF outF biasRowOf
  have ed : idx_main_v11 (idx_main_v23 (idx_main_v25 i)) = ix2 (i 0) (0 : Fin 1) := funext fun a => Fin.ext (by
    match a with
    | ⟨0, _⟩ => exact Nat.div_one _
    | ⟨1, _⟩ => rfl)
  have eb : idx_main_v27 (idx_main_v28 i) = ix1 (i 1) := funext fun a => Fin.ext (by match a with | ⟨0, _⟩ => rfl)
  have es : ∀ k : Fin 4096, x1 (lidx_main_v24 i k)
        * (tF x1 (yB x0 x2 (degvB x1 (rowOf (hwOf (embF x1 x0) x3)))) (wdOf (hwOf (embF x1 x0) x3) (degeF x1))) (ridx_main_v24 i k)
      = x1 (ix2 (i 0) k) * (tF x1 (yB x0 x2 (degvB x1 (rowOf (hwOf (embF x1 x0) x3)))) (wdOf (hwOf (embF x1 x0) x3) (degeF x1))) (ix2 k (i 1)) := fun k => by
    have e1 : lidx_main_v24 i k = ix2 (i 0) k := funext fun a => Fin.ext (by match a with | ⟨0, _⟩ => rfl | ⟨1, _⟩ => rfl)
    have e2 : ridx_main_v24 i k = ix2 k (i 1) := funext fun a => Fin.ext (by match a with | ⟨0, _⟩ => rfl | ⟨1, _⟩ => rfl)
    rw [e1, e2]; rfl
  rw [ed, eb, Finset.sum_congr rfl fun k _ => es k]
  rfl

end Cert.Hgnn.RefValue

end
-- ==== Proof.Algebra.lean ====
/-
  The blocked and the flat forms of the layer agree.

  A finite sum over the 8192 nodes equals the sum over four blocks of the sums over the 2048 nodes of each block,
  because addition of extended reals is commutative and associative and every node is node `r` of block `b` for
  exactly one pair (b, r); the same holds for the 4096 hyperedges in two blocks. The compensating product in the
  blocked embedding is a sum of zeros when the features are finite: a - a = 0 for a finite extended real, and
  h * 0 = 0 for every extended real h. Nothing else is used: no distributivity, no cancellation.
-/
import proofs.«113879_j86895778333083_2_alg».proof.Proof.Model
import Mathlib.Data.EReal.Operations
import Mathlib.Logic.Equiv.Fin.Basic
import Mathlib.Algebra.BigOperators.Fin

noncomputable section

open scoped BigOperators

namespace Cert.Hgnn

open Idealize.ShloMosaic Idealize.ShloMosaic.ValueIdx

/-! ## Regrouping a sum into blocks -/

/-- The pair (b, r) goes to the number b * 2048 + r under the standard bijection of Fin 4 x Fin 2048 with Fin 8192,
    that is, to node `r` of block `b`. -/
theorem finProd_node (p : Fin 4 × Fin 2048) : (finProdFinEquiv p : Fin 8192) = node p.1 p.2 :=
  Fin.ext (by simp only [finProdFinEquiv, Equiv.coe_fn_mk, node]; omega)

/-- The pair (b, r) goes to hyperedge `r` of block `b` under the standard bijection of Fin 2 x Fin 2048 with Fin 4096. -/
theorem finProd_edge (p : Fin 2 × Fin 2048) : (finProdFinEquiv p : Fin 4096) = edge p.1 p.2 :=
  Fin.ext (by simp only [finProdFinEquiv, Equiv.coe_fn_mk, edge]; omega)

/-- A sum over all 8192 nodes is the sum over the four node blocks of the sums over each block's 2048 nodes:
    reindex along the bijection (b, r) -> b * 2048 + r, then split the sum over pairs into an iterated sum. -/
theorem sum_node (f : Fin 8192 → EReal) : ∑ n, f n = ∑ b : Fin 4, ∑ r : Fin 2048, f (node b r) :=
  calc ∑ n, f n = ∑ p : Fin 4 × Fin 2048, f (finProdFinEquiv p : Fin 8192) :=
        (Equiv.sum_comp (finProdFinEquiv : Fin 4 × Fin 2048 ≃ Fin 8192) f).symm
    _ = ∑ p : Fin 4 × Fin 2048, f (node p.1 p.2) := by simp only [finProd_node]
    _ = ∑ b : Fin 4, ∑ r : Fin 2048, f (node b r) := Fintype.sum_prod_type' (fun b r => f (node b r))

/-- A sum over all 4096 hyperedges is the sum over the two hyperedge blocks of the sums over each block's 2048 hyperedges. -/
theorem sum_edge (g : Fin 4096 → EReal) : ∑ e, g e = ∑ b : Fin 2, ∑ r : Fin 2048, g (edge b r) :=
  calc ∑ e, g e = ∑ p : Fin 2 × Fin 2048, g (finProdFinEquiv p : Fin 4096) :=
        (Equiv.sum_comp (finProdFinEquiv : Fin 2 × Fin 2048 ≃ Fin 4096) g).symm
    _ = ∑ p : Fin 2 × Fin 2048, g (edge p.1 p.2) := by simp only [finProd_edge]
    _ = ∑ b : Fin 2, ∑ r : Fin 2048, g (edge b r) := Fintype.sum_prod_type' (fun b r => g (edge b r))

/-! ## The compensating term -/

/-- For a finite extended real a, the product h * (a - a) is zero whatever h is: a - a = 0 and h * 0 = 0. -/
theorem mul_sub_self_eq_zero (h a : EReal) (ha : a ≠ ⊤ ∧ a ≠ ⊥) : h * (a - a) = 0 := by
  rw [EReal.sub_self ha.1 ha.2, mul_zero]

/-- With finite features, one node block's contribution to an embedding is just the block's incidence column against
    the features: the compensating sum is a sum of zeros. -/
theorem embBlock_eq (x : Arr 8192 512) (H : Arr 8192 4096) (hx : ∀ i, x i ≠ ⊤ ∧ x i ≠ ⊥) (e : Fin 4096) (k : Fin 512)
    (b : Fin 4) : embBlock H x e k b = ∑ r : Fin 2048, H (ix2 (node b r) e) * x (ix2 (node b r) k) := by
  unfold embBlock
  simp only [mul_sub_self_eq_zero _ _ (hx _), Finset.sum_const_zero, add_zero]

/-! ## Stage by stage -/

/-- With finite features the blocked embeddings are the flat ones: drop the compensating sums, then regroup. -/
theorem embB_eq_embF (x : Arr 8192 512) (H : Arr 8192 4096) (hx : ∀ i, x i ≠ ⊤ ∧ x i ≠ ⊥) : embB H x = embF H x := by
  funext i
  simp only [embB, embF]
  exact (Finset.sum_congr rfl (fun b _ => embBlock_eq x H hx (i 0) (i 1) b)).trans
    (sum_node (fun n => H (ix2 n (i 0)) * x (ix2 n (i 1)))).symm

/-- The blocked hyperedge degrees are the flat ones, by regrouping. -/
theorem degeB_eq_degeF (H : Arr 8192 4096) : degeB H = degeF H := by
  funext i
  simp only [degeB, degeF]
  exact (sum_node (fun n => H (ix2 n (i 1)))).symm

/-- The blocked hyperedge aggregate is the flat one, by regrouping the sum that the right scale multiplies. -/
theorem tB_eq_tF (H : Arr 8192 4096) (y : Arr 8192 512) (wd : Arr 4096 1) : tB H y wd = tF H y wd := by
  funext i
  simp only [tB, tF]
  exact congrArg (· * wd (ix2 (i 0) (0 : Fin 1))) (sum_node (fun n => H (ix2 n (i 0)) * y (ix2 n (i 1)))).symm

/-- The blocked node aggregate is the flat one, by regrouping the sum over hyperedges inside the scale and shift. -/
theorem outB_eq_outF (H : Arr 8192 4096) (t : Arr 4096 512) (degv : Arr 8192 1) (biasRow : Arr 1 512) :
    outB H t degv biasRow = outF H t degv biasRow := by
  funext i
  simp only [outB, outF]
  exact congrArg (fun s => degv (ix2 (i 0) (0 : Fin 1)) * s + biasRow (ix2 (0 : Fin 1) (i 1)))
    (sum_edge (fun e => H (ix2 (i 0) e) * t (ix2 e (i 1)))).symm

/-! ## The two compositions -/

/-- With finite features, the layer composed from the blocked stages equals the layer composed from the flat ones. -/
theorem layerB_eq_layerF (x : Arr 8192 512) (H : Arr 8192 4096) (W : Arr 512 512) (Vv : Arr 512 1) (bias : Arr1 512)
    (hx : ∀ i, x i ≠ ⊤ ∧ x i ≠ ⊥) : layerB x H W Vv bias = layerF x H W Vv bias := by
  simp only [layerB, layerF, embB_eq_embF x H hx, degeB_eq_degeF, tB_eq_tF, outB_eq_outF]

/-- With finite features, the hyperedge weights from the blocked embeddings equal those from the flat embeddings. -/
theorem weightsB_eq_weightsF (x : Arr 8192 512) (H : Arr 8192 4096) (Vv : Arr 512 1)
    (hx : ∀ i, x i ≠ ⊤ ∧ x i ≠ ⊥) : weightsB x H Vv = weightsF x H Vv := by
  simp only [weightsB, weightsF, embB_eq_embF x H hx]

end Cert.Hgnn

end
-- ==== Proof.FinitePre.lean ====
import proofs.«113879_j86895778333083_2_alg».proof.Proof.Model
import proofs.«113879_j86895778333083_2_alg».proof.Defs
import proofs.«113879_j86895778333083_2_alg».proof.Proof.Gen.Pre_finite_inputs
import Idealize.ShloMosaic.Lib.ReduceAll
import Idealize.ShloMosaic.Lib.ValueIdx

/-!
  Finiteness of the node features, read back from the precondition.

  The precondition says that a printed predicate of the five argument arrays evaluates to the bit 1. The predicate is
  a conjunction of five "all entries satisfy |v| < +infinity" tests, one per array, the node features' test sitting
  innermost on the left. Taking the conjunction apart and then the "all", every entry x of the node features satisfies
  max x (-x) < +infinity as an extended real, which excludes both infinities: x is a real number.
-/

noncomputable section
open Idealize.ShloMosaic Idealize.ShloMosaic.TcCoe Idealize.SL.Sem

namespace Cert.Hgnn.FinitePre

/-- An extended real whose absolute value, max x (-x), lies strictly below +infinity is a real number:
    at either infinity the absolute value is +infinity itself. -/
theorem finite_of_abs_lt_top (x : EReal) (h : max x (-x) < ⊤) : x ≠ ⊤ ∧ x ≠ ⊥ := by
  constructor
  · rintro rfl; simp at h
  · rintro rfl; simp at h

/-- The rank-0 shape has a single index. -/
instance : Subsingleton Cert.Pre_finite_inputs.S_.Idx := ⟨fun a b => funext fun d => d.elim0⟩

/-- The word 0x7F800000 denotes +infinity. -/
theorem inf_word : Ideal.ofBits .f32 0x7F800000#32 = (⊤ : EReal) := by simp [Ideal.ofBits, Ideal.ieee]

/-- The ordered less-than comparison of two extended reals answers 1 only when the first is strictly smaller. -/
theorem lt_of_cmp_olt (a b : EReal) (h : Ideal.cmp .olt a b = 1#1) : a < b := by
  by_contra hn
  rw [Ideal.cmp, decide_eq_false hn] at h
  exact absurd h (by decide)

/-- One entry's test: if "|x| < the value of the word 0x7F800000" answers 1, then x is a real number. -/
theorem finite_of_cmp (x : EReal) (h : Ideal.cmp .olt (max x (-x)) (Ideal.ofBits .f32 0x7F800000#32) = 1#1) :
    x ≠ ⊤ ∧ x ≠ ⊥ := by
  rw [inf_word] at h
  exact finite_of_abs_lt_top x (lt_of_cmp_olt _ _ h)

open Cert.KernelIdeal in
/-- Under the precondition every entry of the node features is a real number. -/
theorem x_finite [hP : Cert.Pre_finite_inputs.Facts] (m : (ℓ : Loc nD τ sig) → Buf (Elt Ideal) ℓ) (h : Cert.Pre_KernelIdeal m) (c : Dev nD)
    (i : (⟨2, ![8192, 512]⟩ : Shape).Idx) :
    (m ((c.tc : Thread nD τ).loc main_arg0) : Arr 8192 512) i ≠ (⊤ : EReal) ∧ (m ((c.tc : Thread nD τ).loc main_arg0) : Arr 8192 512) i ≠ (⊥ : EReal) := by
  -- the predicate's single output bit
  have h0 := congrFun (h c) ValueIdx.ix0
  unfold Cert.Pre_finite_inputs.fn Cert.Pre_finite_inputs.fn_part1 at h0
  dsimp only at h0
  -- the conjunction nests to the left: four steps reach the node features' conjunct
  have h1 := (IntOp.andi_eq_one.1 h0).1
  have h2 := (IntOp.andi_eq_one.1 h1).1
  have h3 := (IntOp.andi_eq_one.1 h2).1
  have h4 := (IntOp.andi_eq_one.1 h3).1
  -- "all entries" answers 1, so the entry at i does
  have h5 := Host.reduce_andi_all _ _ _ _ _ h4 i
  exact finite_of_cmp ((m ((c.tc : Thread nD τ).loc main_arg0) : Arr 8192 512) i) h5

end Cert.Hgnn.FinitePre
end
-- ==== Proof.lean ====
/-
  One hypergraph convolution layer computed two ways agrees over the extended reals.

  The tiled program runs five tiled stages among a few host operations: hyperedge embeddings and degrees accumulated
  node block by node block, the logistic hyperedge weights, the weighted node degrees, the projected features scaled
  by them, the hyperedge aggregate accumulated node block by node block and scaled by weight times degree, and the
  node aggregate accumulated hyperedge block by hyperedge block, scaled and shifted by the bias. The reference computes
  the same quantities with one sum per axis.

  * Each program runs to the end without a fault and leaves its argument arrays as launched: the word-level program
    and its idealization by their frame theorems, the reference by its run.
  * The idealization's one rewrite, widening a narrowed vector back to the wider format, is the identity over the
    extended reals and the rounding function at the word level.
  * At the extended reals the idealized program's first result is the blocked composition of the stage functions and
    its second the hyperedge weights; the reference's results are the flat composition and the same weights. A finite
    sum regrouped into blocks is the same sum, and the compensating product x - x that the blocked embedding carries
    vanishes because the precondition makes every entry of x finite. So the results agree entry by entry.
-/
import proofs.«113879_j86895778333083_2_alg».proof.Defs
import proofs.«113879_j86895778333083_2_alg».proof.Proof.Gen.Kernel
import proofs.«113879_j86895778333083_2_alg».proof.Proof.Gen.Kernel.Frame
import proofs.«113879_j86895778333083_2_alg».proof.Proof.Gen.KernelIdeal
import proofs.«113879_j86895778333083_2_alg».proof.Proof.Gen.KernelIdeal.Frame
import proofs.«113879_j86895778333083_2_alg».proof.Proof.Gen.ReferenceIdeal
import proofs.«113879_j86895778333083_2_alg».proof.Proof.Gen.Pre_finite_inputs
import proofs.«113879_j86895778333083_2_alg».proof.Proof.Gen.ReferenceIdeal.Run
import proofs.«113879_j86895778333083_2_alg».proof.Proof.Gen.ReferenceIdeal.Read
import proofs.«113879_j86895778333083_2_alg».proof.Proof.KernelRun
import proofs.«113879_j86895778333083_2_alg».proof.Proof.KernelFold
import proofs.«113879_j86895778333083_2_alg».proof.Proof.RefValue
import proofs.«113879_j86895778333083_2_alg».proof.Proof.Algebra
import proofs.«113879_j86895778333083_2_alg».proof.Proof.FinitePre
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_word : Cert.frame_Kernel := fun m ρ _ => Cert.Kernel.Gen.frame m ρ

/-- The idealized program runs and keeps its arguments. -/
theorem frame_ideal : Cert.frame_KernelIdeal := fun m ρ _ => Cert.KernelIdeal.Gen.frame m ρ

/-- The reference runs and keeps its arguments: its run with the two results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- Widening a narrowed [2048, 512] vector back: the identity over the extended reals, the rounding at the word level. -/
theorem preserves : Cert.preserves_Kernel_KernelIdeal :=
  IdealRules.truncf_extf.statement Cert.KernelIdeal.S2048x512 .f32 .bf16

/-- Both idealized programs end with the flat composition of the layer and the hyperedge weights of the shared arguments. -/
theorem algebraic : Cert.algebraic_KernelIdeal_ReferenceIdeal := by
  intro m ρ m' ρ' hpre hagree
  refine ⟨fun c => Cert.Hgnn.layerF (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Hgnn.weightsF (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun _ h c => ⟨?_, ?_, (h c).2.2⟩) (Cert.Hgnn.KernelRun.run (F := Ideal) m ρ)
    · exact ((h c).1.trans (Cert.Hgnn.KernelFold.result_out m ρ c)).trans
        (Cert.Hgnn.layerB_eq_layerF _ _ _ _ _ (fun i => Cert.Hgnn.FinitePre.x_finite m hpre c i))
    · exact ((h c).2.1.trans (Cert.Hgnn.KernelFold.result_w m ρ c)).trans
        (Cert.Hgnn.weightsB_eq_weightsF _ _ _ (fun i => Cert.Hgnn.FinitePre.x_finite m hpre c i))
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v29_eq, Cert.Hgnn.RefValue.out_eq,
        (hagree c).1, (hagree c).2.1, (hagree c).2.2.1, (hagree c).2.2.2.1, (hagree c).2.2.2.2]
    · rw [(h c).2.1, Cert.ReferenceIdeal.Read.val_main_v9_eq, Cert.Hgnn.RefValue.weights_eq,
        (hagree c).1, (hagree c).2.1, (hagree c).2.2.2.1]

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
